-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x24x3x256x256 : Shape := ⟨5, ![8, 24, 3, 256, 256]⟩
abbrev S_ : Shape := ⟨0, ![]⟩

class Facts : Prop where
  bcast_S_S8x24x3x256x256 : S_.BroadcastsInDim S8x24x3x256x256 (![] : Fin 0 → Fin S8x24x3x256x256.rank)
  reducesTo_S8x24x3x256x256_S_d0_1_2_3_4 : S8x24x3x256x256.ReducesTo [0, 1, 2, 3, 4] S_
  h_S_ : 0 < S_.numel

variable [Facts]

def fn {F : FTy → Type} [FloatOps F] (main_arg0 : FVec F S8x24x3x256x256 .f32) : IVec S_ 1 :=
  let main_v0 : FVec F S8x24x3x256x256 .f32 := Host.absf main_arg0
  let main_cst : FVec F S_ .f32 := constant S_ .f32 0x7F800000#32
  let main_v1 : FVec F S8x24x3x256x256 .f32 := broadcastInDim S8x24x3x256x256 ![] bcast_S_S8x24x3x256x256 main_cst
  let main_v2 : IVec S8x24x3x256x256 1 := cmpf .olt main_v0 main_v1
  let main_c : IVec S_ 1 := constantI S_ 1 1#1
  let main_v3 : IVec S_ 1 := (fun x v => Host.reduce IntOp.andi x v reducesTo_S8x24x3x256x256_S_d0_1_2_3_4 h_S_) main_v2 main_c
  main_v3
-- ==== Kernel.lean ====
abbrev S8x24x3x256x256 : Shape := ⟨5, ![8, 24, 3, 256, 256]⟩
abbrev S16 : Shape := ⟨1, ![16]⟩
abbrev S8 : Shape := ⟨1, ![8]⟩
abbrev S64x2304x256 : Shape := ⟨3, ![64, 2304, 256]⟩
abbrev S64x1536x256 : Shape := ⟨3, ![64, 1536, 256]⟩
abbrev S8x1536x256 : Shape := ⟨3, ![8, 1536, 256]⟩
abbrev S1152x128x256 : Shape := ⟨3, ![1152, 128, 256]⟩
abbrev S384x128x256 : Shape := ⟨3, ![384, 128, 256]⟩
abbrev S1x128x256 : Shape := ⟨3, ![1, 128, 256]⟩
abbrev S_ : Shape := ⟨0, ![]⟩
abbrev S8x16x3x256x256 : Shape := ⟨5, ![8, 16, 3, 256, 256]⟩
abbrev S8x8x3x256x256 : Shape := ⟨5, ![8, 8, 3, 256, 256]⟩
abbrev S1x16 : Shape := ⟨2, ![1, 16]⟩
abbrev S1x1x1x16 : Shape := ⟨4, ![1, 1, 1, 16]⟩
abbrev S8x1x1x16 : Shape := ⟨4, ![8, 1, 1, 16]⟩
abbrev S8x16 : Shape := ⟨2, ![8, 16]⟩
abbrev S1x8 : Shape := ⟨2, ![1, 8]⟩
abbrev S1x1x1x8 : Shape := ⟨4, ![1, 1, 1, 8]⟩
abbrev S8x1x1x8 : Shape := ⟨4, ![8, 1, 1, 8]⟩
abbrev S8x8 : Shape := ⟨2, ![8, 8]⟩

abbrev nBuf : Table → Nat
  | .hbm => 17
  | .local .tc .vmem => 4
  | .local .scVector .vmem => 2
  | _ => 0

abbrev bufTy : (tb : Table) → Fin (nBuf tb) → BufTy
  | .hbm, ⟨0, _⟩ => ⟨S8x24x3x256x256, .f32⟩
  | .hbm, ⟨1, _⟩ => ⟨S16, .i32⟩
  | .hbm, ⟨2, _⟩ => ⟨S8, .i32⟩
  | .hbm, ⟨3, _⟩ => ⟨S64x2304x256, .f32⟩
  | .hbm, ⟨4, _⟩ => ⟨S64x1536x256, .f32⟩
  | .hbm, ⟨5, _⟩ => ⟨S1152x128x256, .f32⟩
  | .hbm, ⟨6, _⟩ => ⟨S384x128x256, .f32⟩
  | .hbm, ⟨7, _⟩ => ⟨S8x16x3x256x256, .f32⟩
  | .hbm, ⟨8, _⟩ => ⟨S8x8x3x256x256, .f32⟩
  | .hbm, ⟨9, _⟩ => ⟨S1x16, .i32⟩
  | .hbm, ⟨10, _⟩ => ⟨S1x1x1x16, .i32⟩
  | .hbm, ⟨11, _⟩ => ⟨S8x1x1x16, .i32⟩
  | .hbm, ⟨12, _⟩ => ⟨S8x16, .i32⟩
  | .hbm, ⟨13, _⟩ => ⟨S1x8, .i32⟩
  | .hbm, ⟨14, _⟩ => ⟨S1x1x1x8, .i32⟩
  | .hbm, ⟨15, _⟩ => ⟨S8x1x1x8, .i32⟩
  | .hbm, ⟨16, _⟩ => ⟨S8x8, .i32⟩
  | .local .tc .vmem, ⟨0, _⟩ => ⟨S8x1536x256, .f32⟩
  | .local .tc .vmem, ⟨1, _⟩ => ⟨S8x1536x256, .f32⟩
  | .local .tc .vmem, ⟨2, _⟩ => ⟨S8x1536x256, .f32⟩
  | .local .tc .vmem, ⟨3, _⟩ => ⟨S8x1536x256, .f32⟩
  | .local .scVector .vmem, ⟨0, _⟩ => ⟨S1x128x256, .f32⟩
  | .local .scVector .vmem, ⟨1, _⟩ => ⟨S1x128x256, .f32⟩
  | _, _ => ⟨S8x24x3x256x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v2_scv : Ref sig .scVector := ⟨.hbm, 5, rfl⟩
abbrev main_v3_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1536x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 1 := Scalar.cmpi .slt v1 c32_i32
  let v4 : BitVec 32 := Scalar.extui v3
  let c0_i32 : BitVec 32 := 0#32
  let v5 : BitVec 1 := Scalar.cmpi .ne v4 c0_i32
  v5

def k1_off1 (i : grid1.Coords) (c0_i32_0 : BitVec 32) : Fin 3 → Nat :=
  let c18_i32 : BitVec 32 := 18#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let v6 : BitVec 32 := Scalar.addi v2 c0_i32_0
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c6_i32 : BitVec 32 := 6#32
  let c0_i32_3 : BitVec 32 := 0#32
  let v13 : BitVec 1 := Scalar.cmpi .sgt c6_i32 c0_i32_3
  let v14 : BitVec 32 := Scalar.extui v13
  let c0_i32_4 : BitVec 32 := 0#32
  let v15 : BitVec 1 := Scalar.cmpi .slt c6_i32 c0_i32_4
  let v16 : BitVec 32 := Scalar.extui v15
  let v17 : BitVec 32 := Scalar.subi v14 v16
  let v18 : BitVec 1 := Scalar.cmpi .ne v12 v17
  let v19 : BitVec 32 := Scalar.remsi v6 c6_i32
  let c0_i32_5 : BitVec 32 := 0#32
  let v20 : BitVec 1 := Scalar.cmpi .ne v19 c0_i32_5
  let v21 : BitVec 1 := Scalar.andi v18 v20
  let v7 : BitVec 32 := Scalar.divsi v6 c6_i32
  let c1_i32 : BitVec 32 := 1#32
  let v22 : BitVec 32 := Scalar.subi v7 c1_i32
  let v23 : BitVec 32 := Scalar.select v21 v22 v7
  let v24 : BitVec 32 := Scalar.muli c18_i32 v23
  let c12_i32_6 : BitVec 32 := 12#32
  let v25 : BitVec 32 := Scalar.addi v24 c12_i32_6
  let c6_i32_7 : BitVec 32 := 6#32
  let c0_i32_8 : BitVec 32 := 0#32
  let v26 : BitVec 1 := Scalar.cmpi .eq c6_i32_7 c0_i32_8
  let c1_i32_9 : BitVec 32 := 1#32
  let v27 : BitVec 32 := Scalar.select v26 c1_i32_9 c6_i32_7
  let v28 : BitVec 32 := Scalar.remsi v6 v27
  let c0_i32_11 : BitVec 32 := 0#32
  let v30 : BitVec 1 := Scalar.cmpi .slt v28 c0_i32_11
  let c0_i32_12 : BitVec 32 := 0#32
  let v31 : BitVec 1 := Scalar.cmpi .slt v27 c0_i32_12
  let v32 : BitVec 1 := Scalar.xori v30 v31
  let c0_i32_10 : BitVec 32 := 0#32
  let v29 : BitVec 1 := Scalar.cmpi .ne v28 c0_i32_10
  let v33 : BitVec 1 := Scalar.andi v32 v29
  let v34 : BitVec 32 := Scalar.addi v28 v27
  let v35 : BitVec 32 := Scalar.select v33 v34 v28
  let v36 : BitVec 32 := Scalar.addi v25 v35
  let c0_i32_181 : BitVec 32 := 0#32
  let c0_i32_182 : BitVec 32 := 0#32
  ![v36.toNat, 0, 0]
def k1_off2 (i : grid1.Coords) (c0_i32_0 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let v6 : BitVec 32 := Scalar.addi v2 c0_i32_0
  let c0_i32_189 : BitVec 32 := 0#32
  let c0_i32_190 : BitVec 32 := 0#32
  ![v6.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S8x24x3x256x256_S64x2304x256 : S8x24x3x256x256.ShapeCasts S64x2304x256
  inb_S8x1536x256_S8x1536x256_0_0_0 : ∀ a, (![0, 0, 0] : Fin 3 → Nat) a + S8x1536x256.size a ≤ S8x1536x256.size a
  h_S8x1536x256 : 0 < S8x1536x256.numel
  shapeCasts_S8x1536x256_S8x1536x256 : S8x1536x256.ShapeCasts S8x1536x256
  shapeCasts_S8x24x3x256x256_S1152x128x256 : S8x24x3x256x256.ShapeCasts S1152x128x256
  shapeCasts_S64x1536x256_S8x16x3x256x256 : S64x1536x256.ShapeCasts S8x16x3x256x256
  shapeCasts_S384x128x256_S8x8x3x256x256 : S384x128x256.ShapeCasts S8x8x3x256x256
  bcast_S16_S1x16_1 : S16.BroadcastsInDim S1x16 (![1] : Fin 1 → Fin S1x16.rank)
  shapeCasts_S1x16_S1x1x1x16 : S1x16.ShapeCasts S1x1x1x16
  bcast_S1x1x1x16_S8x1x1x16_0_1_2_3 : S1x1x1x16.BroadcastsInDim S8x1x1x16 (![0, 1, 2, 3] : Fin 4 → Fin S8x1x1x16.rank)
  shapeCasts_S8x1x1x16_S8x16 : S8x1x1x16.ShapeCasts S8x16
  bcast_S8_S1x8_1 : S8.BroadcastsInDim S1x8 (![1] : Fin 1 → Fin S1x8.rank)
  shapeCasts_S1x8_S1x1x1x8 : S1x8.ShapeCasts S1x1x1x8
  bcast_S1x1x1x8_S8x1x1x8_0_1_2_3 : S1x1x1x8.BroadcastsInDim S8x1x1x8 (![0, 1, 2, 3] : Fin 4 → Fin S8x1x1x8.rank)
  shapeCasts_S8x1x1x8_S8x8 : S8x1x1x8.ShapeCasts S8x8
  hcc1_scratch2 : 4 + S_.numel ≤ 8
  hcc1_scratch3 : 5 + S_.numel ≤ 8
  hcc1_scratch4 : 6 + S_.numel ≤ 8
  hcc1_scratch5 : 7 + S_.numel ≤ 8
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8x1536x256.size a < S64x2304x256.size a
  hwx0_0 : ∀ i : grid0.Coords, EltTy.bits .f32 = 32 ∨ (Rect.unit (s := S64x2304x256) (fun a => cc0_transform_0 i a * S8x1536x256.size a) (fun a => (Pipeline.Clip.of (cc0_transform_0 i a) (S8x1536x256.size a) (S64x2304x256.size a)).extent (S8x1536x256.size a)) fun a => Pipeline.Clip.inb (Pipeline.Clip.ok_of (hstart0_0 i a))).WholeWords (EltTy.packing .f32)
  hwxs0_0 : ∀ i : grid0.Coords, EltTy.bits .f32 = 32 ∨ (Rect.unit (s := S8x1536x256) (fun _ => 0) (fun a => (Pipeline.Clip.of (cc0_transform_0 i a) (S8x1536x256.size a) (S64x2304x256.size a)).extent (S8x1536x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1536x256.size a ≤ S64x1536x256.size a
  hwx0_1 : ∀ i : grid0.Coords, EltTy.bits .f32 = 32 ∨ (Rect.block (s := S64x1536x256) S8x1536x256.size (cc0_transform_1 i) (hinb0_1 i)).WholeWords (EltTy.packing .f32)
  hcore1 : grid1.bound 0 ≤ τ.nSC
  hsub1 : grid1.bound 1 ≤ τ.nSub
  k1_off1_inb : ∀ i : grid1.Coords, ∀ (k1_h1 : k1_cond1 i = 1#1), ∀ (r : Fin 12), ∀ a, (k1_off1 i (BitVec.ofNat 32 r.val)) a + S1x128x256.size a ≤ S1152x128x256.size a
  k1_off2_inb : ∀ i : grid1.Coords, ∀ (k1_h1 : k1_cond1 i = 1#1), ∀ (r : Fin 12), ∀ a, (k1_off2 i (BitVec.ofNat 32 r.val)) a + S1x128x256.size a ≤ S384x128x256.size a

variable [Facts₀]

abbrev cc1_scratch2 : DmaSems sig S_ := SemArray.consecutive 4 S_ hcc1_scratch2
abbrev cc1_scratch3 : DmaSems sig S_ := SemArray.consecutive 5 S_ hcc1_scratch3
abbrev cc1_scratch4 : DmaSems sig S_ := SemArray.consecutive 6 S_ hcc1_scratch4
abbrev cc1_scratch5 : DmaSems sig S_ := SemArray.consecutive 7 S_ hcc1_scratch5

abbrev win0_0 : Pipeline.Window sig grid0 :=
  Pipeline.Window.ofSpecClip (Memref.whole main_v0) S8x1536x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S8x1536x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x24x3x256x256 : Shape := ⟨5, ![8, 24, 3, 256, 256]⟩
abbrev S16 : Shape := ⟨1, ![16]⟩
abbrev S8 : Shape := ⟨1, ![8]⟩
abbrev S1x16 : Shape := ⟨2, ![1, 16]⟩
abbrev S1x1x1x16 : Shape := ⟨4, ![1, 1, 1, 16]⟩
abbrev S8x1x1x16 : Shape := ⟨4, ![8, 1, 1, 16]⟩
abbrev S8x16 : Shape := ⟨2, ![8, 16]⟩
abbrev S1x8 : Shape := ⟨2, ![1, 8]⟩
abbrev S1x1x1x8 : Shape := ⟨4, ![1, 1, 1, 8]⟩
abbrev S8x1x1x8 : Shape := ⟨4, ![8, 1, 1, 8]⟩
abbrev S8x8 : Shape := ⟨2, ![8, 8]⟩
abbrev S8x1 : Shape := ⟨2, ![8, 1]⟩
abbrev S_ : Shape := ⟨0, ![]⟩
abbrev S8x16x1 : Shape := ⟨3, ![8, 16, 1]⟩
abbrev S8x16x2 : Shape := ⟨3, ![8, 16, 2]⟩
abbrev S8x16x3x256x256 : Shape := ⟨5, ![8, 16, 3, 256, 256]⟩
abbrev S8x8x1 : Shape := ⟨3, ![8, 8, 1]⟩
abbrev S8x8x2 : Shape := ⟨3, ![8, 8, 2]⟩
abbrev S8x8x3x256x256 : Shape := ⟨5, ![8, 8, 3, 256, 256]⟩

abbrev nBuf : Space → Nat
  | .hbm => 51
  | .vmem => 0
  | .smem => 0
  | _ => 0

abbrev bufTy : (tb : Table) → Fin (tcTables nBuf tb) → BufTy
  | .hbm, ⟨0, _⟩ => ⟨S8x24x3x256x256, .f32⟩
  | .hbm, ⟨1, _⟩ => ⟨S16, .i32⟩
  | .hbm, ⟨2, _⟩ => ⟨S8, .i32⟩
  | .hbm, ⟨3, _⟩ => ⟨S1x16, .i32⟩
  | .hbm, ⟨4, _⟩ => ⟨S1x1x1x16, .i32⟩
  | .hbm, ⟨5, _⟩ => ⟨S8x1x1x16, .i32⟩
  | .hbm, ⟨6, _⟩ => ⟨S8x16, .i32⟩
  | .hbm, ⟨7, _⟩ => ⟨S1x8, .i32⟩
  | .hbm, ⟨8, _⟩ => ⟨S1x1x1x8, .i32⟩
  | .hbm, ⟨9, _⟩ => ⟨S8x1x1x8, .i32⟩
  | .hbm, ⟨10, _⟩ => ⟨S8x8, .i32⟩
  | .hbm, ⟨11, _⟩ => ⟨S8, .i32⟩
  | .hbm, ⟨12, _⟩ => ⟨S8x1, .i32⟩
  | .hbm, ⟨13, _⟩ => ⟨S_, .i32⟩
  | .hbm, ⟨14, _⟩ => ⟨S8x1, .i32⟩
  | .hbm, ⟨15, _⟩ => ⟨S8x1, .i1⟩
  | .hbm, ⟨16, _⟩ => ⟨S_, .i32⟩
  | .hbm, ⟨17, _⟩ => ⟨S8x1, .i32⟩
  | .hbm, ⟨18, _⟩ => ⟨S8x1, .i32⟩
  | .hbm, ⟨19, _⟩ => ⟨S8x1, .i32⟩
  | .hbm, ⟨20, _⟩ => ⟨S_, .i32⟩
  | .hbm, ⟨21, _⟩ => ⟨S8x16, .i32⟩
  | .hbm, ⟨22, _⟩ => ⟨S8x16, .i1⟩
  | .hbm, ⟨23, _⟩ => ⟨S_, .i32⟩
  | .hbm, ⟨24, _⟩ => ⟨S8x16, .i32⟩
  | .hbm, ⟨25, _⟩ => ⟨S8x16, .i32⟩
  | .hbm, ⟨26, _⟩ => ⟨S8x16, .i32⟩
  | .hbm, ⟨27, _⟩ => ⟨S8x16, .i32⟩
  | .hbm, ⟨28, _⟩ => ⟨S8x16x1, .i32⟩
  | .hbm, ⟨29, _⟩ => ⟨S8x16x1, .i32⟩
  | .hbm, ⟨30, _⟩ => ⟨S8x16x2, .i32⟩
  | .hbm, ⟨31, _⟩ => ⟨S8x16x3x256x256, .f32⟩
  | .hbm, ⟨32, _⟩ => ⟨S_, .i32⟩
  | .hbm, ⟨33, _⟩ => ⟨S8x1, .i32⟩
  | .hbm, ⟨34, _⟩ => ⟨S8x1, .i1⟩
  | .hbm, ⟨35, _⟩ => ⟨S_, .i32⟩
  | .hbm, ⟨36, _⟩ => ⟨S8x1, .i32⟩
  | .hbm, ⟨37, _⟩ => ⟨S8x1, .i32⟩
  | .hbm, ⟨38, _⟩ => ⟨S8x1, .i32⟩
  | .hbm, ⟨39, _⟩ => ⟨S_, .i32⟩
  | .hbm, ⟨40, _⟩ => ⟨S8x8, .i32⟩
  | .hbm, ⟨41, _⟩ => ⟨S8x8, .i1⟩
  | .hbm, ⟨42, _⟩ => ⟨S_, .i32⟩
  | .hbm, ⟨43, _⟩ => ⟨S8x8, .i32⟩
  | .hbm, ⟨44, _⟩ => ⟨S8x8, .i32⟩
  | .hbm, ⟨45, _⟩ => ⟨S8x8, .i32⟩
  | .hbm, ⟨46, _⟩ => ⟨S8x8, .i32⟩
  | .hbm, ⟨47, _⟩ => ⟨S8x8x1, .i32⟩
  | .hbm, ⟨48, _⟩ => ⟨S8x8x1, .i32⟩
  | .hbm, ⟨49, _⟩ => ⟨S8x8x2, .i32⟩
  | .hbm, ⟨50, _⟩ => ⟨S8x8x3x256x256, .f32⟩
  | _, _ => ⟨S8x24x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_1 : Ref sig .tc := ⟨.hbm, 13, rfl⟩
abbrev main_v10 : Ref sig .tc := ⟨.hbm, 14, rfl⟩
abbrev main_v11 : Ref sig .tc := ⟨.hbm, 15, rfl⟩
abbrev main_c_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v15 : Ref sig .tc := ⟨.hbm, 21, rfl⟩
abbrev main_v16 : Ref sig .tc := ⟨.hbm, 22, rfl⟩
abbrev main_c_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_5 : Ref sig .tc := ⟨.hbm, 32, rfl⟩
abbrev main_v25 : Ref sig .tc := ⟨.hbm, 33, rfl⟩
abbrev main_v26 : Ref sig .tc := ⟨.hbm, 34, rfl⟩
abbrev main_c_6 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_7 : Ref sig .tc := ⟨.hbm, 39, rfl⟩
abbrev main_v30 : Ref sig .tc := ⟨.hbm, 40, rfl⟩
abbrev main_v31 : Ref sig .tc := ⟨.hbm, 41, rfl⟩
abbrev main_c_8 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  shapeCasts_S1x16_S1x1x1x16 : S1x16.ShapeCasts S1x1x1x16
  bcast_S1x1x1x16_S8x1x1x16_0_1_2_3 : S1x1x1x16.BroadcastsInDim S8x1x1x16 (![0, 1, 2, 3] : Fin 4 → Fin S8x1x1x16.rank)
  shapeCasts_S8x1x1x16_S8x16 : S8x1x1x16.ShapeCasts S8x16
  bcast_S8_S1x8_1 : S8.BroadcastsInDim S1x8 (![1] : Fin 1 → Fin S1x8.rank)
  shapeCasts_S1x8_S1x1x1x8 : S1x8.ShapeCasts S1x1x1x8
  bcast_S1x1x1x8_S8x1x1x8_0_1_2_3 : S1x1x1x8.BroadcastsInDim S8x1x1x8 (![0, 1, 2, 3] : Fin 4 → Fin S8x1x1x8.rank)
  shapeCasts_S8x1x1x8_S8x8 : S8x1x1x8.ShapeCasts S8x8
  bcast_S8_S8x1_0 : S8.BroadcastsInDim S8x1 (![0] : Fin 1 → Fin S8x1.rank)
  bcast_S_S8x1 : S_.BroadcastsInDim S8x1 (![] : Fin 0 → Fin S8x1.rank)
  bcast_S_S8x16 : S_.BroadcastsInDim S8x16 (![] : Fin 0 → Fin S8x16.rank)
  bcast_S8x1_S8x16_0_1 : S8x1.BroadcastsInDim S8x16 (![0, 1] : Fin 2 → Fin S8x16.rank)
  bcast_S8x16_S8x16x1_0_1 : S8x16.BroadcastsInDim S8x16x1 (![0, 1] : Fin 2 → Fin S8x16x1.rank)
  concatenates_S8x16x1_S8x16x1_S8x16x2_d2 : Shape.Concatenates [S8x16x1, S8x16x1] S8x16x2 2
  bcast_S_S8x8 : S_.BroadcastsInDim S8x8 (![] : Fin 0 → Fin S8x8.rank)
  bcast_S8x1_S8x8_0_1 : S8x1.BroadcastsInDim S8x8 (![0, 1] : Fin 2 → Fin S8x8.rank)
  bcast_S8x8_S8x8x1_0_1 : S8x8.BroadcastsInDim S8x8x1 (![0, 1] : Fin 2 → Fin S8x8x1.rank)
  concatenates_S8x8x1_S8x8x1_S8x8x2_d2 : Shape.Concatenates [S8x8x1, S8x8x1] S8x8x2 2
  gather_S8x24x3x256x256_S8x16x2_S8x16x3x256x256_234_01_n_n_01_2_113256256_wf : GatherDims.WF S8x24x3x256x256 S8x16x2 S8x16x3x256x256 [2, 3, 4] [0, 1] [] [0, 1] [] 2 ![1, 1, 3, 256, 256]
  gather_S8x24x3x256x256_S8x8x2_S8x8x3x256x256_234_01_n_n_01_2_113256256_wf : GatherDims.WF S8x24x3x256x256 S8x8x2 S8x8x3x256x256 [2, 3, 4] [0, 1] [] [0, 1] [] 2 ![1, 1, 3, 256, 256]

variable [Facts₀]

def gather_S8x24x3x256x256_S8x16x2_S8x16x3x256x256_234_01_n_n_01_2_113256256 : GatherDims S8x24x3x256x256 S8x16x2 S8x16x3x256x256 where
  offsetDims := [2, 3, 4]
  collapsedSliceDims := [0, 1]
  operandBatchingDims := []
  startIndicesBatchingDims := []
  startIndexMap := [0, 1]
  indexVectorDim := 2
  sliceSizes := ![1, 1, 3, 256, 256]
  wf := gather_S8x24x3x256x256_S8x16x2_S8x16x3x256x256_234_01_n_n_01_2_113256256_wf
def gather_S8x24x3x256x256_S8x8x2_S8x8x3x256x256_234_01_n_n_01_2_113256256 : GatherDims S8x24x3x256x256 S8x8x2 S8x8x3x256x256 where
  offsetDims := [2, 3, 4]
  collapsedSliceDims := [0, 1]
  operandBatchingDims := []
  startIndicesBatchingDims := []
  startIndexMap := [0, 1]
  indexVectorDim := 2
  sliceSizes := ![1, 1, 3, 256, 256]
  wf := gather_S8x24x3x256x256_S8x8x2_S8x8x3x256x256_234_01_n_n_01_2_113256256_wf

class Facts : Prop extends Facts₀ where

variable [Facts]
-- ==== Proof.Spec.lean ====
/-
  The specification both programs are read against: each result as ONE function of the argument array, index by index.

  The 24 views of a batch entry come in 8 groups of three: the first two views of a group are INPUT views, the third
  is the TARGET view. So input slot `v` (of 16) is view `3 * (v / 2) + v % 2`, and target slot `g` (of 8) is view
  `3 * g + 2`. The two image results are the argument restricted to those views; the two pattern results are the
  view numbers themselves, the same row for every batch entry. No arithmetic on floats occurs anywhere.
-/
import Idealize.ShloMosaic.Lib.ValueIdx

noncomputable section

namespace Cert.Spec

open Idealize.ShloMosaic Idealize.ShloMosaic.ValueIdx

abbrev SImg : Shape := ⟨5, ![8, 24, 3, 256, 256]⟩
abbrev SIn : Shape := ⟨5, ![8, 16, 3, 256, 256]⟩
abbrev STar : Shape := ⟨5, ![8, 8, 3, 256, 256]⟩
abbrev SInPat : Shape := ⟨2, ![8, 16]⟩
abbrev STarPat : Shape := ⟨2, ![8, 8]⟩

/-- The view input slot `v` is taken from: slots `2g`, `2g + 1` are views `3g`, `3g + 1`. -/
def inView (v : Fin 16) : Fin 24 := ⟨3 * (v.val / 2) + v.val % 2, by omega⟩

/-- The view target slot `g` is taken from: view `3g + 2`. -/
def tarView (g : Fin 8) : Fin 24 := ⟨3 * g.val + 2, by omega⟩

/-- The input views' numbers, as 32-bit words. -/
def litIn : Fin 16 → BitVec 32 := fun
  | 0 => 0#32 | 1 => 1#32 | 2 => 3#32 | 3 => 4#32 | 4 => 6#32 | 5 => 7#32 | 6 => 9#32 | 7 => 10#32
  | 8 => 12#32 | 9 => 13#32 | 10 => 15#32 | 11 => 16#32 | 12 => 18#32 | 13 => 19#32 | 14 => 21#32 | 15 => 22#32
  | _ => 0#32

/-- The target views' numbers, as 32-bit words. -/
def litTar : Fin 8 → BitVec 32 := fun
  | 0 => 2#32 | 1 => 5#32 | 2 => 8#32 | 3 => 11#32 | 4 => 14#32 | 5 => 17#32 | 6 => 20#32 | 7 => 23#32
  | _ => 0#32

/-- The word of input slot `v` is the number of its view. -/
theorem litIn_toNat : ∀ v : Fin 16, (litIn v).toNat = (inView v).val := by decide

/-- The word of target slot `g` is the number of its view. -/
theorem litTar_toNat : ∀ g : Fin 8, (litTar g).toNat = (tarView g).val := by decide

/-- The input images: entry `(b, v, c, h, w)` is the argument's entry `(b, inView v, c, h, w)`. -/
def inputImg {α : Type} (x : SImg.Idx → α) : SIn.Idx → α :=
  fun i => x (ix5 (i 0) (inView (i 1)) (i 2) (i 3) (i 4))

/-- The target images: entry `(b, g, c, h, w)` is the argument's entry `(b, tarView g, c, h, w)`. -/
def targetImg {α : Type} (x : SImg.Idx → α) : STar.Idx → α :=
  fun i => x (ix5 (i 0) (tarView (i 1)) (i 2) (i 3) (i 4))

/-- The input pattern: row `b`, column `v` holds the number of input slot `v`'s view, whatever `b`. -/
def inPat : SInPat.Idx → BitVec 32 := fun i => litIn (i 1)

/-- The target pattern: row `b`, column `g` holds the number of target slot `g`'s view, whatever `b`. -/
def tarPat : STarPat.Idx → BitVec 32 := fun i => litTar (i 1)

end Cert.Spec

end
-- ==== Proof.Layout.lean ====
/-
  The two intermediate layouts the kernel moves data through, as pure functions of an array.

  The argument `[8, 24, 3, 256, 256]` is read in two other shapes with the same row-major order:
  * as 64 GROUPS of three views, `[64, 2304, 256]` (2304 = 3 views × 3 channels × 256 rows): the first 1536 rows of
    a group are its two input views (`headRows`);
  * as 1152 CHUNKS of half a channel, `[1152, 128, 256]` (six chunks per view, eighteen per group): target chunk `k`
    (of 384 = 64 groups × 6) is chunk `18 * (k / 6) + 12 + k % 6`, the `k % 6`-th chunk of the third view of group
    `k / 6` (`tarChunks`).
-/
import proofs.«216314_g7602092114391_cont_9to1c4b_856_27_alg».proof.Proof.Spec

noncomputable section

namespace Cert.Spec

open Idealize.ShloMosaic Idealize.ShloMosaic.ValueIdx

abbrev SGroups : Shape := ⟨3, ![64, 2304, 256]⟩
abbrev SHead : Shape := ⟨3, ![64, 1536, 256]⟩
abbrev SChunks : Shape := ⟨3, ![1152, 128, 256]⟩
abbrev STarChunks : Shape := ⟨3, ![384, 128, 256]⟩

/-- A row among a group's first 1536, as a row of the group. -/
def headRow (r : Fin 1536) : Fin 2304 := ⟨r.val, by omega⟩

/-- The first 1536 rows of every group. -/
def headRows {α : Type} (y : SGroups.Idx → α) : SHead.Idx → α :=
  fun i => y (ix3 (i 0) (headRow (i 1)) (i 2))

/-- The chunk target chunk `k` is copied from. -/
def srcChunk (k : Fin 384) : Fin 1152 := ⟨18 * (k.val / 6) + 12 + k.val % 6, by omega⟩

/-- The target chunks: chunk `k` is the argument's chunk `srcChunk k`. -/
def tarChunks {α : Type} (y : SChunks.Idx → α) : STarChunks.Idx → α :=
  fun i => y (ix3 (srcChunk (i 0)) (i 1) (i 2))

end Cert.Spec

end
-- ==== Proof.CommonI.lean ====
/-
  What the parts of the idealized kernel's run share: the program as the launch theorem for programs with SparseCore
  kernels sees it, the ghost state (the launch handshakes' rounds, the TensorCore pipeline's rounds, the transfers'
  counters), the arrays' locations, and how the target array's 384 chunks and the read access to the source array
  are dealt to the 32 vector subcores: subcore `s` of SparseCore `c` is worker `2 s + c` and owns chunks
  `12 (2 s + c) … 12 (2 s + c) + 11` of the target; every worker reads the source through a share of its own.
-/
import proofs.«216314_g7602092114391_cont_9to1c4b_856_27_alg».proof.Defs
import proofs.«216314_g7602092114391_cont_9to1c4b_856_27_alg».proof.Proof.Layout
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«216314_g7602092114391_cont_9to1c4b_856_27_alg».proof.Proof.Gen.KernelIdeal
import proofs.«216314_g7602092114391_cont_9to1c4b_856_27_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays -/

abbrev argLoc (d : Dev nD) : Loc nD τ sig := (SparseCore.T d).loc main_arg0
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

/-! ## Workers, their chunks, their shares -/

/-- The worker number of vector subcore `s` of SparseCore `c`. -/
def wid (c : Fin 2) (s : Fin 16) : Fin 32 := ⟨2 * s.val + c.val, by omega⟩

theorem tdiv : 32 ∣ S384x128x256.size 0 := ⟨12, rfl⟩
/-- Worker `w`'s twelve chunks of the target array, as one block of rows. -/
abbrev tileBlock (w : Fin 32) : Rect S384x128x256 := Rect.part (s := S384x128x256) (a₀ := 0) tdiv w
/-- The block's indices. -/
abbrev tileSet (w : Fin 32) : Finset S384x128x256.Idx :=
  ((Memref.whole main_v3_scv : Memref sig .scVector .hbm S384x128x256 .f32).view.slice (tileBlock w)).set

/-- Worker `w`'s share of the read access to the source array: one of 32 tokens split off the full share. -/
abbrev workerShare (w : Fin 32) : PosShare TreeShare := Transfers.shareTok fullShare 32 w
/-- Vector subcore `(c, s)`'s share: its worker's. -/
abbrev tileShare (c : Fin 2) (s : Fin 16) : PosShare TreeShare := workerShare (wid c s)

end Cert.Proof.KI

end
-- ==== Proof.LayoutValue.lean ====
/-
  A reshape keeps row-major position. Read through the two intermediate layouts, the argument's input views and its
  target views come out as the specification's `inputImg` and `targetImg`.

  * Entry `(b, v, c, h, w)` of the `[8, 16, 3, 256, 256]` result has position `(((b*16 + v)*3 + c)*256 + h)*256 + w`,
    which in `[64, 1536, 256]` is `(r, q, w)` with `r = b*8 + v/2` and `q = (v%2)*768 + c*256 + h`. Row `q < 1536` of
    group `r` of `[64, 2304, 256]` has position
    `(r*2304 + q)*256 + w = (((b*24 + (3*(v/2) + v%2))*3 + c)*256 + h)*256 + w`: entry `(b, inView v, c, h, w)` of the
    argument.
  * Entry `(b, g, c, h, w)` of the `[8, 8, 3, 256, 256]` result has position `(k, h%128, w)` in `[384, 128, 256]` with
    `k = (b*8 + g)*6 + c*2 + h/128`, and
    `srcChunk k = 18*(b*8 + g) + 12 + c*2 + h/128 = ((b*24 + (3*g + 2))*3 + c)*2 + h/128`: the chunk of entry
    `(b, tarView g, c, h, w)` of the argument.
-/
import proofs.«216314_g7602092114391_cont_9to1c4b_856_27_alg».proof.Proof.Layout
import Idealize.ShloMosaic.Lib.Pipeline.Value
import Idealize.ShloMosaic.Lib.ValueIdx

noncomputable section

namespace Cert.Spec

open Idealize.ShloMosaic Idealize.ShloMosaic.ValueIdx

/-- The input views through the group layout: reshape to groups, keep each group's first 1536 rows, reshape to
    `[8, 16, 3, 256, 256]`. -/
theorem inputImg_of_reshapes {α : Type} (x : SImg.Idx → α) (h1 : SImg.ShapeCasts SGroups) (h2 : SHead.ShapeCasts SIn) :
    shapeCast SIn (headRows (shapeCast SGroups x h1)) h2 = inputImg x := by
  funext j
  obtain ⟨b, v, c, h, w, rfl⟩ : ∃ (b : Fin 8) (v : Fin 16) (c : Fin 3) (h w : Fin 256), j = ix5 b v c h w :=
    ⟨j 0, j 1, j 2, j 3, j 4, eq_ix5 j⟩
  have hb := b.isLt; have hv := v.isLt; have hc := c.isLt; have hh := h.isLt; have hw := w.isLt
  -- the group, and the row among the group's first 1536
  let r : Fin 64 := ⟨b.val * 8 + v.val / 2, by omega⟩
  let q : Fin 1536 := ⟨(v.val % 2) * 768 + c.val * 256 + h.val, by omega⟩
  have e2 : (SHead.rowMajor (ix3 r q w)).val = (SIn.rowMajor (ix5 b v c h w)).val := by
    rw [Shape.rowMajor_val_three, Shape.rowMajor_val_five]
    show ((b.val * 8 + v.val / 2) * 1536 + ((v.val % 2) * 768 + c.val * 256 + h.val)) * 256 + w.val
        = ((((b.val * 16 + v.val) * 3 + c.val) * 256 + h.val) * 256 + w.val)
    omega
  have e1 : (SImg.rowMajor (ix5 b (inView v) c h w)).val = (SGroups.rowMajor (ix3 r (headRow q) w)).val := by
    rw [Shape.rowMajor_val_three, Shape.rowMajor_val_five]
    show ((((b.val * 24 + (3 * (v.val / 2) + v.val % 2)) * 3 + c.val) * 256 + h.val) * 256 + w.val)
        = ((b.val * 8 + v.val / 2) * 2304 + ((v.val % 2) * 768 + c.val * 256 + h.val)) * 256 + w.val
    omega
  rw [shapeCast_apply (headRows (shapeCast SGroups x h1)) h2 (ix5 b v c h w) (ix3 r q w) e2]
  show shapeCast SGroups x h1 (ix3 r (headRow q) w) = x (ix5 b (inView v) c h w)
  exact shapeCast_apply x h1 (ix3 r (headRow q) w) (ix5 b (inView v) c h w) e1

/-- The target views through the chunk layout: reshape to chunks, pick the 384 target chunks, reshape to
    `[8, 8, 3, 256, 256]`. -/
theorem targetImg_of_reshapes {α : Type} (x : SImg.Idx → α) (h1 : SImg.ShapeCasts SChunks) (h2 : STarChunks.ShapeCasts STar) :
    shapeCast STar (tarChunks (shapeCast SChunks x h1)) h2 = targetImg x := by
  funext j
  obtain ⟨b, g, c, h, w, rfl⟩ : ∃ (b : Fin 8) (g : Fin 8) (c : Fin 3) (h w : Fin 256), j = ix5 b g c h w :=
    ⟨j 0, j 1, j 2, j 3, j 4, eq_ix5 j⟩
  have hb := b.isLt; have hg := g.isLt; have hc := c.isLt; have hh := h.isLt; have hw := w.isLt
  -- the target chunk, and the row within the chunk
  let k : Fin 384 := ⟨(b.val * 8 + g.val) * 6 + c.val * 2 + h.val / 128, by omega⟩
  let p : Fin 128 := ⟨h.val % 128, by omega⟩
  have e2 : (STarChunks.rowMajor (ix3 k p w)).val = (STar.rowMajor (ix5 b g c h w)).val := by
    rw [Shape.rowMajor_val_three, Shape.rowMajor_val_five]
    show (((b.val * 8 + g.val) * 6 + c.val * 2 + h.val / 128) * 128 + h.val % 128) * 256 + w.val
        = ((((b.val * 8 + g.val) * 3 + c.val) * 256 + h.val) * 256 + w.val)
    omega
  have e1 : (SImg.rowMajor (ix5 b (tarView g) c h w)).val = (SChunks.rowMajor (ix3 (srcChunk k) p w)).val := by
    rw [Shape.rowMajor_val_three, Shape.rowMajor_val_five]
    show ((((b.val * 24 + (3 * g.val + 2)) * 3 + c.val) * 256 + h.val) * 256 + w.val)
        = ((18 * (((b.val * 8 + g.val) * 6 + c.val * 2 + h.val / 128) / 6) + 12
              + ((b.val * 8 + g.val) * 6 + c.val * 2 + h.val / 128) % 6) * 128 + h.val % 128) * 256 + w.val
    omega
  rw [shapeCast_apply (tarChunks (shapeCast SChunks x h1)) h2 (ix5 b g c h w) (ix3 k p w) e2]
  show shapeCast SChunks x h1 (ix3 (srcChunk k) p w) = x (ix5 b (tarView g) c h w)
  exact shapeCast_apply x h1 (ix3 (srcChunk k) p w) (ix5 b (tarView g) c h w) e1

end Cert.Spec

end
-- ==== Proof.PatternChain.lean ====
/-
  The chain of four layout operations that turns a table of `n` words into the `8 × n` array every row of which is the table:
  a broadcast to `1 × n`, a reshape to `1 × 1 × 1 × n`, a broadcast to `8 × 1 × 1 × n`, a reshape to `8 × n`. Read at an
  index `(b, v)` it is the table's entry `v`: each reshape keeps the row-major position, each broadcast drops the new axis.
  Stated for `n = 16` and `n = 8`, over arbitrary proofs of the operations' side conditions.
-/
import Idealize.ShloMosaic.Lib.Pipeline.Value
import Idealize.ShloMosaic.Lib.ValueIdx

noncomputable section

namespace Cert.PatternChain

open Idealize.ShloMosaic Idealize.ShloMosaic.ValueIdx

/-- The chain at 16 words, read at an index: the table's entry at the index's second coordinate. -/
theorem chain16_apply {α : Type} (x : (⟨1, ![16]⟩ : Shape).Idx → α)
    (h1 : (⟨1, ![16]⟩ : Shape).BroadcastsInDim ⟨2, ![1, 16]⟩ (![1] : Fin 1 → Fin 2))
    (h2 : (⟨2, ![1, 16]⟩ : Shape).ShapeCasts ⟨4, ![1, 1, 1, 16]⟩)
    (h3 : (⟨4, ![1, 1, 1, 16]⟩ : Shape).BroadcastsInDim ⟨4, ![8, 1, 1, 16]⟩ (![0, 1, 2, 3] : Fin 4 → Fin 4))
    (h4 : (⟨4, ![8, 1, 1, 16]⟩ : Shape).ShapeCasts ⟨2, ![8, 16]⟩)
    (b : Fin 8) (v : Fin 16) :
    shapeCast ⟨2, ![8, 16]⟩ (broadcastInDim ⟨4, ![8, 1, 1, 16]⟩ ![0, 1, 2, 3] h3
      (shapeCast ⟨4, ![1, 1, 1, 16]⟩ (broadcastInDim ⟨2, ![1, 16]⟩ ![1] h1 x) h2)) h4 (ix2 b v) = x (ix1 v) := by
  refine (shapeCast_apply _ h4 (ix2 b v) (ix4 b (0 : Fin 1) (0 : Fin 1) v) ?_).trans ?_
  · rw [Shape.rowMajor_val_four, Shape.rowMajor_val_two]
    show (((b.val * 1 + 0) * 1 + 0) * 16 + v.val) = b.val * 16 + v.val
    omega
  refine (broadcastInDim_apply _ h3 _ (ix4 b (0 : Fin 1) (0 : Fin 1) v) (ix4 (0 : Fin 1) (0 : Fin 1) (0 : Fin 1) v) ?_).trans ?_
  · intro a
    match a with
    | ⟨0, _⟩ => rfl
    | ⟨1, _⟩ => rfl
    | ⟨2, _⟩ => rfl
    | ⟨3, _⟩ => rfl
  refine (shapeCast_apply _ h2 (ix4 (0 : Fin 1) (0 : Fin 1) (0 : Fin 1) v) (ix2 (0 : Fin 1) v) ?_).trans ?_
  · rw [Shape.rowMajor_val_four, Shape.rowMajor_val_two]
    show (0 * 16 + v.val) = (((0 * 1 + 0) * 1 + 0) * 16 + v.val)
    omega
  refine (broadcastInDim_apply _ h1 _ (ix2 (0 : Fin 1) v) (ix1 v) ?_)
  intro a
  match a with
  | ⟨0, _⟩ => rfl

/-- The chain at 8 words, read at an index: the table's entry at the index's second coordinate. -/
theorem chain8_apply {α : Type} (x : (⟨1, ![8]⟩ : Shape).Idx → α)
    (h1 : (⟨1, ![8]⟩ : Shape).BroadcastsInDim ⟨2, ![1, 8]⟩ (![1] : Fin 1 → Fin 2))
    (h2 : (⟨2, ![1, 8]⟩ : Shape).ShapeCasts ⟨4, ![1, 1, 1, 8]⟩)
    (h3 : (⟨4, ![1, 1, 1, 8]⟩ : Shape).BroadcastsInDim ⟨4, ![8, 1, 1, 8]⟩ (![0, 1, 2, 3] : Fin 4 → Fin 4))
    (h4 : (⟨4, ![8, 1, 1, 8]⟩ : Shape).ShapeCasts ⟨2, ![8, 8]⟩)
    (b : Fin 8) (v : Fin 8) :
    shapeCast ⟨2, ![8, 8]⟩ (broadcastInDim ⟨4, ![8, 1, 1, 8]⟩ ![0, 1, 2, 3] h3
      (shapeCast ⟨4, ![1, 1, 1, 8]⟩ (broadcastInDim ⟨2, ![1, 8]⟩ ![1] h1 x) h2)) h4 (ix2 b v) = x (ix1 v) := by
  refine (shapeCast_apply _ h4 (ix2 b v) (ix4 b (0 : Fin 1) (0 : Fin 1) v) ?_).trans ?_
  · rw [Shape.rowMajor_val_four, Shape.rowMajor_val_two]
    show (((b.val * 1 + 0) * 1 + 0) * 8 + v.val) = b.val * 8 + v.val
    omega
  refine (broadcastInDim_apply _ h3 _ (ix4 b (0 : Fin 1) (0 : Fin 1) v) (ix4 (0 : Fin 1) (0 : Fin 1) (0 : Fin 1) v) ?_).trans ?_
  · intro a
    match a with
    | ⟨0, _⟩ => rfl
    | ⟨1, _⟩ => rfl
    | ⟨2, _⟩ => rfl
    | ⟨3, _⟩ => rfl
  refine (shapeCast_apply _ h2 (ix4 (0 : Fin 1) (0 : Fin 1) (0 : Fin 1) v) (ix2 (0 : Fin 1) v) ?_).trans ?_
  · rw [Shape.rowMajor_val_four, Shape.rowMajor_val_two]
    show (0 * 8 + v.val) = (((0 * 1 + 0) * 1 + 0) * 8 + v.val)
    omega
  refine (broadcastInDim_apply _ h1 _ (ix2 (0 : Fin 1) v) (ix1 v) ?_)
  intro a
  match a with
  | ⟨0, _⟩ => rfl

/-- The chain applied to a table of 16 words laid out in row-major order: row `b`, column `v` holds word `v`. -/
theorem chain16 {α : Type} (lit : Fin 16 → α)
    (h1 : (⟨1, ![16]⟩ : Shape).BroadcastsInDim ⟨2, ![1, 16]⟩ (![1] : Fin 1 → Fin 2))
    (h2 : (⟨2, ![1, 16]⟩ : Shape).ShapeCasts ⟨4, ![1, 1, 1, 16]⟩)
    (h3 : (⟨4, ![1, 1, 1, 16]⟩ : Shape).BroadcastsInDim ⟨4, ![8, 1, 1, 16]⟩ (![0, 1, 2, 3] : Fin 4 → Fin 4))
    (h4 : (⟨4, ![8, 1, 1, 16]⟩ : Shape).ShapeCasts ⟨2, ![8, 16]⟩) :
    shapeCast ⟨2, ![8, 16]⟩ (broadcastInDim ⟨4, ![8, 1, 1, 16]⟩ ![0, 1, 2, 3] h3
      (shapeCast ⟨4, ![1, 1, 1, 16]⟩ (broadcastInDim ⟨2, ![1, 16]⟩ ![1] h1
        (fun i => lit ((⟨1, ![16]⟩ : Shape).rowMajor i))) h2)) h4
      = fun i : (⟨2, ![8, 16]⟩ : Shape).Idx => lit (i 1) := by
  funext i
  rw [eq_ix2 i]
  refine (chain16_apply _ h1 h2 h3 h4 (i 0) (i 1)).trans ?_
  show lit ((⟨1, ![16]⟩ : Shape).rowMajor (ix1 (i 1))) = lit (i 1)
  congr 1
  apply Fin.ext
  rw [Shape.rowMajor_val_one]

/-- The chain applied to a table of 8 words laid out in row-major order: row `b`, column `v` holds word `v`. -/
theorem chain8 {α : Type} (lit : Fin 8 → α)
    (h1 : (⟨1, ![8]⟩ : Shape).BroadcastsInDim ⟨2, ![1, 8]⟩ (![1] : Fin 1 → Fin 2))
    (h2 : (⟨2, ![1, 8]⟩ : Shape).ShapeCasts ⟨4, ![1, 1, 1, 8]⟩)
    (h3 : (⟨4, ![1, 1, 1, 8]⟩ : Shape).BroadcastsInDim ⟨4, ![8, 1, 1, 8]⟩ (![0, 1, 2, 3] : Fin 4 → Fin 4))
    (h4 : (⟨4, ![8, 1, 1, 8]⟩ : Shape).ShapeCasts ⟨2, ![8, 8]⟩) :
    shapeCast ⟨2, ![8, 8]⟩ (broadcastInDim ⟨4, ![8, 1, 1, 8]⟩ ![0, 1, 2, 3] h3
      (shapeCast ⟨4, ![1, 1, 1, 8]⟩ (broadcastInDim ⟨2, ![1, 8]⟩ ![1] h1
        (fun i => lit ((⟨1, ![8]⟩ : Shape).rowMajor i))) h2)) h4
      = fun i : (⟨2, ![8, 8]⟩ : Shape).Idx => lit (i 1) := by
  funext i
  rw [eq_ix2 i]
  refine (chain8_apply _ h1 h2 h3 h4 (i 0) (i 1)).trans ?_
  show lit ((⟨1, ![8]⟩ : Shape).rowMajor (ix1 (i 1))) = lit (i 1)
  congr 1
  apply Fin.ext
  rw [Shape.rowMajor_val_one]

end Cert.PatternChain

end
-- ==== Proof.MainI.lean ====
/-
  @main of the idealized kernel's program, read as three straight lines of host operations around its two calls: the
  two literal tables and the reshape into groups; the TensorCore copy of every group's first 1536 rows; the reshape
  into chunks; the SparseCore copy of the target chunks; the two reshapes back to image shape and the two patterns'
  broadcasts. The buffers a line does not write keep their contents.
-/
import proofs.«216314_g7602092114391_cont_9to1c4b_856_27_alg».proof.Proof.CommonI
import proofs.«216314_g7602092114391_cont_9to1c4b_856_27_alg».proof.Proof.LayoutValue
import proofs.«216314_g7602092114391_cont_9to1c4b_856_27_alg».proof.Proof.PatternChain
import proofs.«216314_g7602092114391_cont_9to1c4b_856_27_alg».proof.Proof.Gen.KernelIdeal.Launch
import proofs.«216314_g7602092114391_cont_9to1c4b_856_27_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.Tactic

variable {F : FTy → Type}

local notation "𝕄" => MT nD τ sig (HIx 1) (Elt F) ℕ UU ℕ

variable [FloatOps F]

/-! ## The host operations, line by line -/

abbrev opC : HloOp τ sig (Elt F) := StableHlo.nullary main_c (fun i => lit0 (S16.rowMajor i))
abbrev opC0 : HloOp τ sig (Elt F) := StableHlo.nullary main_c_0 (fun i => lit1 (S8.rowMajor i))
abbrev opV0 : HloOp τ sig (Elt F) := StableHlo.reshape main_arg0 main_v0 rfl shapeCasts_S8x24x3x256x256_S64x2304x256
abbrev opV2 : HloOp τ sig (Elt F) := StableHlo.reshape main_arg0 main_v2 rfl shapeCasts_S8x24x3x256x256_S1152x128x256
abbrev opV4 : HloOp τ sig (Elt F) := StableHlo.reshape main_v1 main_v4 rfl shapeCasts_S64x1536x256_S8x16x3x256x256
abbrev opV5 : HloOp τ sig (Elt F) := StableHlo.reshape main_v3 main_v5 rfl shapeCasts_S384x128x256_S8x8x3x256x256
abbrev opV6 : HloOp τ sig (Elt F) := StableHlo.unary main_c main_v6 (broadcastInDim S1x16 ![1] bcast_S16_S1x16_1 : (⟨S16, .i32⟩ : BufTy).Contents (Elt F) → (⟨S1x16, .i32⟩ : BufTy).Contents (Elt F))
abbrev opV7 : HloOp τ sig (Elt F) := StableHlo.reshape main_v6 main_v7 rfl shapeCasts_S1x16_S1x1x1x16
abbrev opV8 : HloOp τ sig (Elt F) := StableHlo.unary main_v7 main_v8 (broadcastInDim S8x1x1x16 ![0, 1, 2, 3] bcast_S1x1x1x16_S8x1x1x16_0_1_2_3 : (⟨S1x1x1x16, .i32⟩ : BufTy).Contents (Elt F) → (⟨S8x1x1x16, .i32⟩ : BufTy).Contents (Elt F))
abbrev opV9 : HloOp τ sig (Elt F) := StableHlo.reshape main_v8 main_v9 rfl shapeCasts_S8x1x1x16_S8x16
abbrev opV10 : HloOp τ sig (Elt F) := StableHlo.unary main_c_0 main_v10 (broadcastInDim S1x8 ![1] bcast_S8_S1x8_1 : (⟨S8, .i32⟩ : BufTy).Contents (Elt F) → (⟨S1x8, .i32⟩ : BufTy).Contents (Elt F))
abbrev opV11 : HloOp τ sig (Elt F) := StableHlo.reshape main_v10 main_v11 rfl shapeCasts_S1x8_S1x1x1x8
abbrev opV12 : HloOp τ sig (Elt F) := StableHlo.unary main_v11 main_v12 (broadcastInDim S8x1x1x8 ![0, 1, 2, 3] bcast_S1x1x1x8_S8x1x1x8_0_1_2_3 : (⟨S1x1x1x8, .i32⟩ : BufTy).Contents (Elt F) → (⟨S8x1x1x8, .i32⟩ : BufTy).Contents (Elt F))
abbrev opV13 : HloOp τ sig (Elt F) := StableHlo.reshape main_v12 main_v13 rfl shapeCasts_S8x1x1x8_S8x8

/-- The line before the TensorCore call, the line between the calls, the line after the SparseCore call. -/
abbrev line1 : List (HloOp τ sig (Elt F)) := [opC, opC0, opV0]
abbrev line2 : List (HloOp τ sig (Elt F)) := [opV2]
abbrev line3 : List (HloOp τ sig (Elt F)) := [opV4, opV5, opV6, opV7, opV8, opV9, opV10, opV11, opV12, opV13]

/-- @main is the three lines around the two calls. -/
theorem main_eq (d : Dev nD) :
    main (F := F) d = (StableHlo.seq (line1 (F := F)) >>= fun _ =>
      (Prog.lift (.customCall (SparseCore.inner (Pipeline.entry 0)) ()) >>= fun _ =>
        (StableHlo.seq (line2 (F := F)) >>= fun _ =>
          (sc.run d 0 >>= fun _ => (StableHlo.seq (line3 (F := F)) >>= fun _ => pure ⟨⟩))))) := by
  simp only [main, StableHlo.seq, bind_assoc, pure_bind]

end Cert.Proof.KI

end
-- ==== Proof.TcDatI.lean ====
/-
  The program's one TensorCore pipeline (the copy of every group's first 1536 rows), as proof data for the region
  rule, with its body obligation and what its two arrays hold afterwards.

  The pipeline has 8 points. At point `t` the operand window stages block `(t, 0, 0)` of the operand array
  `[64, 2304, 256]` in blocks of `[8, 1536, 256]` — groups `8 t … 8 t + 7`, rows `0 … 1535` — and the result window
  block `(t, 0, 0)` of the result array `[64, 1536, 256]`: the same groups, all rows. 1536 does not divide 2304, but
  only block 0 of the row axis is used, so no block overhangs the array and every transfer moves a whole block. The
  body loads the operand's buffer whole, reshapes it to the same shape and stores it whole to the result's buffer.
  So block entry `(y0, y1, y2)` at point `t` is entry `(8 t + y0, y1, y2)` of both arrays, the 8 blocks cover the
  result array, and the result array ends holding `headRows` of the operand array; the operand array, an input, is
  unchanged. The core owes other units throughout and the body waits on nothing, so what it owes passes through.
-/
import proofs.«216314_g7602092114391_cont_9to1c4b_856_27_alg».proof.Proof.CommonI
import proofs.«216314_g7602092114391_cont_9to1c4b_856_27_alg».proof.Proof.Gen.KernelIdeal.Launch
import proofs.«216314_g7602092114391_cont_9to1c4b_856_27_alg».proof.Proof.Gen.KernelIdeal.Points
import proofs.«216314_g7602092114391_cont_9to1c4b_856_27_alg».proof.Proof.Gen.KernelIdeal.Skeleton
import proofs.«216314_g7602092114391_cont_9to1c4b_856_27_alg».proof.Proof.Layout
import Idealize.ShloMosaic.Lib.Pipeline.FrameBody
import Idealize.ShloMosaic.Lib.Pipeline.Value
import Idealize.ShloMosaic.Lib.Pipeline.Regions
import Idealize.ShloMosaic.Lib.Tactic

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

abbrev adm : (p : Fin 1) → (pcfgs (F := F) p).Adm := fun p => (cfgs p).toPCfg_adm

/-! ## The window's blocks and the body's one store -/

theorem hz3 : (![0, 0, 0] : Fin 3 → Nat) = fun _ => 0 := funext fun a => by fin_cases a <;> rfl

/-- No block of the operand window overhangs its array: only block 0 of the row axis is ever used. -/
theorem clip0_0 : ∀ (i : grid0.Coords) (a : Fin 3), win0_0.clip i a = none := by decide +kernel

/-- The operand window's block at point `t` read off the array `f0`, as contents of a staging buffer. -/
def inBlk (c : Dev nD) (f0 : Buf (Elt F) (v0Loc c)) (t : Fin cfg0.N) : (cfg0.win 0).block.Idx → Elt F (cfg0.win 0).elt :=
  (cfg0.win 0).fill (cfg0.grid.coords t) (fun _ => Scalar.ofBits .f32 0#32) (((cfg0.win 0).blk t).view.read (Elt F) f0)

/-- The body's one access rectangle: the whole staging buffer. -/
abbrev r0_0 : Rect S8x1536x256 := Rect.unit (s := S8x1536x256) ![0, 0, 0] S8x1536x256.size inb_S8x1536x256_S8x1536x256_0_0_0

/-- What the body leaves in the result window's buffer, from the operand window's: its one store, of the payload of
    the whole load. -/
def out0_1 (x0 : Vec F S8x1536x256 .f32) : Vec F S8x1536x256 .f32 :=
  View.canon [⟨r0_0, k0_pay1 (View.ld x0 r0_0)⟩]

/-- The store covers the buffer. -/
theorem cover0_1 (p0 : Vec F S8x1536x256 .f32) (y : S8x1536x256.Idx) :
    ∃ pc ∈ ([⟨r0_0, p0⟩] : List (View.Piece (Elt F) S8x1536x256 .f32)), y ∈ pc.1.set :=
  ⟨_, List.mem_singleton.mpr rfl, View.mem_set_unit_zero hz3 inb_S8x1536x256_S8x1536x256_0_0_0 y⟩

/-- The store's payload is the loaded block itself: a reshape to the same shape. -/
theorem out0_1_eq (x0 : Vec F S8x1536x256 .f32) : out0_1 x0 = x0 := by
  unfold out0_1
  rw [View.canon_unit_zero hz3, View.ld_unit_zero (S := S8x1536x256) hz3]
  exact shapeCast_self _ _

/-! ## The body's triple -/

set_option maxHeartbeats 1000000 in
/-- The body on whole staging buffers, the operand window's at contents `x0` and the result window's at anything, runs
    to the continuation holding the first as it was and the second at `out0_1 x0`. -/
theorem sound_kernel (c : Dev nD) (E : Set ℕ) (i : grid0.Coords) (arg1 : Memref sig .tc .vmem S8x1536x256 .f32) (harg1 : arg1.IsWhole)
    (arg2 : Memref sig .tc .vmem S8x1536x256 .f32) (harg2 : arg2.IsWhole)
    (x0 : Vec F S8x1536x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__tc_copy i arg1 harg1 arg2 harg2) K := by
  simp only [cc0__tc_copy_eq_skeleton]; unfold cc0__tc_copy_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- The region's proof data on core `c`: the operand array at `f0` and the result array at `f1` on entry; after the
    body the operand window's buffer at its block and the result window's at the copy of it; no invariant of its own;
    owing `O` throughout, every recorded wait at index `none`; full shares. -/
def dat0 (c : Dev nD) (f0 : Buf (Elt F) (v0Loc c)) (f1 : Buf (Elt F) (v1Loc c)) (O : CellTallies nD τ sig (HIx 1)) :
    Pipeline.Dat τ (Elt F) (HIx 1) ℕ UU ℕ cfg0 c where
  A w := match w with
    | ⟨0, _⟩ => f0
    | ⟨1, _⟩ => f1
  after w t := match w with
    | ⟨0, _⟩ => inBlk c f0 t
    | ⟨1, _⟩ => out0_1 (inBlk c f0 t)
  Φ _ := iprop(emp)
  q _ := fullShare
  owed _ := O
  recorded _ := {p : SemLoc sig × HIx 1 | p.2 = none}

section
variable (c : Dev nD) (f0 : Buf (Elt F) (v0Loc c)) (f1 : Buf (Elt F) (v1Loc c)) (O : CellTallies nD τ sig (HIx 1))

theorem A0_eq : (dat0 c f0 f1 O).A 0 = f0 := by dsimp only [dat0]
theorem A1_eq : (dat0 c f0 f1 O).A 1 = f1 := by dsimp only [dat0]
theorem after0_0 (t : Fin cfg0.N) : (dat0 c f0 f1 O).after 0 t = inBlk c f0 t := by dsimp only [dat0]
theorem after0_1 (t : Fin cfg0.N) : (dat0 c f0 f1 O).after 1 t = out0_1 (inBlk c f0 t) := by dsimp only [dat0]

/-- The operand window is fetched at every point, and uncut: its buffer holds its block when the body runs. -/
theorem before0_0 (t : Fin cfg0.N) (d) : (dat0 c f0 f1 O).before 0 t d = inBlk c f0 t := by
  rw [(dat0 c f0 f1 O).before_fetched 0 t (fetch0_0 t) d]
  unfold Dat.fetched Dat.blockOf inBlk
  rw [A0_eq]
  exact Pipeline.fill_of_clip_none (cfg := cfg0) 0 _ (fun a => clip0_0 _ a) _ _ _

/-! ## The body obligation -/

/-- What the body is called with at point `t`, the windows one by one, -/
def bodyPre (t : Fin cfg0.N) : sProp 𝕄 :=
  iprop((dat0 c f0 f1 O).Φ t.castSucc ∗ (dat0 c f0 f1 O).owesAt none t.castSucc
    ∗ (∃ d, owns (c : Thread nD τ) (st0_0 t) fullShare ((dat0 c f0 f1 O).before 0 t d))
    ∗ (∃ d, owns (c : Thread nD τ) (st0_1 t) fullShare ((dat0 c f0 f1 O).before 1 t d)))

/-- and what it returns. -/
def bodyPost (t : Fin cfg0.N) : sProp 𝕄 :=
  iprop((dat0 c f0 f1 O).Φ t.succ ∗ (dat0 c f0 f1 O).owesAt none t.succ
    ∗ owns (c : Thread nD τ) (st0_0 t) fullShare ((dat0 c f0 f1 O).after 0 t)
    ∗ owns (c : Thread nD τ) (st0_1 t) fullShare ((dat0 c f0 f1 O).after 1 t))

/-- The body at any point: the operand window's buffer holds its block, so the body's triple applies; the invariant and
    what the core owes pass through unread. -/
theorem sound_body (t : Fin cfg0.N) :
    bodyPre c f0 f1 O t ⊢ wp frame (wpE (defs₀ (F := F)) Variants.none c none) Set.univ (bodyAt0 t) (fun _ => bodyPost c f0 f1 O t) := by
  unfold bodyPre bodyPost bodyAt0
  simp only [before0_0]
  rw [show (dat0 c f0 f1 O).Φ t.succ = (dat0 c f0 f1 O).Φ t.castSucc from rfl,
    show (dat0 c f0 f1 O).owesAt none t.succ = (dat0 c f0 f1 O).owesAt none t.castSucc from rfl,
    after0_0, after0_1]
  iintro ⟨HΦ, Ho, ⟨%d0, H0⟩, ⟨%d1, H1⟩⟩
  iapply (sound_kernel c Set.univ _ _ _ _ _ (inBlk c f0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation :
    Pipeline.BodyObligation (dat0 (F := F) c f0 f1 O) (defs₀ (F := F)) Variants.none (none : HIx 1) Set.univ := fun t => by
  rw [bigSep_W0, bigSep_W0]
  exact sound_body c f0 f1 O t

/-! ## The arrays after the region -/

/-- The operand array is an input: unchanged. -/
theorem arrAt_v0 : (dat0 (F := F) c f0 f1 O).arrAt 0 cfg0.N = f0 :=
  ((dat0 c f0 f1 O).arrAt_in 0 rfl _).trans (A0_eq c f0 f1 O)

end

/-! ## The result array after the region: every group's first 1536 rows -/

section
variable (c : Dev nD) (f0 : Buf (Elt F) (v0Loc c)) (f1 : Buf (Elt F) (v1Loc c)) (O : CellTallies nD τ sig (HIx 1))

/-- The printed index maps, decided over the 8 points: both windows are at block `(t, 0, 0)`. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- WHAT POINT `t` WRITES BACK is block `t` of the first 1536 rows of every group of `f0`: entry `(y0, y1, y2)` of the
    block at point `t` is index `(8 t + y0, y1, y2)` of both arrays. -/
theorem flushed1_eq (t : Fin cfg0.N) :
    (dat0 c f0 f1 O).flushed 1 t = ((cfg0.win 1).blk t).view.read (Elt F) (Cert.Spec.headRows f0) := by
  show (cfg0.win 1).cut (grid0.coords t) ((dat0 c f0 f1 O).after 1 t) = _
  rw [after0_1, out0_1_eq]
  obtain ⟨e0, e1, e2, e3, e4, e5⟩ := idx_facts t
  funext j
  have hj0 : (j 0).val < 8 := (j 0).isLt
  have hj1 : (j 1).val < 1536 := (j 1).isLt
  have hj2 : (j 2).val < 256 := (j 2).isLt
  have hm : win0_0.moved (grid0.coords t) (win0_1.xinj (grid0.coords t) j) = true :=
    (win0_0.moved_iff _ _).mpr fun a => by
      have := (win0_1.xinj (grid0.coords t) j a).isLt; unfold Window.xsize; rw [clip0_0 _ a]; exact this
  show inBlk c f0 t (win0_1.xinj (grid0.coords t) j) = _
  unfold inBlk Window.fill
  rw [dif_pos hm]
  refine congrArg f0 (funext fun a => Fin.ext ?_)
  match a with
  | ⟨0, _⟩ => show win0_0.index t (0 : Fin 3) * 8 + 1 * (j 0).val = win0_1.index t (0 : Fin 3) * 8 + 1 * (j 0).val; omega
  | ⟨1, _⟩ => show win0_0.index t (1 : Fin 3) * 1536 + 1 * (j 1).val = win0_1.index t (1 : Fin 3) * 1536 + 1 * (j 1).val; omega
  | ⟨2, _⟩ => show win0_0.index t (2 : Fin 3) * 256 + 1 * (j 2).val = win0_1.index t (2 : Fin 3) * 256 + 1 * (j 2).val; omega

/-- An index of the result array is in point `t`'s block iff each coordinate is in the block's range on its axis. -/
theorem mem_blk1 (t : Fin cfg0.N) (i : S64x1536x256.Idx) :
    i ∈ ((cfg0.win 1).blk t).view.set ↔ ∀ a : Fin 3, win0_1.index t a * S8x1536x256.size a ≤ (i a).val ∧ (i a).val < win0_1.index t a * S8x1536x256.size a + S8x1536x256.size a := by
  show i ∈ ((View.whole main_v1).slice (win0_1.rect t)).set ↔ _
  rw [View.set_slice_whole, Rect.mem_set_unit]
  exact Iff.rfl

/-- Every index of the result array is in some point's block: group `r` is in block `r / 8`. -/
theorem covered1 (i : S64x1536x256.Idx) :
    ∃ t : Fin cfg0.N, (cfg0.win 1).flush t = true ∧ i ∈ ((cfg0.win 1).blk t).view.set := by
  have hi0 : (i 0).val < 64 := (i 0).isLt
  have hi1 : (i 1).val < 1536 := (i 1).isLt
  have hi2 : (i 2).val < 256 := (i 2).isLt
  let t : Fin cfg0.N := ⟨(i 0).val / 8, by rw [show cfg0.N = 8 from N_0]; omega⟩
  have ht : t.val = (i 0).val / 8 := rfl
  obtain ⟨-, -, -, e3, e4, e5⟩ := idx_facts t
  refine ⟨t, flush0_1 t, ?_⟩
  rw [mem_blk1]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 1536 ≤ (i 1).val ∧ (i 1).val < win0_1.index t (1 : Fin 3) * 1536 + 1536; omega
  | ⟨2, _⟩ => show win0_1.index t (2 : Fin 3) * 256 ≤ (i 2).val ∧ (i 2).val < win0_1.index t (2 : Fin 3) * 256 + 256; omega

/-- The result array ends holding the first 1536 rows of every group of the operand array. -/
theorem arrAt_v1 : (dat0 (F := F) c f0 f1 O).arrAt 1 cfg0.N = Cert.Spec.headRows f0 :=
  (dat0 c f0 f1 O).arrAt_eq_of_cover 1 (Cert.Spec.headRows f0) (fun t _ => flushed1_eq c f0 f1 O t) covered1

end

end Cert.Proof.KI

end
-- ==== Proof.PayI.lean ====
/-
  What the launch handshakes carry. Before the SparseCore call the TensorCore holds the chunked source array `%2` and the
  target array `%3` whole; it splits the read access to `%2` into 32 shares (keeping the remainder) and `%3` into the
  32 workers' blocks of twelve chunks, and hands SparseCore `c` its sixteen workers' parts. Each worker brings its share
  back with its block holding the target chunks of `%2`. The valuations `V0 … V5` name every buffer's contents at each
  stage of @main.
-/
import proofs.«216314_g7602092114391_cont_9to1c4b_856_27_alg».proof.Proof.CommonI
import proofs.«216314_g7602092114391_cont_9to1c4b_856_27_alg».proof.Proof.LayoutValue
import proofs.«216314_g7602092114391_cont_9to1c4b_856_27_alg».proof.Proof.PatternChain
import proofs.«216314_g7602092114391_cont_9to1c4b_856_27_alg».proof.Proof.MainI
import proofs.«216314_g7602092114391_cont_9to1c4b_856_27_alg».proof.Proof.TcDatI
import proofs.«216314_g7602092114391_cont_9to1c4b_856_27_alg».proof.Proof.Gen.KernelIdeal.Launch
import proofs.«216314_g7602092114391_cont_9to1c4b_856_27_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The buffers' contents, stage by stage -/

abbrev rArg : DevRef τ sig := Proc.devRef .tc main_arg0
abbrev rV0 : DevRef τ sig := Proc.devRef .tc main_v0
abbrev rV1 : DevRef τ sig := Proc.devRef .tc main_v1
abbrev rV2 : DevRef τ sig := Proc.devRef .tc main_v2
abbrev rV3 : DevRef τ sig := Proc.devRef .tc main_v3
abbrev rV4 : DevRef τ sig := Proc.devRef .tc main_v4
abbrev rV5 : DevRef τ sig := Proc.devRef .tc main_v5
abbrev rV9 : DevRef τ sig := Proc.devRef .tc main_v9
abbrev rV13 : DevRef τ sig := Proc.devRef .tc main_v13

/-- As launched; after the first line; after the TensorCore copy; after the second line; after the SparseCore copy; at the end. -/
def V0 (d : Dev nD) : Valuation τ sig (Elt F) := fun b => m (d, b)
def V1 (d : Dev nD) : Valuation τ sig (Elt F) := StableHlo.after (line1 (F := F)) (V0 m d)
def V2 (d : Dev nD) : Valuation τ sig (Elt F) :=
  Function.update (V1 m d) rV1 (Cert.Spec.headRows (α := Elt F .f32) (V1 m d rV0) : (⟨S64x1536x256, .f32⟩ : BufTy).Contents (Elt F))
def V3 (d : Dev nD) : Valuation τ sig (Elt F) := StableHlo.after (line2 (F := F)) (V2 m d)
def V4 (d : Dev nD) : Valuation τ sig (Elt F) :=
  Function.update (V3 m d) rV3 (Cert.Spec.tarChunks (α := Elt F .f32) (V3 m d rV2) : (⟨S384x128x256, .f32⟩ : BufTy).Contents (Elt F))
def V5 (d : Dev nD) : Valuation τ sig (Elt F) := StableHlo.after (line3 (F := F)) (V4 m d)

/-- The chunked source and the target array as the SparseCore call finds them. -/
abbrev f2 (d : Dev nD) : Buf (Elt F) (v2Loc d) := V3 m d rV2
abbrev f3 (d : Dev nD) : Buf (Elt F) (v3Loc d) := V3 m d rV3

/-! ## What the handshakes carry -/

/-- What worker `(c, s)` is handed, and what it hands back. -/
def tileGo (d : Dev nD) (c : Fin 2) (s : Fin 16) : sProp 𝕄 :=
  iprop((v2Loc d ↦{tileShare c s} f2 m d) ∗ (v3Loc d ↦[tileSet (wid c s)]{fullShare} f3 m d))
def tileTd (d : Dev nD) (c : Fin 2) (s : Fin 16) : sProp 𝕄 :=
  iprop((v2Loc d ↦{tileShare c s} f2 m d) ∗ (v3Loc d ↦[tileSet (wid c s)]{fullShare} Cert.Spec.tarChunks (f2 m d)))

def P : (K (F := F)).Pay (nD := nD) (Val := Elt F) (Name := ℕ) (U := UU) where
  st := fun q d c => match q with | 0 => bigSep Finset.univ fun s : Fin 16 => tileGo m d (Fin.cast nCore_zero c) s
  dn := fun q d c => match q with | 0 => bigSep Finset.univ fun s : Fin 16 => tileTd m d (Fin.cast nCore_zero c) s
  go := fun q d c i => match q with | 0 => tileGo m d (Fin.cast nCore_zero c) (Fin.cast nSub_zero i)
  td := fun q d c i => match q with | 0 => tileTd m d (Fin.cast nCore_zero c) (Fin.cast nSub_zero i)
  x := fun _ _ => iprop(emp)

instance tileGo_storable (d : Dev nD) (c : Fin 2) (s : Fin 16) : BI.Storable (upEmb : UEmb _ 𝕄) (tileGo m d c s) := by
  unfold tileGo; infer_instance
instance tileTd_storable (d : Dev nD) (c : Fin 2) (s : Fin 16) : BI.Storable (upEmb : UEmb _ 𝕄) (tileTd m d c s) := by
  unfold tileTd; infer_instance

instance P_storable : (P (F := F) m).IsStorable where
  st q d c := match q with
    | 0 => (inferInstance : BI.Storable (upEmb : UEmb _ 𝕄) (bigSep Finset.univ fun s : Fin 16 => tileGo m d (Fin.cast nCore_zero c) s))
  dn q d c := match q with
    | 0 => (inferInstance : BI.Storable (upEmb : UEmb _ 𝕄) (bigSep Finset.univ fun s : Fin 16 => tileTd m d (Fin.cast nCore_zero c) s))
  go q d c i := match q with
    | 0 => (inferInstance : BI.Storable (upEmb : UEmb _ 𝕄) (tileGo m d (Fin.cast nCore_zero c) (Fin.cast nSub_zero i)))
  td q d c i := match q with
    | 0 => (inferInstance : BI.Storable (upEmb : UEmb _ 𝕄) (tileTd m d (Fin.cast nCore_zero c) (Fin.cast nSub_zero i)))

/-! ## A SparseCore's parts are its sixteen workers' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => tileGo m d (Fin.cast nCore_zero c) s) ⊢ |={Set.univ}=> iprop(
      (bigSep Finset.univ fun i : Fin ((K (F := F)).nSub 0) => tileGo m d (Fin.cast nCore_zero c) (Fin.cast nSub_zero i))
      ∗ ((bigSep Finset.univ fun i : Fin ((K (F := F)).nSub 0) => tileTd m d (Fin.cast nCore_zero c) (Fin.cast nSub_zero i))
          -∗ bigSep Finset.univ fun s : Fin 16 => tileTd m d (Fin.cast nCore_zero c) s))
  rw [bigSep_tasks (F := F) (fun s => tileGo m d (Fin.cast nCore_zero c) s), bigSep_tasks (F := F) (fun s => tileTd m d (Fin.cast nCore_zero c) s)]
  iintro H; imodintro
  isplitl [H]; · iexact H
  iintro H; iexact H

/-! ## The pipeline's ghost state, and the launch element -/

/-- The pipeline's rounds, the middle factor of the ghost state. -/
abbrev EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

/-- What the launch deals device `d`'s TensorCore for its pipeline: the staging cells' ghost state and the duty tokens. -/
def G (d : Dev nD) : sProp 𝕄 :=
  iprop(Pipeline.cellsGhost (Pipeline.pin (pcfgs (F := F)) adm) EP 0 d ∗ Pipeline.toksInit (Pipeline.pin (pcfgs (F := F)) adm) EP 0 d)

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj),
      (1 : Counters)))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave HR' := (own_pair_emb (embR : Emb (UP × Counters) 𝕄) _ (1 : Counters)) $$ HR
  icases HR' with ⟨HP, -⟩
  imod (Pipeline.fund_ghost (Pipeline.pin (pcfgs (F := F)) adm) EP cellOf_inj) $$ HP with ⟨Hg, Ht⟩
  have hg : (bigSep Finset.univ fun c : Dev nD => bigSep Finset.univ fun p : Fin 1 => Pipeline.cellsGhost (Pipeline.pin (pcfgs (F := F)) adm) EP p c : sProp 𝕄)
      = bigSep Finset.univ fun c : Dev nD => Pipeline.cellsGhost (Pipeline.pin (pcfgs (F := F)) adm) EP 0 c :=
    bigSep_congr fun c _ => bigSep_univ_of_subsingleton (0 : Fin 1)
  have ht : (bigSep Finset.univ fun c : Dev nD => bigSep Finset.univ fun p : Fin 1 => Pipeline.toksInit (Pipeline.pin (pcfgs (F := F)) adm) EP p c : sProp 𝕄)
      = bigSep Finset.univ fun c : Dev nD => Pipeline.toksInit (Pipeline.pin (pcfgs (F := F)) adm) EP 0 c :=
    bigSep_congr fun c _ => bigSep_univ_of_subsingleton (0 : Fin 1)
  ihave Hg' := (Entails.of_eq hg) $$ Hg
  ihave Ht' := (Entails.of_eq ht) $$ Ht
  imodintro
  isplitl [HH]; · iexact HH
  isplitl [Hg' Ht']
  · unfold G
    rw [bigSep_sep']
    isplitl [Hg']
    · iexact Hg'
    · iexact Ht'
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof.KI

end
-- ==== Proof.TcRegionI.lean ====
/-
  The TensorCore copy as a region of @main. It is entered holding every array of @main whole (the group array `%0` as the
  first line left it) while the TensorCore still owes the SparseCores their start signals; it leaves `%1` holding the
  first 1536 rows of every group of `%0`, everything else as it was, the same units owed, every recorded wait at the
  kernels' own index.
-/
import proofs.«216314_g7602092114391_cont_9to1c4b_856_27_alg».proof.Proof.CommonI
import proofs.«216314_g7602092114391_cont_9to1c4b_856_27_alg».proof.Proof.LayoutValue
import proofs.«216314_g7602092114391_cont_9to1c4b_856_27_alg».proof.Proof.PatternChain
import proofs.«216314_g7602092114391_cont_9to1c4b_856_27_alg».proof.Proof.PayI
import proofs.«216314_g7602092114391_cont_9to1c4b_856_27_alg».proof.Proof.TcDatI
import proofs.«216314_g7602092114391_cont_9to1c4b_856_27_alg».proof.Proof.Gen.KernelIdeal.Launch
import proofs.«216314_g7602092114391_cont_9to1c4b_856_27_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.Tactic

variable {F : FTy → Type}

local notation "𝕄" => MT nD τ sig (HIx 1) (Elt F) ℕ UU ℕ

open Idealize.ShloMosaic.TcCoe
open Idealize.ShloMosaic.Pipeline (BodyObligation cellOf)

variable (m : (ℓ : Loc nD τ sig) → Buf (Elt F) ℓ) (ρ : Dev nD → PrngReg)

variable [FloatOps F]

/-! ## The unscoped buffers as one held set -/

/-- Every array of @main, as buffers of the device. -/
def Sall : Finset (DevRef τ sig) :=
  (Finset.univ.filter fun b : Ref sig .tc => ¬ b.isScoped).map ⟨fun b => Proc.devRef .tc b, Proc.devRef_injective _⟩

omit [FloatOps F] in
theorem held_all (d : Dev nD) (V : Valuation τ sig (Elt F)) :
    (held (T d) Sall V : sProp 𝕄) = unscopedBufs d (fun b => V (Proc.devRef .tc b)) := by
  unfold StableHlo.held Sall unscopedBufs
  rw [bigSep_map]; rfl

/-- A buffer at the full share, spelt at the location. -/
abbrev pl (c : Dev nD) (b : Ref sig .tc) (f : b.ty.Contents (Elt F)) : sProp 𝕄 := ((c.tc : Thread nD τ).loc b) ↦{fullShare} f

/-! ## What the TensorCore owes through the region -/

abbrev Otc0 (c : Dev nD) : CellTallies nD τ sig (HIx 1) := (K (F := F)).Otc c 0

omit [FloatOps F] in
/-- Every unit it owes is a start signal of the call: none at the kernels' own index. -/
theorem Otc0_none (c : Dev nD) (g : GSem nD τ sig) : Otc0 (F := F) c g none = 0 := by
  unfold Otc0 SparseCore.Cfg.Otc
  simp [Finset.sum_apply, Finsupp.finsetSum_apply, tallyAt_apply]

/-- The TensorCore owing the start signals, every recorded wait at level 0. -/
def owesPart (c : Dev nD) : sProp 𝕄 :=
  iprop(∃ W, ⌜(K (F := F)).WBelow (T c) W 0⌝ ∗ owes (T c) (Otc0 (F := F) c) W)

/-! ## The proof data and the region -/

def pdats : (p : Fin 1) → (c : Dev nD) → Pipeline.Dat τ (Elt F) (HIx 1) ℕ UU ℕ (Pipeline.pin (pcfgs (F := F)) adm p) c
  | 0 => fun c => dat0 c (V1 m c rV0) (V1 m c rV1) (Otc0 (F := F) c)

theorem arrays_eq (c : Dev nD) (Fa) : ((pdats (F := F) m 0 c).arrays Fa : sProp 𝕄) = iprop(pl c main_v0 (Fa 0) ∗ pl c main_v1 (Fa 1)) := by
  rw [Pipeline.arrays_eq (Pipeline.pin (pcfgs (F := F)) adm) (pdats m) 0 c launch0.arr_whole ((pdats m 0 c).share_full fun _ => rfl) Fa, bigSep_W0]

/-- The buffers' contents as a function of the TensorCore's names. -/
abbrev W1 (c : Dev nD) (b : Ref sig .tc) : Buf (Elt F) ((c.tc : Thread nD τ).loc b) := V1 m c (Proc.devRef .tc b)

/-- After the region: `%0` as found, `%1` the groups' first rows, the other arrays as found, the same units owed. -/
def afterRegion (c : Dev nD) : sProp 𝕄 :=
  iprop(pl c main_v0 (V1 m c rV0) ∗ pl c main_v1 (Cert.Spec.headRows (V1 m c rV0))
    ∗ Pipeline.unscopedRest (Ix := HIx 1) (Name := ℕ) (U := UU) (Lvl := ℕ) spec0 c (W1 m c) ∗ owesPart (F := F) c)

def reg0 : Pipeline.RegionSeg (pcfgs (F := F)) adm (pdats m) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation c (V1 m c rV0) (V1 m c rV1) (Otc0 (F := F) c)).loose
  hwaits c := Pipeline.cellsWaits_intro _ (pdats m) none 0 c fun w s t => (K (F := F)).mayWait_none _ (Otc0_none c)
  pre c := iprop(unscopedBufs c (W1 m c) ∗ owesPart (F := F) c)
  post := afterRegion m
  X _ := iprop(emp)
  Y _ := iprop(emp)
  Z c := Pipeline.unscopedRest (Ix := HIx 1) (Name := ℕ) (U := UU) (Lvl := ℕ) spec0 c (W1 m c)
  hentry c := by
    rw [Pipeline.ownSems0_none]
    have hsplit := Pipeline.arrays_of_unscopedBufs (pcfgs (F := F)) adm (pdats m) launch0.win launch0.arr_whole c
      ((pdats m 0 c).share_full fun _ => rfl) (W1 m c) fun w => match w with | ⟨0, _⟩ => rfl | ⟨1, _⟩ => rfl
    unfold owesPart
    iintro ⟨⟨Hub, %W, %hW, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro
        intro p hp
        refine Or.inl ?_
        have h := hW p (Finset.mem_coe.mp hp)
        show p.2 = none
        cases hp2 : p.2 with
        | none => rfl
        | some q => rw [hp2] at h; exact absurd h (Nat.not_le.mpr ((K (F := F)).lev_some_pos _ q))
      iexact HO
    isplitr; · iempintro
    iexact Hr
  hin c := by iintro -; iempintro
  hout c := by
    rw [Pipeline.ownSems0_none, scopedRest0_eq]
    iintro -; isplitr; · iempintro
    isplitr <;> iempintro
  hexit c := by
    unfold afterRegion owesPart
    rw [arrays_eq, show (pdats (F := F) m 0 c).arrAt 0 (Pipeline.pin (pcfgs (F := F)) adm 0).N = V1 m c rV0 from arrAt_v0 c _ _ _,
      show (pdats (F := F) m 0 c).arrAt 1 (Pipeline.pin (pcfgs (F := F)) adm 0).N = Cert.Spec.headRows (V1 m c rV0) from arrAt_v1 c _ _ _]
    iintro ⟨⟨H0, H1⟩, HO, -, Hr⟩
    imodintro
    isplitl [H0]; · iexact H0
    isplitl [H1]; · iexact H1
    isplitl [Hr]; · iexact Hr
    unfold Pipeline.Dat.owesAt Pipeline.owesWithin
    icases HO with ⟨%W, %hW, HO⟩
    iexists W; isplitr; swap; · iexact HO
    ipureintro
    intro p hp
    have hp2 : p.2 = none := by
      rcases hW (Finset.mem_coe.mpr hp) with h | ⟨w, s, h⟩
      · exact h
      · rw [h]
    rw [hp2]; exact le_of_eq ((K (F := F)).lev_none _)

/-! ## The region's step, as @main meets it -/

/-- The arrays of @main held at `V` are the region's two windows' arrays and the rest. -/
theorem held_region (d : Dev nD) (V : Valuation τ sig (Elt F)) :
    (held (T d) Sall V : sProp 𝕄)
      = iprop((pl d main_v0 (V rV0) ∗ pl d main_v1 (V rV1))
          ∗ Pipeline.unscopedRest (Ix := HIx 1) (Name := ℕ) (U := UU) (Lvl := ℕ) spec0 d (fun b => V (Proc.devRef .tc b))) := by
  rw [held_all, Pipeline.unscopedBufs_split (Pipeline.pin (pcfgs (F := F)) adm) 0 launch0.win.arr_unscoped launch0.win.arr_inj d, bigSep_W0]

end Cert.Proof.KI

end
-- ==== Proof.FinI.lean ====
/-
  What the claim reads off a final state. At the end of @main the TensorCore holds every array of @main whole, at the
  last valuation; under the state interpretation a whole array held at the full share pins the array's physical
  contents, so the four results and the argument are, in the final memory, what the last valuation says.
-/
import proofs.«216314_g7602092114391_cont_9to1c4b_856_27_alg».proof.Proof.TcRegionI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.Tactic

variable {F : FTy → Type}

local notation "𝕄" => MT nD τ sig (HIx 1) (Elt F) ℕ UU ℕ

open Idealize.ShloMosaic.TcCoe

variable (m : (ℓ : Loc nD τ sig) → Buf (Elt F) ℓ)

variable [FloatOps F]

omit [FloatOps F] in
/-- An array of @main is among the buffers held at the end. -/
theorem mem_Sall (b : Ref sig .tc) (hb : b.isScoped = false) : Proc.devRef (τ := τ) .tc b ∈ Sall :=
  Finset.mem_map.mpr ⟨b, Finset.mem_filter.mpr ⟨Finset.mem_univ _, by simp [hb]⟩, rfl⟩

/-- What the claim reads off a final state: the four results and the argument at the last valuation. -/
def fq (d : Dev nD) (s' : Phys nD τ sig (Elt F)) : Prop :=
  s'.mem.mem (d, rV4) = V5 m d rV4 ∧ s'.mem.mem (d, rV5) = V5 m d rV5 ∧ s'.mem.mem (d, rV9) = V5 m d rV9
    ∧ s'.mem.mem (d, rV13) = V5 m d rV13 ∧ s'.mem.mem (d, rArg) = V5 m d rArg

/-- Holding every array whole at the last valuation, against the state interpretation: the final memory's arrays. -/
theorem hfin (d : Dev nD) (s' : Phys nD τ sig (Elt F)) :
    iprop(StableHlo.held (SparseCore.T d) Sall (V5 m d) ∗ SI s') ⊢ (⌜fq m d s'⌝ : sProp 𝕄) := by
  unfold StableHlo.held
  iintro ⟨H, HSI⟩
  ihave %h := (SI_pointsTo_bufs_agree (c := d) (qs := fun _ => fullShare) (F := V5 m d) Sall) $$ [HSI H]
  · isplitl [HSI]; · iexact HSI
    iexact H
  ipureintro
  exact ⟨h rV4 (mem_Sall main_v4 rfl), h rV5 (mem_Sall main_v5 rfl), h rV9 (mem_Sall main_v9 rfl),
    h rV13 (mem_Sall main_v13 rfl), h rArg (mem_Sall main_arg0 rfl)⟩

end Cert.Proof.KI

end
-- ==== Proof.DealI.lean ====
/-
  Dealing the SparseCore call's operands. The 32 workers are the pairs (SparseCore, vector subcore) through
  `w = 2 s + c`; the target array is the disjoint union of the workers' blocks of twelve chunks, and the read access to
  the source array is a remainder and 32 shares. So what the call hands over, summed over the SparseCores of its grid,
  is the source's 32 shares and the target whole; what it brings back, the same with the target at one function.
-/
import proofs.«216314_g7602092114391_cont_9to1c4b_856_27_alg».proof.Proof.CommonI
import proofs.«216314_g7602092114391_cont_9to1c4b_856_27_alg».proof.Proof.LayoutValue
import proofs.«216314_g7602092114391_cont_9to1c4b_856_27_alg».proof.Proof.PatternChain
import proofs.«216314_g7602092114391_cont_9to1c4b_856_27_alg».proof.Proof.PayI
import proofs.«216314_g7602092114391_cont_9to1c4b_856_27_alg».proof.Proof.Gen.KernelIdeal.Launch
import proofs.«216314_g7602092114391_cont_9to1c4b_856_27_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-- Worker numbers are the pairs (SparseCore, vector subcore). -/
def widEquiv : Fin 2 × Fin 16 ≃ Fin 32 where
  toFun p := wid p.1 p.2
  invFun w := (⟨w.val % 2, Nat.mod_lt _ (by decide)⟩, ⟨w.val / 2, by have := w.isLt; omega⟩)
  left_inv := fun ⟨c, s⟩ => by
    have hc := c.isLt; have hs := s.isLt
    refine Prod.ext (Fin.ext ?_) (Fin.ext ?_)
    · show (2 * s.val + c.val) % 2 = c.val; omega
    · show (2 * s.val + c.val) / 2 = s.val; omega
  right_inv := fun w => by
    refine Fin.ext ?_
    show 2 * (w.val / 2) + w.val % 2 = w.val; omega

theorem bigSep_workers (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The target: its 32 blocks -/

theorem tileSet_eq (w : Fin 32) : tileSet w = (tileBlock w).set := by
  show ((View.whole (main_v3_scv : Ref sig .scVector)).slice (tileBlock w)).set = _
  rw [View.set_slice]; exact Finset.map_refl
theorem tiles_disjoint : ∀ i ∈ (Finset.univ : Finset (Fin 32)), ∀ j ∈ (Finset.univ : Finset (Fin 32)), i ≠ j → Disjoint (tileSet i) (tileSet j) :=
  fun i _ j _ h => by rw [tileSet_eq, tileSet_eq]; exact Rect.part_disjoint tdiv h
theorem tiles_cover : (Finset.univ : Finset (Fin 32)).biUnion tileSet = Finset.univ :=
  (Finset.biUnion_congr rfl fun i _ => tileSet_eq i).trans (Rect.biUnion_part tdiv)

/-- The target whole at `g` is every worker's block at `g`. -/
theorem tar_split (d : Dev nD) (g : Buf (Elt F) (v3Loc d)) :
    (v3Loc d ↦{fullShare} g : sProp 𝕄)
      = bigSep Finset.univ fun c : Fin 2 => bigSep Finset.univ fun s : Fin 16 => v3Loc d ↦[tileSet (wid c s)]{fullShare} g := by
  rw [← bigSep_workers (F := F) (fun w => (v3Loc d ↦[tileSet w]{fullShare} g : sProp 𝕄)),
    ← pointsTo_biUnion Finset.univ (ℓ := v3Loc d) tileSet tiles_disjoint, tiles_cover]; try rfl

/-! ## The source: a remainder and 32 shares -/

theorem src_split (d : Dev nD) (f : Buf (Elt F) (v2Loc d)) :
    (v2Loc d ↦{fullShare} f : sProp 𝕄)
      ⊣⊢ iprop((v2Loc d ↦{Transfers.shareDrop fullShare 32} f)
          ∗ bigSep Finset.univ fun c : Fin 2 => bigSep Finset.univ fun s : Fin 16 => v2Loc d ↦{tileShare c s} f) := by
  rw [← bigSep_workers (F := F) (fun w => (v2Loc d ↦{workerShare w} f : sProp 𝕄))]
  exact Transfers.pointsTo_toks fullShare 32

variable [FloatOps F]

/-! ## What the call hands over and brings back, over its grid -/

/-- Every worker's share of the source at `f`; every worker's block of the target at `g`. -/
abbrev srcAll (d : Dev nD) (f : Buf (Elt F) (v2Loc d)) : sProp 𝕄 :=
  bigSep Finset.univ fun c : Fin 2 => bigSep Finset.univ fun s : Fin 16 => v2Loc d ↦{tileShare c s} f
abbrev tarAll (d : Dev nD) (g : Buf (Elt F) (v3Loc d)) : sProp 𝕄 :=
  bigSep Finset.univ fun c : Fin 2 => bigSep Finset.univ fun s : Fin 16 => v3Loc d ↦[tileSet (wid c s)]{fullShare} g

theorem st0_eq (d : Dev nD) :
    (bigSep Finset.univ fun c : Fin ((K (F := F)).nCore 0) => (P m).st 0 d c) = iprop(srcAll d (f2 m d) ∗ tarAll d (f3 m d)) := by
  show (bigSep Finset.univ fun c : Fin ((K (F := F)).nCore 0) => bigSep Finset.univ fun s : Fin 16 => tileGo m d (Fin.cast nCore_zero c) s) = _
  rw [bigSep_cores (F := F) (fun c => bigSep Finset.univ fun s : Fin 16 => tileGo m d c s)]
  unfold tileGo
  simp only [bigSep_sep']
theorem dn0_eq (d : Dev nD) :
    (bigSep Finset.univ fun c : Fin ((K (F := F)).nCore 0) => (P m).dn 0 d c)
      = iprop(srcAll d (f2 m d) ∗ tarAll d (Cert.Spec.tarChunks (f2 m d))) := by
  show (bigSep Finset.univ fun c : Fin ((K (F := F)).nCore 0) => bigSep Finset.univ fun s : Fin 16 => tileTd m d (Fin.cast nCore_zero c) s) = _
  rw [bigSep_cores (F := F) (fun c => bigSep Finset.univ fun s : Fin 16 => tileTd m d c s)]
  unfold tileTd
  simp only [bigSep_sep']

end Cert.Proof.KI

end
-- ==== Proof.HostI.lean ====
/-
  The small facts @main's proof is assembled from: each line's buffers are arrays of @main and none allocates; how the
  valuations differ across the two calls; the two arrays of the SparseCore call among the rest.
-/
import proofs.«216314_g7602092114391_cont_9to1c4b_856_27_alg».proof.Proof.CommonI
import proofs.«216314_g7602092114391_cont_9to1c4b_856_27_alg».proof.Proof.LayoutValue
import proofs.«216314_g7602092114391_cont_9to1c4b_856_27_alg».proof.Proof.PatternChain
import proofs.«216314_g7602092114391_cont_9to1c4b_856_27_alg».proof.Proof.FinI
import proofs.«216314_g7602092114391_cont_9to1c4b_856_27_alg».proof.Proof.DealI
import proofs.«216314_g7602092114391_cont_9to1c4b_856_27_alg».proof.Proof.Gen.KernelIdeal.Launch
import proofs.«216314_g7602092114391_cont_9to1c4b_856_27_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.Tactic

variable {F : FTy → Type}

local notation "𝕄" => MT nD τ sig (HIx 1) (Elt F) ℕ UU ℕ

open Idealize.ShloMosaic.TcCoe

variable (m : (ℓ : Loc nD τ sig) → Buf (Elt F) ℓ) (ρ : Dev nD → PrngReg)

variable [FloatOps F] [∀ e, Nonempty (Elt F e)]

omit [FloatOps F] [∀ e, Nonempty (Elt F e)] in
theorem sub1 (y : Ref sig .tc) (hy : y.isScoped = false) : ({Proc.devRef .tc y} : Finset (DevRef τ sig)) ⊆ Sall := fun b hb => by
  cases Finset.mem_singleton.mp hb; exact mem_Sall y hy
omit [FloatOps F] [∀ e, Nonempty (Elt F e)] in
theorem sub2 (x y : Ref sig .tc) (hx : x.isScoped = false) (hy : y.isScoped = false) :
    ({Proc.devRef .tc x, Proc.devRef .tc y} : Finset (DevRef τ sig)) ⊆ Sall := fun b hb => by
  rcases Finset.mem_insert.mp hb with rfl | hb
  · exact mem_Sall x hx
  · cases Finset.mem_singleton.mp hb; exact mem_Sall y hy

theorem line1_sub : ∀ op ∈ (line1 : List (HloOp τ sig (Elt F))), op.bufs ⊆ Sall := by
  intro op h
  simp only [List.mem_cons, List.not_mem_nil, or_false] at h
  rcases h with rfl | rfl | rfl
  · exact sub1 main_c rfl
  · exact sub1 main_c_0 rfl
  · exact sub2 main_arg0 main_v0 rfl rfl
theorem line1_fresh : ∀ op ∈ (line1 : List (HloOp τ sig (Elt F))), op.fresh = ∅ := by
  intro op h
  simp only [List.mem_cons, List.not_mem_nil, or_false] at h
  rcases h with rfl | rfl | rfl <;> rfl
theorem line2_sub : ∀ op ∈ (line2 : List (HloOp τ sig (Elt F))), op.bufs ⊆ Sall := by
  intro op h
  simp only [List.mem_cons, List.not_mem_nil, or_false] at h
  subst h; exact sub2 main_arg0 main_v2 rfl rfl
theorem line2_fresh : ∀ op ∈ (line2 : List (HloOp τ sig (Elt F))), op.fresh = ∅ := by
  intro op h
  simp only [List.mem_cons, List.not_mem_nil, or_false] at h
  subst h; rfl
theorem line3_sub : ∀ op ∈ (line3 : List (HloOp τ sig (Elt F))), op.bufs ⊆ Sall := by
  intro op h
  simp only [List.mem_cons, List.not_mem_nil, or_false] at h
  rcases h with rfl | rfl | rfl | rfl | rfl | rfl | rfl | rfl | rfl | rfl
  · exact sub2 main_v1 main_v4 rfl rfl
  · exact sub2 main_v3 main_v5 rfl rfl
  · exact sub2 main_c main_v6 rfl rfl
  · exact sub2 main_v6 main_v7 rfl rfl
  · exact sub2 main_v7 main_v8 rfl rfl
  · exact sub2 main_v8 main_v9 rfl rfl
  · exact sub2 main_c_0 main_v10 rfl rfl
  · exact sub2 main_v10 main_v11 rfl rfl
  · exact sub2 main_v11 main_v12 rfl rfl
  · exact sub2 main_v12 main_v13 rfl rfl
theorem line3_fresh : ∀ op ∈ (line3 : List (HloOp τ sig (Elt F))), op.fresh = ∅ := by
  intro op h
  simp only [List.mem_cons, List.not_mem_nil, or_false] at h
  rcases h with rfl | rfl | rfl | rfl | rfl | rfl | rfl | rfl | rfl | rfl <;> rfl

/-! ## The valuations across the two calls -/

omit [∀ e, Nonempty (Elt F e)] in
theorem V2_of_ne (d : Dev nD) {b : DevRef τ sig} (h : b ≠ rV1) : V2 m d b = V1 m d b := Function.update_of_ne h _ _
omit [∀ e, Nonempty (Elt F e)] in
theorem V2_self (d : Dev nD) : V2 m d rV1 = Cert.Spec.headRows (V1 m d rV0) := Function.update_self _ _ _
omit [∀ e, Nonempty (Elt F e)] in
theorem V4_of_ne (d : Dev nD) {b : DevRef τ sig} (h : b ≠ rV3) : V4 m d b = V3 m d b := Function.update_of_ne h _ _
omit [∀ e, Nonempty (Elt F e)] in
theorem V4_self (d : Dev nD) : V4 m d rV3 = Cert.Spec.tarChunks (V3 m d rV2) := Function.update_self _ _ _

omit [∀ e, Nonempty (Elt F e)] in
theorem V2_ref (d : Dev nD) (b : Ref sig .tc) (h : b ≠ main_v1) : V2 m d (Proc.devRef .tc b) = V1 m d (Proc.devRef .tc b) :=
  V2_of_ne m d fun e => h (Proc.devRef_injective _ e)

omit [∀ e, Nonempty (Elt F e)] in
/-- The arrays that are no window of the copy do not see its result. -/
theorem rest_V2 (d : Dev nD) :
    (Pipeline.unscopedRest (Ix := HIx 1) (Name := ℕ) (U := UU) (Lvl := ℕ) spec0 d (fun b => V2 m d (Proc.devRef .tc b)) : sProp 𝕄)
      = Pipeline.unscopedRest spec0 d (W1 m d) := by
  rw [unscopedRest0_eq, unscopedRest0_eq]
  rw [V2_ref m d main_arg0 (by decide), V2_ref m d main_c (by decide), V2_ref m d main_c_0 (by decide), V2_ref m d main_v2 (by decide),
    V2_ref m d main_v3 (by decide), V2_ref m d main_v4 (by decide), V2_ref m d main_v5 (by decide), V2_ref m d main_v6 (by decide),
    V2_ref m d main_v7 (by decide), V2_ref m d main_v8 (by decide), V2_ref m d main_v9 (by decide), V2_ref m d main_v10 (by decide),
    V2_ref m d main_v11 (by decide), V2_ref m d main_v12 (by decide), V2_ref m d main_v13 (by decide)]

omit [∀ e, Nonempty (Elt F e)] in
/-- What the copy leaves is every array of @main at the valuation after it. -/
theorem afterRegion_held (d : Dev nD) : afterRegion m d ⊢ iprop(held (T d) Sall (V2 m d) ∗ owesPart (F := F) d) := by
  unfold afterRegion
  rw [held_region d (V2 m d), rest_V2, V2_of_ne m d (show rV0 ≠ rV1 by decide), V2_self]
  iintro ⟨H0, H1, Hr, HO⟩
  isplitr [HO]
  · isplitl [H0 H1]
    · isplitl [H0] <;> iassumption
    · iexact Hr
  · iexact HO

/-! ## The SparseCore call's two arrays among the rest -/

omit [FloatOps F] [∀ e, Nonempty (Elt F e)] in
theorem pair_sub : ({rV2, rV3} : Finset (DevRef τ sig)) ⊆ Sall := sub2 main_v2 main_v3 rfl rfl
omit [FloatOps F] [∀ e, Nonempty (Elt F e)] in
theorem held_pair (d : Dev nD) (V : Valuation τ sig (Elt F)) :
    (held (T d) ({rV2, rV3} : Finset (DevRef τ sig)) V : sProp 𝕄) = iprop((v2Loc d ↦{fullShare} V rV2) ∗ (v3Loc d ↦{fullShare} V rV3)) := by
  unfold StableHlo.held
  rw [SparseCore.bigSep_insert' (by decide), bigSep_singleton]
omit [∀ e, Nonempty (Elt F e)] in
theorem held_rest_V4 (d : Dev nD) :
    (held (T d) (Sall \ {rV2, rV3}) (V4 m d) : sProp 𝕄) = held (T d) (Sall \ {rV2, rV3}) (V3 m d) :=
  StableHlo.held_congr (T d) fun b hb => V4_of_ne m d fun e => by
    subst e; exact (Finset.mem_sdiff.mp hb).2 (by simp)

end Cert.Proof.KI

end
-- ==== Proof.RegionStepI.lean ====
/-
  The TensorCore copy's step as @main meets it: the region rule of the pipeline library, lifted to the program's body
  table with the SparseCore launch threads.
-/
import proofs.«216314_g7602092114391_cont_9to1c4b_856_27_alg».proof.Proof.CommonI
import proofs.«216314_g7602092114391_cont_9to1c4b_856_27_alg».proof.Proof.LayoutValue
import proofs.«216314_g7602092114391_cont_9to1c4b_856_27_alg».proof.Proof.PatternChain
import proofs.«216314_g7602092114391_cont_9to1c4b_856_27_alg».proof.Proof.TcRegionI
import proofs.«216314_g7602092114391_cont_9to1c4b_856_27_alg».proof.Proof.Gen.KernelIdeal.Launch
import proofs.«216314_g7602092114391_cont_9to1c4b_856_27_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.Tactic

variable {F : FTy → Type}

local notation "𝕄" => MT nD τ sig (HIx 1) (Elt F) ℕ UU ℕ

open Idealize.ShloMosaic.TcCoe

variable (m : (ℓ : Loc nD τ sig) → Buf (Elt F) ℓ) (ρ : Dev nD → PrngReg)

variable [FloatOps F] [∀ e, Nonempty (Elt F e)]

/-! ## The TensorCore copy's step -/

omit [∀ e, Nonempty (Elt F e)] in
theorem reg0_pre (d : Dev nD) : (reg0 m).pre d = iprop(unscopedBufs d (W1 m d) ∗ owesPart (F := F) d) := rfl
omit [∀ e, Nonempty (Elt F e)] in
theorem reg0_post (d : Dev nD) : (reg0 m).post d = afterRegion m d := rfl

omit [∀ e, Nonempty (Elt F e)] in
/-- What @main holds at the call is what the region rule asks. -/
theorem region_pre (d : Dev nD) (Φ : PUnit.{1} → sProp 𝕄) :
    (iprop((iprop(boundary (T d) ∗ afterRegion m d) -∗ Φ ⟨⟩) ∗ boundary (T d) ∗ (unscopedBufs d (W1 m d) ∗ owesPart (F := F) d)
        ∗ levAts (K (F := F)).L (K (F := F)).lev ∗ G (F := F) d) : sProp 𝕄)
      ⊢ iprop((iprop(boundary (d.tc : Thread nD τ) ∗ (reg0 m).post d) -∗ wp frame (wpE (D (F := F)) 𝒱 (d.tc : Thread nD τ) none) Set.univ (.ret ⟨⟩) Φ)
        ∗ boundary (d.tc : Thread nD τ) ∗ (reg0 m).pre d ∗ levAts (K (F := F)).L (K (F := F)).lev
        ∗ Pipeline.cellsGhost (Pipeline.pin (pcfgs (F := F)) adm) EP 0 d ∗ Pipeline.toksInit (Pipeline.pin (pcfgs (F := F)) adm) EP 0 d) := by
  rw [reg0_pre, reg0_post]
  unfold G
  iintro ⟨Hk, Hb, Hpre, Hlev, Hg, Ht⟩
  isplitl [Hk]
  · iintro H; rw [wp_ret]; imodintro; iapply Hk; iexact H
  isplitl [Hb]; · iexact Hb
  isplitl [Hpre]; · iexact Hpre
  isplitl [Hlev]; · iexact Hlev
  isplitl [Hg] <;> iassumption

set_option maxHeartbeats 1000000 in
theorem tc_region (d : Dev nD) (Φ : PUnit.{1} → sProp 𝕄) :
    (iprop((iprop(boundary (T d) ∗ afterRegion m d) -∗ Φ ⟨⟩) ∗ boundary (T d) ∗ (unscopedBufs d (W1 m d) ∗ owesPart (F := F) d)
        ∗ levAts (K (F := F)).L (K (F := F)).lev ∗ G (F := F) d) : sProp 𝕄)
      ⊢ wp frame (wpE ((K (F := F)).defs (D (F := F))) 𝒱 (T d) none) Set.univ
          (Prog.lift (.customCall (SparseCore.inner (Pipeline.entry 0)) ())) Φ := by
  have h : (iprop((iprop(boundary (d.tc : Thread nD τ) ∗ (reg0 m).post d) -∗ wp frame (wpE (D (F := F)) 𝒱 (d.tc : Thread nD τ) none) Set.univ (.ret ⟨⟩) Φ)
        ∗ boundary (d.tc : Thread nD τ) ∗ (reg0 m).pre d ∗ levAts (K (F := F)).L (K (F := F)).lev
        ∗ Pipeline.cellsGhost (Pipeline.pin (pcfgs (F := F)) adm) EP 0 d ∗ Pipeline.toksInit (Pipeline.pin (pcfgs (F := F)) adm) EP 0 d) : sProp 𝕄)
      ⊢ wp frame (wpE (D (F := F)) 𝒱 (T d) none) Set.univ (Prog.lift (.customCall (Pipeline.entry 0) ())) Φ :=
    Pipeline.RegionSeg.wp (pcfgs (F := F)) adm (pdats m) (none : HIx 1) cellOf_inj EP defs₀ 𝒱₀ (K (F := F)).L (K (F := F)).lev
      (reg0 m) d none (fun u hu => by cases hu) (fun x => .ret x) Φ
  have hl : wp frame (wpE (D (F := F)) 𝒱 (T d) none) Set.univ (Prog.lift (.customCall (Pipeline.entry 0) ())) Φ
      ⊢ wp frame (wpE ((K (F := F)).defs (D (F := F))) 𝒱 (T d) none) Set.univ
          (Prog.lift (.customCall (SparseCore.inner (Pipeline.entry 0)) ())) Φ :=
    (K (F := F)).wp_liftProg (D (F := F)) 𝒱 (T d) Set.univ none (Prog.lift (.customCall (Pipeline.entry 0) ())) Φ
  exact (region_pre m d Φ).trans (h.trans hl)

end Cert.Proof.KI

end
-- ==== Proof.HmainI.lean ====
/-
  @main on the TensorCore. The first line's three operations; the TensorCore copy, entered through the lifted region
  rule while the start signals are still owed; the reshape into chunks; the SparseCore call, for which the read access to
  the source and the target's 384 chunks are dealt to the 32 workers and gathered back, the target then holding the target
  chunks of the source; the last line. Every array of @main ends at the valuation `V5`.
-/
import proofs.«216314_g7602092114391_cont_9to1c4b_856_27_alg».proof.Proof.CommonI
import proofs.«216314_g7602092114391_cont_9to1c4b_856_27_alg».proof.Proof.LayoutValue
import proofs.«216314_g7602092114391_cont_9to1c4b_856_27_alg».proof.Proof.PatternChain
import proofs.«216314_g7602092114391_cont_9to1c4b_856_27_alg».proof.Proof.HostI
import proofs.«216314_g7602092114391_cont_9to1c4b_856_27_alg».proof.Proof.RegionStepI
import proofs.«216314_g7602092114391_cont_9to1c4b_856_27_alg».proof.Proof.Gen.KernelIdeal.Launch
import proofs.«216314_g7602092114391_cont_9to1c4b_856_27_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F] [∀ e, Nonempty (Elt F e)]

/-! ## @main -/

/-- What @main leaves: every array at the last valuation. -/
abbrev FIN (d : Dev nD) : sProp 𝕄 := held (SparseCore.T d) Sall (V5 m d)

set_option maxRecDepth 16384 in
set_option maxHeartbeats 2000000 in
set_option backward.isDefEq.respectTransparency.types false in
/-- @main, with the TensorCore's handshake state spelt as what it owes (`hR`: the state's own definition) beside the rest `R`. -/
theorem hmain' (κ : GSem nD τ sig → ℕ) (d : Dev nD) (R : sProp 𝕄)
    (hR : ((K (F := F)).tcSt EH d 0 : sProp 𝕄)
      = iprop(owesPart (F := F) d ∗ R)) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [main_eq, show (unscopedBufs d (fun b => m ((SparseCore.T d).loc b)) : sProp 𝕄) = held (SparseCore.T d) Sall (V0 m d) from (held_all d (V0 m d)).symm]
  iintro ⟨#Hctx, Hst0, ⟨Hb, Hheld, -, -⟩, Hg⟩
  ihave Hst' := (Entails.of_eq hR) $$ Hst0
  icases Hst' with ⟨Howes, Hst⟩
  -- the first line
  iapply (wp_seq 𝒱 none Set.univ d Sall _ (line1 (F := F)) line1_sub line1_fresh (V0 m d)) $$ [Hb Hheld]
  · isplitl [Hb] <;> iassumption
  iintro ⟨Hb, Hheld⟩
  ihave Hheld1 := (Entails.of_eq (show (held (d.tc : Thread nD τ) Sall (StableHlo.after (line1 (F := F)) (V0 m d)) : sProp 𝕄)
      = held (SparseCore.T d) Sall (V1 m d) from rfl)) $$ Hheld
  -- the TensorCore copy
  rw [wp_bind]
  ihave Hub := (Entails.of_eq (held_all (F := F) d (V1 m d))) $$ Hheld1
  iapply (tc_region m d _) $$ [Hb Hub Howes Hg Hst]
  isplitr [Hb Hub Howes Hg]
  swap
  · isplitl [Hb]; · iexact Hb
    isplitl [Hub Howes]
    · isplitl [Hub]; · iexact Hub
      iexact Howes
    isplitr
    · iapply (SparseCore.Cfg.ctx_levAts (K := K (F := F)) (EH := EH) (P := P m) κ); iexact Hctx
    iexact Hg
  iintro ⟨Hb, Haft⟩
  ihave Haft' := (afterRegion_held m d) $$ Haft
  icases Haft' with ⟨Hheld, Howes⟩
  -- the second line
  iapply (wp_seq 𝒱 none Set.univ d Sall _ (line2 (F := F)) line2_sub line2_fresh (V2 m d)) $$ [Hb Hheld]
  · isplitl [Hb] <;> iassumption
  iintro ⟨Hb, Hheld⟩
  ihave Hheld3 := (Entails.of_eq (show (held (d.tc : Thread nD τ) Sall (StableHlo.after (line2 (F := F)) (V2 m d)) : sProp 𝕄)
      = held (SparseCore.T d) Sall (V3 m d) from rfl)) $$ Hheld
  -- the SparseCore call: the source's shares and the target's blocks out, and back
  rw [wp_bind]
  ihave Hh := (Entails.of_eq (StableHlo.held_sub_split (SparseCore.T d) pair_sub (V3 m d))) $$ Hheld3
  icases Hh with ⟨Hp, Hrest⟩
  ihave Hp' := (Entails.of_eq (held_pair (F := F) d (V3 m d))) $$ Hp
  icases Hp' with ⟨H2, H3⟩
  ihave H2' := (src_split (F := F) d (f2 m d)).1 $$ H2
  icases H2' with ⟨H2r, H2s⟩
  ihave H3' := (Entails.of_eq (tar_split (F := F) d (f3 m d))) $$ H3
  ihave Hst1 := (Entails.of_eq hR.symm) $$ [Howes Hst]
  · isplitl [Howes] <;> iassumption
  iapply ((K (F := F)).wp_run (D (F := F)) 𝒱 (EH := EH) (P := P m) κ d 0) $$ [Hst1 H2s H3' Hb Hrest H2r]
  isplitr; · iexact Hctx
  isplitl [Hst1]; · iexact Hst1
  isplitl [H2s H3']
  · rw [st0_eq]
    isplitl [H2s]; · iexact H2s
    iexact H3'
  iintro ⟨Hst, Hdn⟩
  ihave Hdn' := (Entails.of_eq (dn0_eq m d)) $$ Hdn
  icases Hdn' with ⟨H2s, H3'⟩
  ihave H2 := (src_split (F := F) d (f2 m d)).2 $$ [H2r H2s]
  · isplitl [H2r] <;> iassumption
  ihave H3 := (Entails.of_eq (tar_split (F := F) d (Cert.Spec.tarChunks (f2 m d))).symm) $$ H3'
  ihave Hheld := (Entails.of_eq (show (iprop((held (SparseCore.T d) ({rV2, rV3} : Finset (DevRef τ sig)) (V4 m d)) ∗ held (SparseCore.T d) (Sall \ {rV2, rV3}) (V4 m d)) : sProp 𝕄)
      = held (SparseCore.T d) Sall (V4 m d) from (StableHlo.held_sub_split (SparseCore.T d) pair_sub (V4 m d)).symm)) $$ [H2 H3 Hrest]
  · isplitl [H2 H3]
    · rw [held_pair, V4_of_ne m d (show rV2 ≠ rV3 by decide), V4_self]
      isplitl [H2] <;> iassumption
    · rw [held_rest_V4]; iexact Hrest
  -- the last line
  iapply (wp_seq 𝒱 none Set.univ d Sall _ (line3 (F := F)) line3_sub line3_fresh (V4 m d)) $$ [Hb Hheld]
  · isplitl [Hb] <;> iassumption
  iintro ⟨Hb, Hheld⟩
  ihave Hheld5 := (Entails.of_eq (show (held (d.tc : Thread nD τ) Sall (StableHlo.after (line3 (F := F)) (V4 m d)) : sProp 𝕄)
      = held (SparseCore.T d) Sall (V5 m d) from rfl)) $$ Hheld
  rw [wp_pure]; imodintro
  isplitl [Hst]; · iexact Hst
  iexact Hheld5

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) :=
  hmain' m ρ κ d _ rfl

end Cert.Proof.KI

end
-- ==== Proof.OffsetsI.lean ====
/-
  The two offset chains of the chunk copy, in closed form.

  Worker `(c, s)` (core `c < 2`, subcore `s < 16`) copies twelve chunks; its `r`-th is target chunk `k = 24 s + 12 c + r`.
  The target offset is `k` itself. The source offset is computed in 32-bit words as `18 * ⌊k / 6⌋ + 12 + (k mod 6)`, the
  floor and the non-negative remainder each spelt as a signed division or remainder followed by a sign correction;
  as `0 ≤ k < 384` no correction fires and no word overflows, so the source offset is `srcChunk k`.
-/
import proofs.«216314_g7602092114391_cont_9to1c4b_856_27_alg».proof.Proof.Layout
import proofs.«216314_g7602092114391_cont_9to1c4b_856_27_alg».proof.Proof.Gen.KernelIdeal

namespace Cert.Proof.KI

open Cert.KernelIdeal Cert.KernelIdeal.Gen Idealize.ShloMosaic

/-- Worker `(c, s)`'s `r`-th chunk: `k = 24 s + 12 c + r`. -/
def chunkNo (i : grid1.Coords) (r : Fin 12) : Fin 384 :=
  ⟨24 * (i 1).val + 12 * (i 0).val + r.val, by
    have r_i1 : (i 1).val < 16 := (i 1).isLt
    have r_i0 : (i 0).val < 2 := (i 0).isLt
    have r_r : r.val < 12 := r.isLt
    omega⟩

/-- The source offset of worker `i`'s `r`-th copy is chunk `srcChunk k`, rows and columns from 0. The chain is followed
    word by word: each intermediate word is the integer written beside it. With `K = 24 s + 12 c + r`: the sign of
    `K` (0 or 1) decides whether the floor correction's first test holds, but the correction needs a negative
    `K` or divisor, so the quotient stays `K / 6`; the remainder `K % 6` is non-negative, so it is kept as it is. -/
theorem k1_off1_eq (i : grid1.Coords) (r : Fin 12) :
    k1_off1 i (BitVec.ofNat 32 r.val) = ![(Cert.Spec.srcChunk (chunkNo i r)).val, 0, 0] := by
  have r_r : r.val < 12 := r.isLt
  have h_c0_i32_0 : Affine.IsInt (BitVec.ofNat 32 r.val) ((r.val : Int)) := Affine.ofNat _ (by omega)
  have h_c18_i32 : Affine.IsInt 18#32 (18) := Affine.ofNat _ (by omega)
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c12_i32 : Affine.IsInt 12#32 (12) := Affine.ofNat _ (by omega)
  have h_v2 : Affine.IsInt _ (24 * ((i 1).val : Int) + 12 * ((i 0).val : Int)) := Affine.muli h_v1 h_c12_i32 (by omega)
  have h_v6 : Affine.IsInt _ (24 * ((i 1).val : Int) + 12 * ((i 0).val : Int) + (r.val : Int)) := Affine.addi h_v2 h_c0_i32_0 (by omega)
  have h_c0_i32_1 : Affine.IsInt 0#32 (0) := Affine.ofNat _ (by omega)
  rcases (show 24 * ((i 1).val : Int) + 12 * ((i 0).val : Int) + (r.val : Int) ≤ 0 ∨ 1 ≤ 24 * ((i 1).val : Int) + 12 * ((i 0).val : Int) + (r.val : Int) by omega) with hs | hs
  · -- K = 0
    have h_v8 : Affine.Fails _ := Affine.sgt_fails h_v6 h_c0_i32_1 (by omega)
    have h_v9 : Affine.IsInt _ (0) := Affine.extui_fails h_v8 (by omega)
    have h_c0_i32_2 : Affine.IsInt 0#32 (0) := Affine.ofNat _ (by omega)
    have h_v10 : Affine.Fails _ := Affine.slt_fails h_v6 h_c0_i32_2 (by omega)
    have h_v11 : Affine.IsInt _ (0) := Affine.extui_fails h_v10 (by omega)
    have h_v12 : Affine.IsInt _ (0) := Affine.subi h_v9 h_v11 (by omega)
    have h_c6_i32 : Affine.IsInt 6#32 (6) := Affine.ofNat _ (by omega)
    have h_c0_i32_3 : Affine.IsInt 0#32 (0) := Affine.ofNat _ (by omega)
    have h_v13 : Affine.Holds _ := Affine.sgt_holds h_c6_i32 h_c0_i32_3 (by omega)
    have h_v14 : Affine.IsInt _ (1) := Affine.extui_holds h_v13 (by omega)
    have h_c0_i32_4 : Affine.IsInt 0#32 (0) := Affine.ofNat _ (by omega)
    have h_v15 : Affine.Fails _ := Affine.slt_fails h_c6_i32 h_c0_i32_4 (by omega)
    have h_v16 : Affine.IsInt _ (0) := Affine.extui_fails h_v15 (by omega)
    have h_v17 : Affine.IsInt _ (1) := Affine.subi h_v14 h_v16 (by omega)
    have h_v18 : Affine.Holds _ := Affine.ne_holds h_v12 h_v17 (by omega)
    have h_v19 : Affine.IsInt _ (24 * ((i 1).val : Int) + 12 * ((i 0).val : Int) + (r.val : Int)) := Affine.remsi h_v6 h_c6_i32 (by omega)
    have h_c0_i32_5 : Affine.IsInt 0#32 (0) := Affine.ofNat _ (by omega)
    have h_v20 : Affine.Fails _ := Affine.ne_fails h_v19 h_c0_i32_5 (by omega)
    have h_v21 : Affine.Fails _ := Affine.andi_fails_right (Affine.tH h_v18) h_v20
    have h_v7 : Affine.IsInt _ (((24 * ((i 1).val : Int) + 12 * ((i 0).val : Int) + (r.val : Int)) / 6)) := Affine.divsi h_v6 h_c6_i32 (by omega)
    have h_c1_i32 : Affine.IsInt 1#32 (1) := Affine.ofNat _ (by omega)
    have h_v22 : Affine.IsInt _ (((24 * ((i 1).val : Int) + 12 * ((i 0).val : Int) + (r.val : Int)) / 6) - 1) := Affine.subi h_v7 h_c1_i32 (by omega)
    have h_v23 : Affine.IsInt _ (((24 * ((i 1).val : Int) + 12 * ((i 0).val : Int) + (r.val : Int)) / 6)) := Affine.select_fails h_v21 h_v22 h_v7 (by omega)
    have h_v24 : Affine.IsInt _ (18 * ((24 * ((i 1).val : Int) + 12 * ((i 0).val : Int) + (r.val : Int)) / 6)) := Affine.muli h_c18_i32 h_v23 (by omega)
    have h_c12_i32_6 : Affine.IsInt 12#32 (12) := Affine.ofNat _ (by omega)
    have h_v25 : Affine.IsInt _ (18 * ((24 * ((i 1).val : Int) + 12 * ((i 0).val : Int) + (r.val : Int)) / 6) + 12) := Affine.addi h_v24 h_c12_i32_6 (by omega)
    have h_c6_i32_7 : Affine.IsInt 6#32 (6) := Affine.ofNat _ (by omega)
    have h_c0_i32_8 : Affine.IsInt 0#32 (0) := Affine.ofNat _ (by omega)
    have h_v26 : Affine.Fails _ := Affine.eq_fails h_c6_i32_7 h_c0_i32_8 (by omega)
    have h_c1_i32_9 : Affine.IsInt 1#32 (1) := Affine.ofNat _ (by omega)
    have h_v27 : Affine.IsInt _ (6) := Affine.select_fails h_v26 h_c1_i32_9 h_c6_i32_7 (by omega)
    have h_v28 : Affine.IsInt _ (24 * ((i 1).val : Int) + 12 * ((i 0).val : Int) + (r.val : Int)) := Affine.remsi h_v6 h_v27 (by omega)
    have h_c0_i32_11 : Affine.IsInt 0#32 (0) := Affine.ofNat _ (by omega)
    have h_v30 : Affine.Fails _ := Affine.slt_fails h_v28 h_c0_i32_11 (by omega)
    have h_c0_i32_12 : Affine.IsInt 0#32 (0) := Affine.ofNat _ (by omega)
    have h_v31 : Affine.Fails _ := Affine.slt_fails h_v27 h_c0_i32_12 (by omega)
    have h_v32 : Affine.Fails _ := Affine.xori_ff h_v30 h_v31
    have h_c0_i32_10 : Affine.IsInt 0#32 (0) := Affine.ofNat _ (by omega)
    have h_v29 : Affine.Fails _ := Affine.ne_fails h_v28 h_c0_i32_10 (by omega)
    have h_v33 : Affine.Fails _ := Affine.andi_fails_left h_v32 (Affine.tF h_v29)
    have h_v34 : Affine.IsInt _ (24 * ((i 1).val : Int) + 12 * ((i 0).val : Int) + (r.val : Int) + 6) := Affine.addi h_v28 h_v27 (by omega)
    have h_v35 : Affine.IsInt _ (24 * ((i 1).val : Int) + 12 * ((i 0).val : Int) + (r.val : Int)) := Affine.select_fails h_v33 h_v34 h_v28 (by omega)
    have h_v36 : Affine.IsInt _ (18 * ((24 * ((i 1).val : Int) + 12 * ((i 0).val : Int) + (r.val : Int)) / 6) + 24 * ((i 1).val : Int) + 12 * ((i 0).val : Int) + (r.val : Int) + 12) := Affine.addi h_v25 h_v35 (by omega)
    exact Affine.vec_cons h_v36
      (by
        show _ = ((18 * ((24 * (i 1).val + 12 * (i 0).val + r.val) / 6) + 12 + (24 * (i 1).val + 12 * (i 0).val + r.val) % 6 : Nat) : Int)
        omega) <|
      Affine.vec_cons (Affine.ofNat 0 (by omega) : Affine.IsInt 0#32 0) (by omega) <|
      Affine.vec_cons (Affine.ofNat 0 (by omega) : Affine.IsInt 0#32 0) (by omega) <| Affine.vec_nil
  · -- K ≥ 1
    have h_v8 : Affine.Holds _ := Affine.sgt_holds h_v6 h_c0_i32_1 (by omega)
    have h_v9 : Affine.IsInt _ (1) := Affine.extui_holds h_v8 (by omega)
    have h_c0_i32_2 : Affine.IsInt 0#32 (0) := Affine.ofNat _ (by omega)
    have h_v10 : Affine.Fails _ := Affine.slt_fails h_v6 h_c0_i32_2 (by omega)
    have h_v11 : Affine.IsInt _ (0) := Affine.extui_fails h_v10 (by omega)
    have h_v12 : Affine.IsInt _ (1) := Affine.subi h_v9 h_v11 (by omega)
    have h_c6_i32 : Affine.IsInt 6#32 (6) := Affine.ofNat _ (by omega)
    have h_c0_i32_3 : Affine.IsInt 0#32 (0) := Affine.ofNat _ (by omega)
    have h_v13 : Affine.Holds _ := Affine.sgt_holds h_c6_i32 h_c0_i32_3 (by omega)
    have h_v14 : Affine.IsInt _ (1) := Affine.extui_holds h_v13 (by omega)
    have h_c0_i32_4 : Affine.IsInt 0#32 (0) := Affine.ofNat _ (by omega)
    have h_v15 : Affine.Fails _ := Affine.slt_fails h_c6_i32 h_c0_i32_4 (by omega)
    have h_v16 : Affine.IsInt _ (0) := Affine.extui_fails h_v15 (by omega)
    have h_v17 : Affine.IsInt _ (1) := Affine.subi h_v14 h_v16 (by omega)
    have h_v18 : Affine.Fails _ := Affine.ne_fails h_v12 h_v17 (by omega)
    have h_v19 : Affine.IsInt _ (((24 * ((i 1).val : Int) + 12 * ((i 0).val : Int) + (r.val : Int)) % 6)) := Affine.remsi h_v6 h_c6_i32 (by omega)
    have h_c0_i32_5 : Affine.IsInt 0#32 (0) := Affine.ofNat _ (by omega)
    have h_v20 : Affine.Term _ := Affine.cmpi_term .ne h_v19 h_c0_i32_5
    have h_v21 : Affine.Fails _ := Affine.andi_fails_left h_v18 h_v20
    have h_v7 : Affine.IsInt _ (((24 * ((i 1).val : Int) + 12 * ((i 0).val : Int) + (r.val : Int)) / 6)) := Affine.divsi h_v6 h_c6_i32 (by omega)
    have h_c1_i32 : Affine.IsInt 1#32 (1) := Affine.ofNat _ (by omega)
    have h_v22 : Affine.IsInt _ (((24 * ((i 1).val : Int) + 12 * ((i 0).val : Int) + (r.val : Int)) / 6) - 1) := Affine.subi h_v7 h_c1_i32 (by omega)
    have h_v23 : Affine.IsInt _ (((24 * ((i 1).val : Int) + 12 * ((i 0).val : Int) + (r.val : Int)) / 6)) := Affine.select_fails h_v21 h_v22 h_v7 (by omega)
    have h_v24 : Affine.IsInt _ (18 * ((24 * ((i 1).val : Int) + 12 * ((i 0).val : Int) + (r.val : Int)) / 6)) := Affine.muli h_c18_i32 h_v23 (by omega)
    have h_c12_i32_6 : Affine.IsInt 12#32 (12) := Affine.ofNat _ (by omega)
    have h_v25 : Affine.IsInt _ (18 * ((24 * ((i 1).val : Int) + 12 * ((i 0).val : Int) + (r.val : Int)) / 6) + 12) := Affine.addi h_v24 h_c12_i32_6 (by omega)
    have h_c6_i32_7 : Affine.IsInt 6#32 (6) := Affine.ofNat _ (by omega)
    have h_c0_i32_8 : Affine.IsInt 0#32 (0) := Affine.ofNat _ (by omega)
    have h_v26 : Affine.Fails _ := Affine.eq_fails h_c6_i32_7 h_c0_i32_8 (by omega)
    have h_c1_i32_9 : Affine.IsInt 1#32 (1) := Affine.ofNat _ (by omega)
    have h_v27 : Affine.IsInt _ (6) := Affine.select_fails h_v26 h_c1_i32_9 h_c6_i32_7 (by omega)
    have h_v28 : Affine.IsInt _ (((24 * ((i 1).val : Int) + 12 * ((i 0).val : Int) + (r.val : Int)) % 6)) := Affine.remsi h_v6 h_v27 (by omega)
    have h_c0_i32_11 : Affine.IsInt 0#32 (0) := Affine.ofNat _ (by omega)
    have h_v30 : Affine.Fails _ := Affine.slt_fails h_v28 h_c0_i32_11 (by omega)
    have h_c0_i32_12 : Affine.IsInt 0#32 (0) := Affine.ofNat _ (by omega)
    have h_v31 : Affine.Fails _ := Affine.slt_fails h_v27 h_c0_i32_12 (by omega)
    have h_v32 : Affine.Fails _ := Affine.xori_ff h_v30 h_v31
    have h_c0_i32_10 : Affine.IsInt 0#32 (0) := Affine.ofNat _ (by omega)
    have h_v29 : Affine.Term _ := Affine.cmpi_term .ne h_v28 h_c0_i32_10
    have h_v33 : Affine.Fails _ := Affine.andi_fails_left h_v32 h_v29
    have h_v34 : Affine.IsInt _ (((24 * ((i 1).val : Int) + 12 * ((i 0).val : Int) + (r.val : Int)) % 6) + 6) := Affine.addi h_v28 h_v27 (by omega)
    have h_v35 : Affine.IsInt _ (((24 * ((i 1).val : Int) + 12 * ((i 0).val : Int) + (r.val : Int)) % 6)) := Affine.select_fails h_v33 h_v34 h_v28 (by omega)
    have h_v36 : Affine.IsInt _ (18 * ((24 * ((i 1).val : Int) + 12 * ((i 0).val : Int) + (r.val : Int)) / 6) + ((24 * ((i 1).val : Int) + 12 * ((i 0).val : Int) + (r.val : Int)) % 6) + 12) := Affine.addi h_v25 h_v35 (by omega)
    exact Affine.vec_cons h_v36
      (by
        show _ = ((18 * ((24 * (i 1).val + 12 * (i 0).val + r.val) / 6) + 12 + (24 * (i 1).val + 12 * (i 0).val + r.val) % 6 : Nat) : Int)
        omega) <|
      Affine.vec_cons (Affine.ofNat 0 (by omega) : Affine.IsInt 0#32 0) (by omega) <|
      Affine.vec_cons (Affine.ofNat 0 (by omega) : Affine.IsInt 0#32 0) (by omega) <| Affine.vec_nil

/-- The target offset of worker `i`'s `r`-th copy is chunk `k` itself, rows and columns from 0. -/
theorem k1_off2_eq' (i : grid1.Coords) (r : Fin 12) :
    k1_off2 i (BitVec.ofNat 32 r.val) = ![(chunkNo i r).val, 0, 0] := k1_off2_eq i r

end Cert.Proof.KI
-- ==== Proof.TileI.lean ====
/-
  The task of one vector subcore, proved once at a symbolic place.

  Vector subcore `s` of SparseCore `c` is worker `w = 2 s + c`. It copies twelve chunks: its `r`-th is target chunk
  `k = 12 w + r`, read from source chunk `srcChunk k`. Each chunk goes from the source array into one of two scratch
  buffers (buffer `r % 2`) and from there to the target array; a buffer's copy-out is waited before the next
  copy-in to it, and each of the four semaphores has at most one copy outstanding. So every issue and every wait is a
  single step: after the wait of the `r`-th copy-in the buffer holds the source chunk, after the wait of the `r`-th
  copy-out the target row `k` holds that buffer's contents, hence the source chunk `srcChunk k`.
-/
import proofs.«216314_g7602092114391_cont_9to1c4b_856_27_alg».proof.Defs
import proofs.«216314_g7602092114391_cont_9to1c4b_856_27_alg».proof.Proof.Layout
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«216314_g7602092114391_cont_9to1c4b_856_27_alg».proof.Proof.Gen.KernelIdeal
import proofs.«216314_g7602092114391_cont_9to1c4b_856_27_alg».proof.Proof.Gen.KernelIdeal.Skeleton
import proofs.«216314_g7602092114391_cont_9to1c4b_856_27_alg».proof.Proof.CommonI
import proofs.«216314_g7602092114391_cont_9to1c4b_856_27_alg».proof.Proof.OffsetsI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "v2V" => (Memref.whole Cert.KernelIdeal.main_v2_scv : Memref Cert.KernelIdeal.sig Kind.scVector Space.hbm Cert.KernelIdeal.S1152x128x256 EltTy.f32)
local notation "v3V" => (Memref.whole Cert.KernelIdeal.main_v3_scv : Memref Cert.KernelIdeal.sig Kind.scVector Space.hbm Cert.KernelIdeal.S384x128x256 EltTy.f32)
local notation "b0V" => (Memref.whole Cert.KernelIdeal.cc1_scratch0 : Memref Cert.KernelIdeal.sig Kind.scVector Space.vmem Cert.KernelIdeal.S1x128x256 EltTy.f32)
local notation "b1V" => (Memref.whole Cert.KernelIdeal.cc1_scratch1 : Memref Cert.KernelIdeal.sig Kind.scVector Space.vmem Cert.KernelIdeal.S1x128x256 EltTy.f32)

/-- Every worker is active: `2 s + c < 32` at every grid point. -/
theorem cond_true : ∀ i : grid1.Coords, k1_cond1 i = 1#1 := by decide +kernel

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev sL (L : grid1.Coords) : Fin 16 := Fin.cast bound_one (L 1)

/-- Row `r` of the worker's block of the target, as the task addresses it. -/
abbrev tRowK (L : grid1.Coords) (h : k1_cond1 L = 1#1) (r : Fin 12) : Memref sig .scVector .hbm S1x128x256 .f32 :=
  (v3V).slice (Rect.unit (s := S384x128x256) (k1_off2 L (BitVec.ofNat 32 r.val)) S1x128x256.size (k1_off2_inb L h r)) (fun _ => rfl)
/-- The `r`-th source chunk, as the task addresses it. -/
abbrev sRowK (L : grid1.Coords) (h : k1_cond1 L = 1#1) (r : Fin 12) : Memref sig .scVector .hbm S1x128x256 .f32 :=
  (v2V).slice (Rect.unit (s := S1152x128x256) (k1_off1 L (BitVec.ofNat 32 r.val)) S1x128x256.size (k1_off1_inb L h r)) (fun _ => rfl)

theorem pts_v2V (q : PosShare TreeShare) (f : Buf (Elt F) (v2Loc d)) :
    ((v2V).view.loc (V d (cV L) (jV L)) ↦{q} f : sProp 𝕄) = v2Loc d ↦{q} f := rfl
theorem pts_b0V (f : Buf (Elt F) ((V d (cV L) (jV L)).loc cc1_scratch0)) :
    ((b0V).view.loc (V d (cV L) (jV L)) ↦{fullShare} f : sProp 𝕄) = (V d (cV L) (jV L)).loc cc1_scratch0 ↦{fullShare} f := rfl
theorem pts_b1V (f : Buf (Elt F) ((V d (cV L) (jV L)).loc cc1_scratch1)) :
    ((b1V).view.loc (V d (cV L) (jV L)) ↦{fullShare} f : sProp 𝕄) = (V d (cV L) (jV L)).loc cc1_scratch1 ↦{fullShare} f := rfl

abbrev cAcell (d : Dev nD) (c : Fin τ.nSC) (i : Fin τ.nSub) : GSem nD τ sig := (V d c i, .dma cc1_scratch2.sem)
abbrev cBcell (d : Dev nD) (c : Fin τ.nSC) (i : Fin τ.nSub) : GSem nD τ sig := (V d c i, .dma cc1_scratch3.sem)
abbrev cCcell (d : Dev nD) (c : Fin τ.nSC) (i : Fin τ.nSub) : GSem nD τ sig := (V d c i, .dma cc1_scratch4.sem)
abbrev cDcell (d : Dev nD) (c : Fin τ.nSC) (i : Fin τ.nSub) : GSem nD τ sig := (V d c i, .dma cc1_scratch5.sem)

/-- The four semaphores are among the subcore's own cells: they are them, at zero, and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ semVal (cDcell d (cV L) (jV L)) 0
          ∗ bigSep (((((ownCells (V d (cV L) (jV L))).erase (cAcell d (cV L) (jV L))).erase (cBcell d (cV L) (jV L))).erase (cCcell d (cV L) (jV L))).erase
              (cDcell d (cV L) (jV L))) fun g => semVal g 0) := by
  unfold SparseCore.Cfg.ownSems0
  rw [SparseCore.bigSep_erase' ((mem_ownCells (g := cAcell d (cV L) (jV L))).mpr ⟨rfl, by
      show (SemLoc.dma cc1_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch3.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scratch4.sem : SemLoc sig).isScoped .scVector = true; decide⟩⟩⟩),
    SparseCore.bigSep_erase' (Finset.mem_erase.mpr ⟨by simp [cCcell, cDcell]; decide, Finset.mem_erase.mpr ⟨by simp [cBcell, cDcell]; decide,
      Finset.mem_erase.mpr ⟨by simp [cAcell, cDcell]; decide,
      (mem_ownCells (g := cDcell d (cV L) (jV L))).mpr ⟨rfl, by show (SemLoc.dma cc1_scratch5.sem : SemLoc sig).isScoped .scVector = true; decide⟩⟩⟩⟩)]

/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- Row `r` of the worker's block, held by the task. -/
abbrev tRowPts (h : k1_cond1 L = 1#1) (f : Buf (Elt F) (v3Loc d)) (r : Fin 12) : sProp 𝕄 :=
  (tRowK L h r).view.loc (V d (cV L) (jV L)) ↦[(tRowK L h r).view.set]{fullShare} f

/-- An index lies in worker `w`'s block when its chunk number is one of `12 w, …, 12 w + 11`. -/
theorem mem_tileSet (w : Fin 32) (i : S384x128x256.Idx) : i ∈ tileSet w ↔ 12 * w.val ≤ (i 0).val ∧ (i 0).val < 12 * w.val + 12 := by
  have e : tileSet w = (tileBlock w).set := View.set_slice_whole main_v3_scv (tileBlock w)
  have h1 : (i 1).val < 128 := (i 1).isLt
  have h2 : (i 2).val < 256 := (i 2).isLt
  rw [e, Rect.mem_set_unit]
  constructor
  · intro H
    have H0 := H 0
    simp [Shape.partIx, Shape.partSize] at H0
    omega
  · intro H a
    match a with
    | 0 => simp [Shape.partIx, Shape.partSize] <;> omega
    | 1 => simp [Shape.partIx, Shape.partSize] <;> omega
    | 2 => simp [Shape.partIx, Shape.partSize] <;> omega

/-- An index lies in the worker's `r`-th row when its chunk number is the worker's `r`-th. -/
theorem mem_tRowK (h : k1_cond1 L = 1#1) (r : Fin 12) (i : S384x128x256.Idx) :
    i ∈ (tRowK L h r).view.set ↔ (i 0).val = (chunkNo L r).val := by
  have e : ((tRowK L h r).view.set : Finset S384x128x256.Idx)
      = (Rect.unit (s := S384x128x256) (k1_off2 L (BitVec.ofNat 32 r.val)) S1x128x256.size (k1_off2_inb L h r)).set :=
    View.set_slice_whole main_v3_scv _
  have h1 : (i 1).val < 128 := (i 1).isLt
  have h2 : (i 2).val < 256 := (i 2).isLt
  rw [e, Rect.mem_set_unit, k1_off2_eq']
  constructor
  · intro H
    have H0 := H 0
    simp at H0
    omega
  · intro H a
    match a with
    | 0 => simp <;> omega
    | 1 => simp <;> omega
    | 2 => simp <;> omega

/-- The worker's block of the target is its twelve rows. -/
theorem rows_eq (h : k1_cond1 L = 1#1) (f : Buf (Elt F) (v3Loc d)) :
    (v3Loc d ↦[tileSet (wid (cL L) (sL L))]{fullShare} f : sProp 𝕄)
      = iprop(tRowPts d L h f 0 ∗ tRowPts d L h f 1 ∗ tRowPts d L h f 2 ∗ tRowPts d L h f 3 ∗ tRowPts d L h f 4 ∗ tRowPts d L h f 5
          ∗ tRowPts d L h f 6 ∗ tRowPts d L h f 7 ∗ tRowPts d L h f 8 ∗ tRowPts d L h f 9 ∗ tRowPts d L h f 10 ∗ tRowPts d L h f 11) := by
  have hcov : tileSet (wid (cL L) (sL L)) = Finset.univ.biUnion fun r : Fin 12 => ((tRowK L h r).view.set : Finset S384x128x256.Idx) := by
    ext i
    rw [mem_tileSet, Finset.mem_biUnion]
    have hw : (wid (cL L) (sL L)).val = 2 * (L 1).val + (L 0).val := rfl
    constructor
    · intro H
      refine ⟨⟨(i 0).val - 12 * (wid (cL L) (sL L)).val, by omega⟩, Finset.mem_univ _, (mem_tRowK L h _ i).mpr ?_⟩
      show (i 0).val = 24 * (L 1).val + 12 * (L 0).val + ((i 0).val - 12 * (wid (cL L) (sL L)).val)
      omega
    · rintro ⟨r, -, hr⟩
      have := r.isLt
      have hr' : (i 0).val = 24 * (L 1).val + 12 * (L 0).val + r.val := (mem_tRowK L h r i).mp hr
      omega
  have hdis : ∀ r ∈ (Finset.univ : Finset (Fin 12)), ∀ r' ∈ (Finset.univ : Finset (Fin 12)), r ≠ r' →
      Disjoint ((tRowK L h r).view.set : Finset S384x128x256.Idx) ((tRowK L h r').view.set) := by
    intro r _ r' _ hne
    rw [Finset.disjoint_left]
    intro i hi hi'
    rw [mem_tRowK] at hi hi'
    have e1 : (i 0).val = 24 * (L 1).val + 12 * (L 0).val + r.val := hi
    have e2 : (i 0).val = 24 * (L 1).val + 12 * (L 0).val + r'.val := hi'
    exact hne (Fin.ext (by omega))
  rw [hcov]
  exact (pointsTo_biUnion (ℓ := v3Loc d) (q := fullShare) (f := f) Finset.univ _ hdis).trans
    (bigSep_univ_eq_bigSepL [0, 1, 2, 3, 4, 5, 6, 7, 8, 9, 10, 11] (by decide) (by decide) _)

/-- What the `r`-th row holds after its copy-out: the source chunk `srcChunk k`, that is, the target's contents there. -/
theorem row_val (h : k1_cond1 L = 1#1) (r : Fin 12) (f2 : Buf (Elt F) (v2Loc d)) (f3 : Buf (Elt F) (v3Loc d))
    (pay : S1x128x256.Idx → Elt F .f32) (hpay : pay = (sRowK L h r).view.read (Elt F) f2) :
    ((tRowK L h r).view.loc (V d (cV L) (jV L)) ↦[(tRowK L h r).view.set]{fullShare}
        (tRowK L h r).view.writes (Elt F) f3 [⟨Rect.whole S1x128x256, pay⟩] : sProp 𝕄)
      = tRowPts d L h (Cert.Spec.tarChunks f2) r := by
  subst hpay
  refine pointsTo_congr fun i hi => ?_
  obtain ⟨x, -, rfl⟩ := Finset.mem_map.mp hi
  rw [View.writes_singleton]
  have ex : (tRowK L h r).view.emb x = ((tRowK L h r).view.slice (Rect.whole S1x128x256)).emb x := by
    show _ = (tRowK L h r).view.emb ((Rect.whole S1x128x256).emb x)
    rw [Rect.emb_whole_apply]
  rw [ex, View.write_emb_of_mem _ _ (Finset.mem_univ x), View.read_apply, ← ex, cast_cast, cast_eq]
  have hs : ∀ a, (((sRowK L h r).view.emb x) a).val = k1_off1 L (BitVec.ofNat 32 r.val) a + 1 * (x a).val := fun _ => rfl
  have ht : ∀ a, (((tRowK L h r).view.emb x) a).val = k1_off2 L (BitVec.ofNat 32 r.val) a + 1 * (x a).val := fun _ => rfl
  rw [k1_off1_eq] at hs
  rw [k1_off2_eq'] at ht
  have x0 : (x 0).val = 0 := by have hx : (x 0).val < 1 := (x 0).isLt; omega
  have t0 : (tRowK L h r).view.emb x 0 = chunkNo L r := Fin.ext (by rw [ht 0]; simp [x0])
  show f2 _ = f2 _
  congr 1
  funext a
  apply Fin.ext
  match a with
  | 0 =>
    show _ = (Cert.Spec.srcChunk ((tRowK L h r).view.emb x 0)).val
    rw [t0, hs 0]; simp [x0]
  | 1 =>
    show _ = ((tRowK L h r).view.emb x 1).val
    rw [hs 1, ht 1]; simp
  | 2 =>
    show _ = ((tRowK L h r).view.emb x 2).val
    rw [hs 2, ht 2]; simp

/-- What a scratch buffer hands to its copy-out: a copy-in overwrites the buffer whole, so the buffer reads as what the
    copy-in carried, whatever it held before. -/
theorem pay_b0 (fprev : Buf (Elt F) ((V d (cV L) (jV L)).loc cc1_scratch0)) (w : S1x128x256.Idx → Elt F .f32) :
    (b0V).view.read (Elt F) (View.write (Elt F) (b0V).view fprev w Finset.univ) = w :=
  (View.read_whole (Val := Elt F) cc1_scratch0 _).trans (View.write_whole_univ (Val := Elt F) cc1_scratch0 fprev w)
theorem pay_b1 (fprev : Buf (Elt F) ((V d (cV L) (jV L)).loc cc1_scratch1)) (w : S1x128x256.Idx → Elt F .f32) :
    (b1V).view.read (Elt F) (View.write (Elt F) (b1V).view fprev w Finset.univ) = w :=
  (View.read_whole (Val := Elt F) cc1_scratch1 _).trans (View.write_whole_univ (Val := Elt F) cc1_scratch1 fprev w)

/-- A recorded wait at the kernels' index keeps the waits' invariant. -/
theorem ins_ok {W W' : Waits sig (HIx 1)} (g : SemLoc sig) (h : ∀ p ∈ W', p ∈ W ∨ p.2 = none) :
    ∀ p ∈ insert (g, (default : HIx 1)) W', p ∈ W ∨ p.2 = none := by
  intro p hp
  rcases Finset.mem_insert.mp hp with hp | hp
  · exact .inr (hp ▸ rfl)
  · exact h p hp

variable [FloatOps F]

set_option maxHeartbeats 4000000 in
/-- The task on vector subcore `(L 0, L 1)` of device `d`: twelve chunks through the two scratch buffers, every issue and
    wait a single step; at the end each row of the block holds its source chunk. -/
theorem tile_body (hF : (K (F := F)).Facts) (f2 : Buf (Elt F) (v2Loc d)) (f3 : Buf (Elt F) (v3Loc d))
    (O : CellTallies nD τ sig (HIx 1)) (W : Waits sig (HIx 1)) (hO : ∀ g, O g none = 0) :
    (iprop(levAts (K (F := F)).L (K (F := F)).lev ∗ emp
        ∗ ((v2Loc d ↦{tileShare (cL L) (sL L)} f2) ∗ (v3Loc d ↦[tileSet (wid (cL L) (sL L))]{fullShare} f3))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1__lambda_ L (Memref.whole main_v2_scv) (Memref.isWhole_whole _) (Memref.whole main_v3_scv) (Memref.isWhole_whole _)
            (Memref.whole cc1_scratch0) (Memref.isWhole_whole _) (Memref.whole cc1_scratch1) (Memref.isWhole_whole _)
            cc1_scratch2 cc1_scratch3 cc1_scratch4 cc1_scratch5)
          fun _ => iprop(((v2Loc d ↦{tileShare (cL L) (sL L)} f2) ∗ (v3Loc d ↦[tileSet (wid (cL L) (sL L))]{fullShare} Cert.Spec.tarChunks f2))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hc : k1_cond1 L = 1#1 := cond_true L
  simp only [cc1__lambda__eq_skeleton]; unfold cc1__lambda__skel
  rw [(K (F := F)).scopedBufs_V hF d (cV L) (jV L), SparseCore.Cfg.scopedSems0_V (Val := Elt F) d (cV L) (jV L), ownSems0_V, ownBufs_V,
    rows_eq (F := F) d L hc f3]
  iintro ⟨#Hlv, -, ⟨H2, T0, T1, T2, T3, T4, T5, T6, T7, T8, T9, T10, T11⟩, ⟨⟨%fa, Ha⟩, ⟨%fb, Hb⟩, Hbufs⟩, ⟨HsemA, HsemB, HsemC, HsemD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave H2' := (Entails.of_eq (pts_v2V (F := F) d L _ _).symm) $$ H2
  ihave Ha' := (Entails.of_eq (pts_b0V (F := F) d L _).symm) $$ Ha
  ihave Hb' := (Entails.of_eq (pts_b1V (F := F) d L _).symm) $$ Hb
  sl_exec
  sl_step
  isplitl [H2' T0 T1 T2 T3 T4 T5 T6 T7 T8 T9 T10 T11]
  · isplitl [H2']
    · iapply (Entails.of_eq (pts_v2V (F := F) d L _ _)); iexact H2'
    iapply (Entails.of_eq (rows_eq (F := F) d L hc (Cert.Spec.tarChunks f2)).symm)
    isplitl [T0]; · iapply (Entails.of_eq (row_val (F := F) d L hc 0 f2 f3 _ (pay_b0 (F := F) d L _ _))); iexact T0
    isplitl [T1]; · iapply (Entails.of_eq (row_val (F := F) d L hc 1 f2 f3 _ (pay_b1 (F := F) d L _ _))); iexact T1
    isplitl [T2]; · iapply (Entails.of_eq (row_val (F := F) d L hc 2 f2 f3 _ (pay_b0 (F := F) d L _ _))); iexact T2
    isplitl [T3]; · iapply (Entails.of_eq (row_val (F := F) d L hc 3 f2 f3 _ (pay_b1 (F := F) d L _ _))); iexact T3
    isplitl [T4]; · iapply (Entails.of_eq (row_val (F := F) d L hc 4 f2 f3 _ (pay_b0 (F := F) d L _ _))); iexact T4
    isplitl [T5]; · iapply (Entails.of_eq (row_val (F := F) d L hc 5 f2 f3 _ (pay_b1 (F := F) d L _ _))); iexact T5
    isplitl [T6]; · iapply (Entails.of_eq (row_val (F := F) d L hc 6 f2 f3 _ (pay_b0 (F := F) d L _ _))); iexact T6
    isplitl [T7]; · iapply (Entails.of_eq (row_val (F := F) d L hc 7 f2 f3 _ (pay_b1 (F := F) d L _ _))); iexact T7
    isplitl [T8]; · iapply (Entails.of_eq (row_val (F := F) d L hc 8 f2 f3 _ (pay_b0 (F := F) d L _ _))); iexact T8
    isplitl [T9]; · iapply (Entails.of_eq (row_val (F := F) d L hc 9 f2 f3 _ (pay_b1 (F := F) d L _ _))); iexact T9
    isplitl [T10]; · iapply (Entails.of_eq (row_val (F := F) d L hc 10 f2 f3 _ (pay_b0 (F := F) d L _ _))); iexact T10
    iapply (Entails.of_eq (row_val (F := F) d L hc 11 f2 f3 _ (pay_b1 (F := F) d L _ _))); iexact T11
  isplitl [Ha' Hb' Hbufs]
  · isplitl [Ha']; · iexists _; iapply (Entails.of_eq (pts_b0V (F := F) d L _)); iexact Ha'
    isplitl [Hb']; · iexists _; iapply (Entails.of_eq (pts_b1V (F := F) d L _)); iexact Hb'
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists _; isplitr
  swap; · iexact HO
  ipureintro
  iterate 24 (apply ins_ok)
  exact fun p hp => .inl hp

end Tile

end Cert.Proof.KI

end
-- ==== Proof.TileOblI.lean ====
/-
  A worker's task, as the launch theorem asks for it: the body table's row for a vector subcore is the kernel at that
  subcore's coordinates, so the obligation is the task's proof at the coordinates `(c, s)` with what the handshake
  handed it, the recorded waits widened to the call's.
-/
import proofs.«216314_g7602092114391_cont_9to1c4b_856_27_alg».proof.Proof.CommonI
import proofs.«216314_g7602092114391_cont_9to1c4b_856_27_alg».proof.Proof.LayoutValue
import proofs.«216314_g7602092114391_cont_9to1c4b_856_27_alg».proof.Proof.PatternChain
import proofs.«216314_g7602092114391_cont_9to1c4b_856_27_alg».proof.Proof.PayI
import proofs.«216314_g7602092114391_cont_9to1c4b_856_27_alg».proof.Proof.TileI
import proofs.«216314_g7602092114391_cont_9to1c4b_856_27_alg».proof.Proof.Gen.KernelIdeal.Launch
import proofs.«216314_g7602092114391_cont_9to1c4b_856_27_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__lambda_ (coordsV c s)
          (Memref.whole main_v2_scv) (Memref.isWhole_whole _) (Memref.whole main_v3_scv) (Memref.isWhole_whole _)
          (Memref.whole cc1_scratch0) (Memref.isWhole_whole _) (Memref.whole cc1_scratch1) (Memref.isWhole_whole _)
          cc1_scratch2 cc1_scratch3 cc1_scratch4 cc1_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (F := F) d (coordsV ⟨_, hci.1⟩ ⟨_, hci.2⟩) hF (f2 m d) (f3 m d) O W hO).trans (wp_mono frame _ _ fun _ => obl_post)

end Cert.Proof.KI

end
-- ==== Proof.ValuesI.lean ====
/-
  What @main's buffers hold at the end, read stage by stage through the valuations `V0 … V5`: a host line rewrites the
  buffers its operations write and leaves the rest, and each of the two copies rewrites its one result buffer. The
  argument is never written. The first line reshapes it into groups and writes the two tables; the TensorCore copy
  leaves every group's first 1536 rows in `%1`; the second line reshapes the argument into chunks; the SparseCore copy
  leaves the target chunks in `%3`; the last line reshapes `%1` and `%3` back to image shape — a reshape keeps row-major
  position, so these are the specification's input and target images — and carries each table through its chain of two
  broadcasts and two reshapes to the array every row of which is the table: the specification's two patterns.
-/
import proofs.«216314_g7602092114391_cont_9to1c4b_856_27_alg».proof.Proof.PayI
import proofs.«216314_g7602092114391_cont_9to1c4b_856_27_alg».proof.Proof.LayoutValue
import proofs.«216314_g7602092114391_cont_9to1c4b_856_27_alg».proof.Proof.PatternChain
import Idealize.ShloMosaic.Lib.StableHlo.Run

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.StableHlo
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-! ## After the first line: the two tables and the reshape into groups -/

theorem V1_arg (d : Dev nD) : V1 m d rArg = m (argLoc d) := by
  unfold V1
  after_results
  rfl

theorem V1_v0 (d : Dev nD) : V1 m d rV0 = shapeCast S64x2304x256 (m (argLoc d)) shapeCasts_S8x24x3x256x256_S64x2304x256 := by
  unfold V1
  after_results
  rfl

theorem V1_c (d : Dev nD) : V1 m d (Proc.devRef .tc main_c) = fun i => lit0 (S16.rowMajor i) := by
  unfold V1
  after_results
  rfl

theorem V1_c0 (d : Dev nD) : V1 m d (Proc.devRef .tc main_c_0) = fun i => lit1 (S8.rowMajor i) := by
  unfold V1
  after_results
  rfl

/-! ## After the TensorCore copy: the result array holds every group's first 1536 rows -/

theorem V2_arg (d : Dev nD) : V2 m d rArg = m (argLoc d) := by
  unfold V2
  rw [Function.update_of_ne (by decide)]
  exact V1_arg m d

theorem V2_v1 (d : Dev nD) :
    V2 m d rV1 = Cert.Spec.headRows (shapeCast S64x2304x256 (m (argLoc d)) shapeCasts_S8x24x3x256x256_S64x2304x256) := by
  unfold V2
  rw [Function.update_self, V1_v0]

theorem V2_c (d : Dev nD) : V2 m d (Proc.devRef .tc main_c) = fun i => lit0 (S16.rowMajor i) := by
  unfold V2
  rw [Function.update_of_ne (by decide)]
  exact V1_c m d

theorem V2_c0 (d : Dev nD) : V2 m d (Proc.devRef .tc main_c_0) = fun i => lit1 (S8.rowMajor i) := by
  unfold V2
  rw [Function.update_of_ne (by decide)]
  exact V1_c0 m d

/-! ## After the second line: the reshape into chunks -/

theorem V3_v2 (d : Dev nD) : V3 m d rV2 = shapeCast S1152x128x256 (m (argLoc d)) shapeCasts_S8x24x3x256x256_S1152x128x256 := by
  unfold V3
  after_results
  rw [V2_arg]
  rfl

theorem V3_arg (d : Dev nD) : V3 m d rArg = m (argLoc d) := by
  unfold V3
  after_results
  exact V2_arg m d

theorem V3_v1 (d : Dev nD) :
    V3 m d rV1 = Cert.Spec.headRows (shapeCast S64x2304x256 (m (argLoc d)) shapeCasts_S8x24x3x256x256_S64x2304x256) := by
  unfold V3
  after_results
  exact V2_v1 m d

theorem V3_c (d : Dev nD) : V3 m d (Proc.devRef .tc main_c) = fun i => lit0 (S16.rowMajor i) := by
  unfold V3
  after_results
  exact V2_c m d

theorem V3_c0 (d : Dev nD) : V3 m d (Proc.devRef .tc main_c_0) = fun i => lit1 (S8.rowMajor i) := by
  unfold V3
  after_results
  exact V2_c0 m d

/-! ## After the SparseCore copy: the target array holds the target chunks -/

theorem V4_arg (d : Dev nD) : V4 m d rArg = m (argLoc d) := by
  unfold V4
  rw [Function.update_of_ne (by decide)]
  exact V3_arg m d

theorem V4_v1 (d : Dev nD) :
    V4 m d rV1 = Cert.Spec.headRows (shapeCast S64x2304x256 (m (argLoc d)) shapeCasts_S8x24x3x256x256_S64x2304x256) := by
  unfold V4
  rw [Function.update_of_ne (by decide)]
  exact V3_v1 m d

theorem V4_v3 (d : Dev nD) :
    V4 m d rV3 = Cert.Spec.tarChunks (shapeCast S1152x128x256 (m (argLoc d)) shapeCasts_S8x24x3x256x256_S1152x128x256) := by
  unfold V4
  rw [Function.update_self, V3_v2]

theorem V4_c (d : Dev nD) : V4 m d (Proc.devRef .tc main_c) = fun i => lit0 (S16.rowMajor i) := by
  unfold V4
  rw [Function.update_of_ne (by decide)]
  exact V3_c m d

theorem V4_c0 (d : Dev nD) : V4 m d (Proc.devRef .tc main_c_0) = fun i => lit1 (S8.rowMajor i) := by
  unfold V4
  rw [Function.update_of_ne (by decide)]
  exact V3_c0 m d

/-! ## At the end -/

/-- The two tables are the specification's. -/
theorem lit0_eq : lit0 = Cert.Spec.litIn := funext (by decide)
theorem lit1_eq : lit1 = Cert.Spec.litTar := funext (by decide)

/-- The argument is never written. -/
theorem V5_arg (d : Dev nD) : V5 m d rArg = m (argLoc d) := by
  unfold V5
  after_results
  exact V4_arg m d

/-- The input images: the argument through the group layout, reshaped back. -/
theorem V5_v4 (d : Dev nD) : V5 m d rV4 = Cert.Spec.inputImg (m (argLoc d)) := by
  unfold V5
  after_results
  rw [V4_v1]
  exact Cert.Spec.inputImg_of_reshapes (m (argLoc d)) _ _

/-- The target images: the argument through the chunk layout, reshaped back. -/
theorem V5_v5 (d : Dev nD) : V5 m d rV5 = Cert.Spec.targetImg (m (argLoc d)) := by
  unfold V5
  after_results
  rw [V4_v3]
  exact Cert.Spec.targetImg_of_reshapes (m (argLoc d)) _ _

/-- The input pattern: the table of 16 view numbers, every row. -/
theorem V5_v9 (d : Dev nD) : V5 m d rV9 = Cert.Spec.inPat := by
  unfold V5
  after_results
  rw [V4_c]
  refine (Cert.PatternChain.chain16 lit0 _ _ _ _).trans ?_
  rw [lit0_eq]
  rfl

/-- The target pattern: the table of 8 view numbers, every row. -/
theorem V5_v13 (d : Dev nD) : V5 m d rV13 = Cert.Spec.tarPat := by
  unfold V5
  after_results
  rw [V4_c0]
  refine (Cert.PatternChain.chain8 lit1 _ _ _ _).trans ?_
  rw [lit1_eq]
  rfl

end Cert.Proof.KI

end
-- ==== Proof.RunI.lean ====
/-
  The program's run: every weakly fair execution of the device's 35 threads terminates, nothing faulting, and in every
  final state the four results are the specification's functions of the argument, which is unchanged.
-/
import proofs.«216314_g7602092114391_cont_9to1c4b_856_27_alg».proof.Proof.CommonI
import proofs.«216314_g7602092114391_cont_9to1c4b_856_27_alg».proof.Proof.LayoutValue
import proofs.«216314_g7602092114391_cont_9to1c4b_856_27_alg».proof.Proof.PatternChain
import proofs.«216314_g7602092114391_cont_9to1c4b_856_27_alg».proof.Proof.HmainI
import proofs.«216314_g7602092114391_cont_9to1c4b_856_27_alg».proof.Proof.TileOblI
import proofs.«216314_g7602092114391_cont_9to1c4b_856_27_alg».proof.Proof.FinI
import proofs.«216314_g7602092114391_cont_9to1c4b_856_27_alg».proof.Proof.ValuesI
import proofs.«216314_g7602092114391_cont_9to1c4b_856_27_alg».proof.Proof.Gen.KernelIdeal.Launch
import proofs.«216314_g7602092114391_cont_9to1c4b_856_27_alg».proof.Proof.Gen.KernelIdeal.Points
import Idealize.ShloMosaic.Lib.Pipeline.Regions

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.Tactic

variable {F : FTy → Type}

local notation "𝕄" => MT nD τ sig (HIx 1) (Elt F) ℕ UU ℕ

open Idealize.ShloMosaic.TcCoe

variable (m : (ℓ : Loc nD τ sig) → Buf (Elt F) ℓ) (ρ : Dev nD → PrngReg)

variable [FloatOps F] [∀ e, Nonempty (Elt F e)]

/-- What the run ends in: the results named, the argument kept. -/
def QC : PUnit × MemSt nD τ sig (Elt F) → Prop := fun r => ∀ c : Dev nD,
    r.2.mem ((c.tc : Thread nD τ).loc main_v4) = Cert.Spec.inputImg (m ((c.tc : Thread nD τ).loc main_arg0))
  ∧ r.2.mem ((c.tc : Thread nD τ).loc main_v5) = Cert.Spec.targetImg (m ((c.tc : Thread nD τ).loc main_arg0))
  ∧ r.2.mem ((c.tc : Thread nD τ).loc main_v9) = Cert.Spec.inPat
  ∧ r.2.mem ((c.tc : Thread nD τ).loc main_v13) = Cert.Spec.tarPat
  ∧ r.2.mem ((c.tc : Thread nD τ).loc main_arg0) = m ((c.tc : Thread nD τ).loc main_arg0)

theorem run_main : θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (G (F := F)) (FIN m) (u₀ (F := F)) (sep_elim_left.trans (hu₀ m)) (hmain m ρ) (fq m) (hfin m) (QC m)
    (fun s' h c => by
      obtain ⟨h4, h5, h9, h13, ha⟩ := h c
      exact ⟨h4.trans (V5_v4 m c), h5.trans (V5_v5 m c), h9.trans (V5_v9 m c), h13.trans (V5_v13 m c), ha.trans (V5_arg m c)⟩)

end Cert.Proof.KI

end
-- ==== Proof.CommonB.lean ====
/-
  What the parts of the kernel's run share: the program as the launch theorem for programs with SparseCore
  kernels sees it, the ghost state (the launch handshakes' rounds, the TensorCore pipeline's rounds, the transfers'
  counters), the arrays' locations, and how the target array's 384 chunks and the read access to the source array
  are dealt to the 32 vector subcores: subcore `s` of SparseCore `c` is worker `2 s + c` and owns chunks
  `12 (2 s + c) … 12 (2 s + c) + 11` of the target; every worker reads the source through a share of its own.
-/
import proofs.«216314_g7602092114391_cont_9to1c4b_856_27_alg».proof.Defs
import proofs.«216314_g7602092114391_cont_9to1c4b_856_27_alg».proof.Proof.Layout
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«216314_g7602092114391_cont_9to1c4b_856_27_alg».proof.Proof.Gen.Kernel
import proofs.«216314_g7602092114391_cont_9to1c4b_856_27_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays -/

abbrev argLoc (d : Dev nD) : Loc nD τ sig := (SparseCore.T d).loc main_arg0
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

/-! ## Workers, their chunks, their shares -/

/-- The worker number of vector subcore `s` of SparseCore `c`. -/
def wid (c : Fin 2) (s : Fin 16) : Fin 32 := ⟨2 * s.val + c.val, by omega⟩

theorem tdiv : 32 ∣ S384x128x256.size 0 := ⟨12, rfl⟩
/-- Worker `w`'s twelve chunks of the target array, as one block of rows. -/
abbrev tileBlock (w : Fin 32) : Rect S384x128x256 := Rect.part (s := S384x128x256) (a₀ := 0) tdiv w
/-- The block's indices. -/
abbrev tileSet (w : Fin 32) : Finset S384x128x256.Idx :=
  ((Memref.whole main_v3_scv : Memref sig .scVector .hbm S384x128x256 .f32).view.slice (tileBlock w)).set

/-- Worker `w`'s share of the read access to the source array: one of 32 tokens split off the full share. -/
abbrev workerShare (w : Fin 32) : PosShare TreeShare := Transfers.shareTok fullShare 32 w
/-- Vector subcore `(c, s)`'s share: its worker's. -/
abbrev tileShare (c : Fin 2) (s : Fin 16) : PosShare TreeShare := workerShare (wid c s)

end Cert.Proof.KB

end
-- ==== Proof.MainB.lean ====
/-
  @main of the kernel's program, read as three straight lines of host operations around its two calls: the
  two literal tables and the reshape into groups; the TensorCore copy of every group's first 1536 rows; the reshape
  into chunks; the SparseCore copy of the target chunks; the two reshapes back to image shape and the two patterns'
  broadcasts. The buffers a line does not write keep their contents.
-/
import proofs.«216314_g7602092114391_cont_9to1c4b_856_27_alg».proof.Proof.CommonB
import proofs.«216314_g7602092114391_cont_9to1c4b_856_27_alg».proof.Proof.LayoutValue
import proofs.«216314_g7602092114391_cont_9to1c4b_856_27_alg».proof.Proof.PatternChain
import proofs.«216314_g7602092114391_cont_9to1c4b_856_27_alg».proof.Proof.Gen.Kernel.Launch
import proofs.«216314_g7602092114391_cont_9to1c4b_856_27_alg».proof.Proof.Gen.Kernel.Points
import Idealize.ShloMosaic.Lib.Pipeline.Regions

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.Tactic

variable {F : FTy → Type}

local notation "𝕄" => MT nD τ sig (HIx 1) (Elt F) ℕ UU ℕ

variable [FloatOps F]

/-! ## The host operations, line by line -/

abbrev opC : HloOp τ sig (Elt F) := StableHlo.nullary main_c (fun i => lit0 (S16.rowMajor i))
abbrev opC0 : HloOp τ sig (Elt F) := StableHlo.nullary main_c_0 (fun i => lit1 (S8.rowMajor i))
abbrev opV0 : HloOp τ sig (Elt F) := StableHlo.reshape main_arg0 main_v0 rfl shapeCasts_S8x24x3x256x256_S64x2304x256
abbrev opV2 : HloOp τ sig (Elt F) := StableHlo.reshape main_arg0 main_v2 rfl shapeCasts_S8x24x3x256x256_S1152x128x256
abbrev opV4 : HloOp τ sig (Elt F) := StableHlo.reshape main_v1 main_v4 rfl shapeCasts_S64x1536x256_S8x16x3x256x256
abbrev opV5 : HloOp τ sig (Elt F) := StableHlo.reshape main_v3 main_v5 rfl shapeCasts_S384x128x256_S8x8x3x256x256
abbrev opV6 : HloOp τ sig (Elt F) := StableHlo.unary main_c main_v6 (broadcastInDim S1x16 ![1] bcast_S16_S1x16_1 : (⟨S16, .i32⟩ : BufTy).Contents (Elt F) → (⟨S1x16, .i32⟩ : BufTy).Contents (Elt F))
abbrev opV7 : HloOp τ sig (Elt F) := StableHlo.reshape main_v6 main_v7 rfl shapeCasts_S1x16_S1x1x1x16
abbrev opV8 : HloOp τ sig (Elt F) := StableHlo.unary main_v7 main_v8 (broadcastInDim S8x1x1x16 ![0, 1, 2, 3] bcast_S1x1x1x16_S8x1x1x16_0_1_2_3 : (⟨S1x1x1x16, .i32⟩ : BufTy).Contents (Elt F) → (⟨S8x1x1x16, .i32⟩ : BufTy).Contents (Elt F))
abbrev opV9 : HloOp τ sig (Elt F) := StableHlo.reshape main_v8 main_v9 rfl shapeCasts_S8x1x1x16_S8x16
abbrev opV10 : HloOp τ sig (Elt F) := StableHlo.unary main_c_0 main_v10 (broadcastInDim S1x8 ![1] bcast_S8_S1x8_1 : (⟨S8, .i32⟩ : BufTy).Contents (Elt F) → (⟨S1x8, .i32⟩ : BufTy).Contents (Elt F))
abbrev opV11 : HloOp τ sig (Elt F) := StableHlo.reshape main_v10 main_v11 rfl shapeCasts_S1x8_S1x1x1x8
abbrev opV12 : HloOp τ sig (Elt F) := StableHlo.unary main_v11 main_v12 (broadcastInDim S8x1x1x8 ![0, 1, 2, 3] bcast_S1x1x1x8_S8x1x1x8_0_1_2_3 : (⟨S1x1x1x8, .i32⟩ : BufTy).Contents (Elt F) → (⟨S8x1x1x8, .i32⟩ : BufTy).Contents (Elt F))
abbrev opV13 : HloOp τ sig (Elt F) := StableHlo.reshape main_v12 main_v13 rfl shapeCasts_S8x1x1x8_S8x8

/-- The line before the TensorCore call, the line between the calls, the line after the SparseCore call. -/
abbrev line1 : List (HloOp τ sig (Elt F)) := [opC, opC0, opV0]
abbrev line2 : List (HloOp τ sig (Elt F)) := [opV2]
abbrev line3 : List (HloOp τ sig (Elt F)) := [opV4, opV5, opV6, opV7, opV8, opV9, opV10, opV11, opV12, opV13]

/-- @main is the three lines around the two calls. -/
theorem main_eq (d : Dev nD) :
    main (F := F) d = (StableHlo.seq (line1 (F := F)) >>= fun _ =>
      (Prog.lift (.customCall (SparseCore.inner (Pipeline.entry 0)) ()) >>= fun _ =>
        (StableHlo.seq (line2 (F := F)) >>= fun _ =>
          (sc.run d 0 >>= fun _ => (StableHlo.seq (line3 (F := F)) >>= fun _ => pure ⟨⟩))))) := by
  simp only [main, StableHlo.seq, bind_assoc, pure_bind]

end Cert.Proof.KB

end
-- ==== Proof.TcDatB.lean ====
/-
  The program's one TensorCore pipeline (the copy of every group's first 1536 rows), as proof data for the region
  rule, with its body obligation and what its two arrays hold afterwards.

  The pipeline has 8 points. At point `t` the operand window stages block `(t, 0, 0)` of the operand array
  `[64, 2304, 256]` in blocks of `[8, 1536, 256]` — groups `8 t … 8 t + 7`, rows `0 … 1535` — and the result window
  block `(t, 0, 0)` of the result array `[64, 1536, 256]`: the same groups, all rows. 1536 does not divide 2304, but
  only block 0 of the row axis is used, so no block overhangs the array and every transfer moves a whole block. The
  body loads the operand's buffer whole, reshapes it to the same shape and stores it whole to the result's buffer.
  So block entry `(y0, y1, y2)` at point `t` is entry `(8 t + y0, y1, y2)` of both arrays, the 8 blocks cover the
  result array, and the result array ends holding `headRows` of the operand array; the operand array, an input, is
  unchanged. The core owes other units throughout and the body waits on nothing, so what it owes passes through.
-/
import proofs.«216314_g7602092114391_cont_9to1c4b_856_27_alg».proof.Proof.CommonB
import proofs.«216314_g7602092114391_cont_9to1c4b_856_27_alg».proof.Proof.Gen.Kernel.Launch
import proofs.«216314_g7602092114391_cont_9to1c4b_856_27_alg».proof.Proof.Gen.Kernel.Points
import proofs.«216314_g7602092114391_cont_9to1c4b_856_27_alg».proof.Proof.Gen.Kernel.Skeleton
import proofs.«216314_g7602092114391_cont_9to1c4b_856_27_alg».proof.Proof.Layout
import Idealize.ShloMosaic.Lib.Pipeline.FrameBody
import Idealize.ShloMosaic.Lib.Pipeline.Value
import Idealize.ShloMosaic.Lib.Pipeline.Regions
import Idealize.ShloMosaic.Lib.Tactic

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

abbrev adm : (p : Fin 1) → (pcfgs (F := F) p).Adm := fun p => (cfgs p).toPCfg_adm

/-! ## The window's blocks and the body's one store -/

theorem hz3 : (![0, 0, 0] : Fin 3 → Nat) = fun _ => 0 := funext fun a => by fin_cases a <;> rfl

/-- No block of the operand window overhangs its array: only block 0 of the row axis is ever used. -/
theorem clip0_0 : ∀ (i : grid0.Coords) (a : Fin 3), win0_0.clip i a = none := by decide +kernel

/-- The operand window's block at point `t` read off the array `f0`, as contents of a staging buffer. -/
def inBlk (c : Dev nD) (f0 : Buf (Elt F) (v0Loc c)) (t : Fin cfg0.N) : (cfg0.win 0).block.Idx → Elt F (cfg0.win 0).elt :=
  (cfg0.win 0).fill (cfg0.grid.coords t) (fun _ => Scalar.ofBits .f32 0#32) (((cfg0.win 0).blk t).view.read (Elt F) f0)

/-- The body's one access rectangle: the whole staging buffer. -/
abbrev r0_0 : Rect S8x1536x256 := Rect.unit (s := S8x1536x256) ![0, 0, 0] S8x1536x256.size inb_S8x1536x256_S8x1536x256_0_0_0

/-- What the body leaves in the result window's buffer, from the operand window's: its one store, of the payload of
    the whole load. -/
def out0_1 (x0 : Vec F S8x1536x256 .f32) : Vec F S8x1536x256 .f32 :=
  View.canon [⟨r0_0, k0_pay1 (View.ld x0 r0_0)⟩]

/-- The store covers the buffer. -/
theorem cover0_1 (p0 : Vec F S8x1536x256 .f32) (y : S8x1536x256.Idx) :
    ∃ pc ∈ ([⟨r0_0, p0⟩] : List (View.Piece (Elt F) S8x1536x256 .f32)), y ∈ pc.1.set :=
  ⟨_, List.mem_singleton.mpr rfl, View.mem_set_unit_zero hz3 inb_S8x1536x256_S8x1536x256_0_0_0 y⟩

/-- The store's payload is the loaded block itself: a reshape to the same shape. -/
theorem out0_1_eq (x0 : Vec F S8x1536x256 .f32) : out0_1 x0 = x0 := by
  unfold out0_1
  rw [View.canon_unit_zero hz3, View.ld_unit_zero (S := S8x1536x256) hz3]
  exact shapeCast_self _ _

/-! ## The body's triple -/

set_option maxHeartbeats 1000000 in
/-- The body on whole staging buffers, the operand window's at contents `x0` and the result window's at anything, runs
    to the continuation holding the first as it was and the second at `out0_1 x0`. -/
theorem sound_kernel (c : Dev nD) (E : Set ℕ) (i : grid0.Coords) (arg1 : Memref sig .tc .vmem S8x1536x256 .f32) (harg1 : arg1.IsWhole)
    (arg2 : Memref sig .tc .vmem S8x1536x256 .f32) (harg2 : arg2.IsWhole)
    (x0 : Vec F S8x1536x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__tc_copy i arg1 harg1 arg2 harg2) K := by
  simp only [cc0__tc_copy_eq_skeleton]; unfold cc0__tc_copy_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- The region's proof data on core `c`: the operand array at `f0` and the result array at `f1` on entry; after the
    body the operand window's buffer at its block and the result window's at the copy of it; no invariant of its own;
    owing `O` throughout, every recorded wait at index `none`; full shares. -/
def dat0 (c : Dev nD) (f0 : Buf (Elt F) (v0Loc c)) (f1 : Buf (Elt F) (v1Loc c)) (O : CellTallies nD τ sig (HIx 1)) :
    Pipeline.Dat τ (Elt F) (HIx 1) ℕ UU ℕ cfg0 c where
  A w := match w with
    | ⟨0, _⟩ => f0
    | ⟨1, _⟩ => f1
  after w t := match w with
    | ⟨0, _⟩ => inBlk c f0 t
    | ⟨1, _⟩ => out0_1 (inBlk c f0 t)
  Φ _ := iprop(emp)
  q _ := fullShare
  owed _ := O
  recorded _ := {p : SemLoc sig × HIx 1 | p.2 = none}

section
variable (c : Dev nD) (f0 : Buf (Elt F) (v0Loc c)) (f1 : Buf (Elt F) (v1Loc c)) (O : CellTallies nD τ sig (HIx 1))

theorem A0_eq : (dat0 c f0 f1 O).A 0 = f0 := by dsimp only [dat0]
theorem A1_eq : (dat0 c f0 f1 O).A 1 = f1 := by dsimp only [dat0]
theorem after0_0 (t : Fin cfg0.N) : (dat0 c f0 f1 O).after 0 t = inBlk c f0 t := by dsimp only [dat0]
theorem after0_1 (t : Fin cfg0.N) : (dat0 c f0 f1 O).after 1 t = out0_1 (inBlk c f0 t) := by dsimp only [dat0]

/-- The operand window is fetched at every point, and uncut: its buffer holds its block when the body runs. -/
theorem before0_0 (t : Fin cfg0.N) (d) : (dat0 c f0 f1 O).before 0 t d = inBlk c f0 t := by
  rw [(dat0 c f0 f1 O).before_fetched 0 t (fetch0_0 t) d]
  unfold Dat.fetched Dat.blockOf inBlk
  rw [A0_eq]
  exact Pipeline.fill_of_clip_none (cfg := cfg0) 0 _ (fun a => clip0_0 _ a) _ _ _

/-! ## The body obligation -/

/-- What the body is called with at point `t`, the windows one by one, -/
def bodyPre (t : Fin cfg0.N) : sProp 𝕄 :=
  iprop((dat0 c f0 f1 O).Φ t.castSucc ∗ (dat0 c f0 f1 O).owesAt none t.castSucc
    ∗ (∃ d, owns (c : Thread nD τ) (st0_0 t) fullShare ((dat0 c f0 f1 O).before 0 t d))
    ∗ (∃ d, owns (c : Thread nD τ) (st0_1 t) fullShare ((dat0 c f0 f1 O).before 1 t d)))

/-- and what it returns. -/
def bodyPost (t : Fin cfg0.N) : sProp 𝕄 :=
  iprop((dat0 c f0 f1 O).Φ t.succ ∗ (dat0 c f0 f1 O).owesAt none t.succ
    ∗ owns (c : Thread nD τ) (st0_0 t) fullShare ((dat0 c f0 f1 O).after 0 t)
    ∗ owns (c : Thread nD τ) (st0_1 t) fullShare ((dat0 c f0 f1 O).after 1 t))

/-- The body at any point: the operand window's buffer holds its block, so the body's triple applies; the invariant and
    what the core owes pass through unread. -/
theorem sound_body (t : Fin cfg0.N) :
    bodyPre c f0 f1 O t ⊢ wp frame (wpE (defs₀ (F := F)) Variants.none c none) Set.univ (bodyAt0 t) (fun _ => bodyPost c f0 f1 O t) := by
  unfold bodyPre bodyPost bodyAt0
  simp only [before0_0]
  rw [show (dat0 c f0 f1 O).Φ t.succ = (dat0 c f0 f1 O).Φ t.castSucc from rfl,
    show (dat0 c f0 f1 O).owesAt none t.succ = (dat0 c f0 f1 O).owesAt none t.castSucc from rfl,
    after0_0, after0_1]
  iintro ⟨HΦ, Ho, ⟨%d0, H0⟩, ⟨%d1, H1⟩⟩
  iapply (sound_kernel c Set.univ _ _ _ _ _ (inBlk c f0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation :
    Pipeline.BodyObligation (dat0 (F := F) c f0 f1 O) (defs₀ (F := F)) Variants.none (none : HIx 1) Set.univ := fun t => by
  rw [bigSep_W0, bigSep_W0]
  exact sound_body c f0 f1 O t

/-! ## The arrays after the region -/

/-- The operand array is an input: unchanged. -/
theorem arrAt_v0 : (dat0 (F := F) c f0 f1 O).arrAt 0 cfg0.N = f0 :=
  ((dat0 c f0 f1 O).arrAt_in 0 rfl _).trans (A0_eq c f0 f1 O)

end

/-! ## The result array after the region: every group's first 1536 rows -/

section
variable (c : Dev nD) (f0 : Buf (Elt F) (v0Loc c)) (f1 : Buf (Elt F) (v1Loc c)) (O : CellTallies nD τ sig (HIx 1))

/-- The printed index maps, decided over the 8 points: both windows are at block `(t, 0, 0)`. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- WHAT POINT `t` WRITES BACK is block `t` of the first 1536 rows of every group of `f0`: entry `(y0, y1, y2)` of the
    block at point `t` is index `(8 t + y0, y1, y2)` of both arrays. -/
theorem flushed1_eq (t : Fin cfg0.N) :
    (dat0 c f0 f1 O).flushed 1 t = ((cfg0.win 1).blk t).view.read (Elt F) (Cert.Spec.headRows f0) := by
  show (cfg0.win 1).cut (grid0.coords t) ((dat0 c f0 f1 O).after 1 t) = _
  rw [after0_1, out0_1_eq]
  obtain ⟨e0, e1, e2, e3, e4, e5⟩ := idx_facts t
  funext j
  have hj0 : (j 0).val < 8 := (j 0).isLt
  have hj1 : (j 1).val < 1536 := (j 1).isLt
  have hj2 : (j 2).val < 256 := (j 2).isLt
  have hm : win0_0.moved (grid0.coords t) (win0_1.xinj (grid0.coords t) j) = true :=
    (win0_0.moved_iff _ _).mpr fun a => by
      have := (win0_1.xinj (grid0.coords t) j a).isLt; unfold Window.xsize; rw [clip0_0 _ a]; exact this
  show inBlk c f0 t (win0_1.xinj (grid0.coords t) j) = _
  unfold inBlk Window.fill
  rw [dif_pos hm]
  refine congrArg f0 (funext fun a => Fin.ext ?_)
  match a with
  | ⟨0, _⟩ => show win0_0.index t (0 : Fin 3) * 8 + 1 * (j 0).val = win0_1.index t (0 : Fin 3) * 8 + 1 * (j 0).val; omega
  | ⟨1, _⟩ => show win0_0.index t (1 : Fin 3) * 1536 + 1 * (j 1).val = win0_1.index t (1 : Fin 3) * 1536 + 1 * (j 1).val; omega
  | ⟨2, _⟩ => show win0_0.index t (2 : Fin 3) * 256 + 1 * (j 2).val = win0_1.index t (2 : Fin 3) * 256 + 1 * (j 2).val; omega

/-- An index of the result array is in point `t`'s block iff each coordinate is in the block's range on its axis. -/
theorem mem_blk1 (t : Fin cfg0.N) (i : S64x1536x256.Idx) :
    i ∈ ((cfg0.win 1).blk t).view.set ↔ ∀ a : Fin 3, win0_1.index t a * S8x1536x256.size a ≤ (i a).val ∧ (i a).val < win0_1.index t a * S8x1536x256.size a + S8x1536x256.size a := by
  show i ∈ ((View.whole main_v1).slice (win0_1.rect t)).set ↔ _
  rw [View.set_slice_whole, Rect.mem_set_unit]
  exact Iff.rfl

/-- Every index of the result array is in some point's block: group `r` is in block `r / 8`. -/
theorem covered1 (i : S64x1536x256.Idx) :
    ∃ t : Fin cfg0.N, (cfg0.win 1).flush t = true ∧ i ∈ ((cfg0.win 1).blk t).view.set := by
  have hi0 : (i 0).val < 64 := (i 0).isLt
  have hi1 : (i 1).val < 1536 := (i 1).isLt
  have hi2 : (i 2).val < 256 := (i 2).isLt
  let t : Fin cfg0.N := ⟨(i 0).val / 8, by rw [show cfg0.N = 8 from N_0]; omega⟩
  have ht : t.val = (i 0).val / 8 := rfl
  obtain ⟨-, -, -, e3, e4, e5⟩ := idx_facts t
  refine ⟨t, flush0_1 t, ?_⟩
  rw [mem_blk1]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 1536 ≤ (i 1).val ∧ (i 1).val < win0_1.index t (1 : Fin 3) * 1536 + 1536; omega
  | ⟨2, _⟩ => show win0_1.index t (2 : Fin 3) * 256 ≤ (i 2).val ∧ (i 2).val < win0_1.index t (2 : Fin 3) * 256 + 256; omega

/-- The result array ends holding the first 1536 rows of every group of the operand array. -/
theorem arrAt_v1 : (dat0 (F := F) c f0 f1 O).arrAt 1 cfg0.N = Cert.Spec.headRows f0 :=
  (dat0 c f0 f1 O).arrAt_eq_of_cover 1 (Cert.Spec.headRows f0) (fun t _ => flushed1_eq c f0 f1 O t) covered1

end

end Cert.Proof.KB

end
-- ==== Proof.PayB.lean ====
/-
  What the launch handshakes carry. Before the SparseCore call the TensorCore holds the chunked source array `%2` and the
  target array `%3` whole; it splits the read access to `%2` into 32 shares (keeping the remainder) and `%3` into the
  32 workers' blocks of twelve chunks, and hands SparseCore `c` its sixteen workers' parts. Each worker brings its share
  back with its block holding the target chunks of `%2`. The valuations `V0 … V5` name every buffer's contents at each
  stage of @main.
-/
import proofs.«216314_g7602092114391_cont_9to1c4b_856_27_alg».proof.Proof.CommonB
import proofs.«216314_g7602092114391_cont_9to1c4b_856_27_alg».proof.Proof.LayoutValue
import proofs.«216314_g7602092114391_cont_9to1c4b_856_27_alg».proof.Proof.PatternChain
import proofs.«216314_g7602092114391_cont_9to1c4b_856_27_alg».proof.Proof.MainB
import proofs.«216314_g7602092114391_cont_9to1c4b_856_27_alg».proof.Proof.TcDatB
import proofs.«216314_g7602092114391_cont_9to1c4b_856_27_alg».proof.Proof.Gen.Kernel.Launch
import proofs.«216314_g7602092114391_cont_9to1c4b_856_27_alg».proof.Proof.Gen.Kernel.Points
import Idealize.ShloMosaic.Lib.Pipeline.Regions

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The buffers' contents, stage by stage -/

abbrev rArg : DevRef τ sig := Proc.devRef .tc main_arg0
abbrev rV0 : DevRef τ sig := Proc.devRef .tc main_v0
abbrev rV1 : DevRef τ sig := Proc.devRef .tc main_v1
abbrev rV2 : DevRef τ sig := Proc.devRef .tc main_v2
abbrev rV3 : DevRef τ sig := Proc.devRef .tc main_v3
abbrev rV4 : DevRef τ sig := Proc.devRef .tc main_v4
abbrev rV5 : DevRef τ sig := Proc.devRef .tc main_v5
abbrev rV9 : DevRef τ sig := Proc.devRef .tc main_v9
abbrev rV13 : DevRef τ sig := Proc.devRef .tc main_v13

/-- As launched; after the first line; after the TensorCore copy; after the second line; after the SparseCore copy; at the end. -/
def V0 (d : Dev nD) : Valuation τ sig (Elt F) := fun b => m (d, b)
def V1 (d : Dev nD) : Valuation τ sig (Elt F) := StableHlo.after (line1 (F := F)) (V0 m d)
def V2 (d : Dev nD) : Valuation τ sig (Elt F) :=
  Function.update (V1 m d) rV1 (Cert.Spec.headRows (α := Elt F .f32) (V1 m d rV0) : (⟨S64x1536x256, .f32⟩ : BufTy).Contents (Elt F))
def V3 (d : Dev nD) : Valuation τ sig (Elt F) := StableHlo.after (line2 (F := F)) (V2 m d)
def V4 (d : Dev nD) : Valuation τ sig (Elt F) :=
  Function.update (V3 m d) rV3 (Cert.Spec.tarChunks (α := Elt F .f32) (V3 m d rV2) : (⟨S384x128x256, .f32⟩ : BufTy).Contents (Elt F))
def V5 (d : Dev nD) : Valuation τ sig (Elt F) := StableHlo.after (line3 (F := F)) (V4 m d)

/-- The chunked source and the target array as the SparseCore call finds them. -/
abbrev f2 (d : Dev nD) : Buf (Elt F) (v2Loc d) := V3 m d rV2
abbrev f3 (d : Dev nD) : Buf (Elt F) (v3Loc d) := V3 m d rV3

/-! ## What the handshakes carry -/

/-- What worker `(c, s)` is handed, and what it hands back. -/
def tileGo (d : Dev nD) (c : Fin 2) (s : Fin 16) : sProp 𝕄 :=
  iprop((v2Loc d ↦{tileShare c s} f2 m d) ∗ (v3Loc d ↦[tileSet (wid c s)]{fullShare} f3 m d))
def tileTd (d : Dev nD) (c : Fin 2) (s : Fin 16) : sProp 𝕄 :=
  iprop((v2Loc d ↦{tileShare c s} f2 m d) ∗ (v3Loc d ↦[tileSet (wid c s)]{fullShare} Cert.Spec.tarChunks (f2 m d)))

def P : (K (F := F)).Pay (nD := nD) (Val := Elt F) (Name := ℕ) (U := UU) where
  st := fun q d c => match q with | 0 => bigSep Finset.univ fun s : Fin 16 => tileGo m d (Fin.cast nCore_zero c) s
  dn := fun q d c => match q with | 0 => bigSep Finset.univ fun s : Fin 16 => tileTd m d (Fin.cast nCore_zero c) s
  go := fun q d c i => match q with | 0 => tileGo m d (Fin.cast nCore_zero c) (Fin.cast nSub_zero i)
  td := fun q d c i => match q with | 0 => tileTd m d (Fin.cast nCore_zero c) (Fin.cast nSub_zero i)
  x := fun _ _ => iprop(emp)

instance tileGo_storable (d : Dev nD) (c : Fin 2) (s : Fin 16) : BI.Storable (upEmb : UEmb _ 𝕄) (tileGo m d c s) := by
  unfold tileGo; infer_instance
instance tileTd_storable (d : Dev nD) (c : Fin 2) (s : Fin 16) : BI.Storable (upEmb : UEmb _ 𝕄) (tileTd m d c s) := by
  unfold tileTd; infer_instance

instance P_storable : (P (F := F) m).IsStorable where
  st q d c := match q with
    | 0 => (inferInstance : BI.Storable (upEmb : UEmb _ 𝕄) (bigSep Finset.univ fun s : Fin 16 => tileGo m d (Fin.cast nCore_zero c) s))
  dn q d c := match q with
    | 0 => (inferInstance : BI.Storable (upEmb : UEmb _ 𝕄) (bigSep Finset.univ fun s : Fin 16 => tileTd m d (Fin.cast nCore_zero c) s))
  go q d c i := match q with
    | 0 => (inferInstance : BI.Storable (upEmb : UEmb _ 𝕄) (tileGo m d (Fin.cast nCore_zero c) (Fin.cast nSub_zero i)))
  td q d c i := match q with
    | 0 => (inferInstance : BI.Storable (upEmb : UEmb _ 𝕄) (tileTd m d (Fin.cast nCore_zero c) (Fin.cast nSub_zero i)))

/-! ## A SparseCore's parts are its sixteen workers' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => tileGo m d (Fin.cast nCore_zero c) s) ⊢ |={Set.univ}=> iprop(
      (bigSep Finset.univ fun i : Fin ((K (F := F)).nSub 0) => tileGo m d (Fin.cast nCore_zero c) (Fin.cast nSub_zero i))
      ∗ ((bigSep Finset.univ fun i : Fin ((K (F := F)).nSub 0) => tileTd m d (Fin.cast nCore_zero c) (Fin.cast nSub_zero i))
          -∗ bigSep Finset.univ fun s : Fin 16 => tileTd m d (Fin.cast nCore_zero c) s))
  rw [bigSep_tasks (F := F) (fun s => tileGo m d (Fin.cast nCore_zero c) s), bigSep_tasks (F := F) (fun s => tileTd m d (Fin.cast nCore_zero c) s)]
  iintro H; imodintro
  isplitl [H]; · iexact H
  iintro H; iexact H

/-! ## The pipeline's ghost state, and the launch element -/

/-- The pipeline's rounds, the middle factor of the ghost state. -/
abbrev EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

/-- What the launch deals device `d`'s TensorCore for its pipeline: the staging cells' ghost state and the duty tokens. -/
def G (d : Dev nD) : sProp 𝕄 :=
  iprop(Pipeline.cellsGhost (Pipeline.pin (pcfgs (F := F)) adm) EP 0 d ∗ Pipeline.toksInit (Pipeline.pin (pcfgs (F := F)) adm) EP 0 d)

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj),
      (1 : Counters)))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave HR' := (own_pair_emb (embR : Emb (UP × Counters) 𝕄) _ (1 : Counters)) $$ HR
  icases HR' with ⟨HP, -⟩
  imod (Pipeline.fund_ghost (Pipeline.pin (pcfgs (F := F)) adm) EP cellOf_inj) $$ HP with ⟨Hg, Ht⟩
  have hg : (bigSep Finset.univ fun c : Dev nD => bigSep Finset.univ fun p : Fin 1 => Pipeline.cellsGhost (Pipeline.pin (pcfgs (F := F)) adm) EP p c : sProp 𝕄)
      = bigSep Finset.univ fun c : Dev nD => Pipeline.cellsGhost (Pipeline.pin (pcfgs (F := F)) adm) EP 0 c :=
    bigSep_congr fun c _ => bigSep_univ_of_subsingleton (0 : Fin 1)
  have ht : (bigSep Finset.univ fun c : Dev nD => bigSep Finset.univ fun p : Fin 1 => Pipeline.toksInit (Pipeline.pin (pcfgs (F := F)) adm) EP p c : sProp 𝕄)
      = bigSep Finset.univ fun c : Dev nD => Pipeline.toksInit (Pipeline.pin (pcfgs (F := F)) adm) EP 0 c :=
    bigSep_congr fun c _ => bigSep_univ_of_subsingleton (0 : Fin 1)
  ihave Hg' := (Entails.of_eq hg) $$ Hg
  ihave Ht' := (Entails.of_eq ht) $$ Ht
  imodintro
  isplitl [HH]; · iexact HH
  isplitl [Hg' Ht']
  · unfold G
    rw [bigSep_sep']
    isplitl [Hg']
    · iexact Hg'
    · iexact Ht'
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof.KB

end
-- ==== Proof.TcRegionB.lean ====
/-
  The TensorCore copy as a region of @main. It is entered holding every array of @main whole (the group array `%0` as the
  first line left it) while the TensorCore still owes the SparseCores their start signals; it leaves `%1` holding the
  first 1536 rows of every group of `%0`, everything else as it was, the same units owed, every recorded wait at the
  kernels' own index.
-/
import proofs.«216314_g7602092114391_cont_9to1c4b_856_27_alg».proof.Proof.CommonB
import proofs.«216314_g7602092114391_cont_9to1c4b_856_27_alg».proof.Proof.LayoutValue
import proofs.«216314_g7602092114391_cont_9to1c4b_856_27_alg».proof.Proof.PatternChain
import proofs.«216314_g7602092114391_cont_9to1c4b_856_27_alg».proof.Proof.PayB
import proofs.«216314_g7602092114391_cont_9to1c4b_856_27_alg».proof.Proof.TcDatB
import proofs.«216314_g7602092114391_cont_9to1c4b_856_27_alg».proof.Proof.Gen.Kernel.Launch
import proofs.«216314_g7602092114391_cont_9to1c4b_856_27_alg».proof.Proof.Gen.Kernel.Points
import Idealize.ShloMosaic.Lib.Pipeline.Regions

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.Tactic

variable {F : FTy → Type}

local notation "𝕄" => MT nD τ sig (HIx 1) (Elt F) ℕ UU ℕ

open Idealize.ShloMosaic.TcCoe
open Idealize.ShloMosaic.Pipeline (BodyObligation cellOf)

variable (m : (ℓ : Loc nD τ sig) → Buf (Elt F) ℓ) (ρ : Dev nD → PrngReg)

variable [FloatOps F]

/-! ## The unscoped buffers as one held set -/

/-- Every array of @main, as buffers of the device. -/
def Sall : Finset (DevRef τ sig) :=
  (Finset.univ.filter fun b : Ref sig .tc => ¬ b.isScoped).map ⟨fun b => Proc.devRef .tc b, Proc.devRef_injective _⟩

omit [FloatOps F] in
theorem held_all (d : Dev nD) (V : Valuation τ sig (Elt F)) :
    (held (T d) Sall V : sProp 𝕄) = unscopedBufs d (fun b => V (Proc.devRef .tc b)) := by
  unfold StableHlo.held Sall unscopedBufs
  rw [bigSep_map]; rfl

/-- A buffer at the full share, spelt at the location. -/
abbrev pl (c : Dev nD) (b : Ref sig .tc) (f : b.ty.Contents (Elt F)) : sProp 𝕄 := ((c.tc : Thread nD τ).loc b) ↦{fullShare} f

/-! ## What the TensorCore owes through the region -/

abbrev Otc0 (c : Dev nD) : CellTallies nD τ sig (HIx 1) := (K (F := F)).Otc c 0

omit [FloatOps F] in
/-- Every unit it owes is a start signal of the call: none at the kernels' own index. -/
theorem Otc0_none (c : Dev nD) (g : GSem nD τ sig) : Otc0 (F := F) c g none = 0 := by
  unfold Otc0 SparseCore.Cfg.Otc
  simp [Finset.sum_apply, Finsupp.finsetSum_apply, tallyAt_apply]

/-- The TensorCore owing the start signals, every recorded wait at level 0. -/
def owesPart (c : Dev nD) : sProp 𝕄 :=
  iprop(∃ W, ⌜(K (F := F)).WBelow (T c) W 0⌝ ∗ owes (T c) (Otc0 (F := F) c) W)

/-! ## The proof data and the region -/

def pdats : (p : Fin 1) → (c : Dev nD) → Pipeline.Dat τ (Elt F) (HIx 1) ℕ UU ℕ (Pipeline.pin (pcfgs (F := F)) adm p) c
  | 0 => fun c => dat0 c (V1 m c rV0) (V1 m c rV1) (Otc0 (F := F) c)

theorem arrays_eq (c : Dev nD) (Fa) : ((pdats (F := F) m 0 c).arrays Fa : sProp 𝕄) = iprop(pl c main_v0 (Fa 0) ∗ pl c main_v1 (Fa 1)) := by
  rw [Pipeline.arrays_eq (Pipeline.pin (pcfgs (F := F)) adm) (pdats m) 0 c launch0.arr_whole ((pdats m 0 c).share_full fun _ => rfl) Fa, bigSep_W0]

/-- The buffers' contents as a function of the TensorCore's names. -/
abbrev W1 (c : Dev nD) (b : Ref sig .tc) : Buf (Elt F) ((c.tc : Thread nD τ).loc b) := V1 m c (Proc.devRef .tc b)

/-- After the region: `%0` as found, `%1` the groups' first rows, the other arrays as found, the same units owed. -/
def afterRegion (c : Dev nD) : sProp 𝕄 :=
  iprop(pl c main_v0 (V1 m c rV0) ∗ pl c main_v1 (Cert.Spec.headRows (V1 m c rV0))
    ∗ Pipeline.unscopedRest (Ix := HIx 1) (Name := ℕ) (U := UU) (Lvl := ℕ) spec0 c (W1 m c) ∗ owesPart (F := F) c)

def reg0 : Pipeline.RegionSeg (pcfgs (F := F)) adm (pdats m) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation c (V1 m c rV0) (V1 m c rV1) (Otc0 (F := F) c)).loose
  hwaits c := Pipeline.cellsWaits_intro _ (pdats m) none 0 c fun w s t => (K (F := F)).mayWait_none _ (Otc0_none c)
  pre c := iprop(unscopedBufs c (W1 m c) ∗ owesPart (F := F) c)
  post := afterRegion m
  X _ := iprop(emp)
  Y _ := iprop(emp)
  Z c := Pipeline.unscopedRest (Ix := HIx 1) (Name := ℕ) (U := UU) (Lvl := ℕ) spec0 c (W1 m c)
  hentry c := by
    rw [Pipeline.ownSems0_none]
    have hsplit := Pipeline.arrays_of_unscopedBufs (pcfgs (F := F)) adm (pdats m) launch0.win launch0.arr_whole c
      ((pdats m 0 c).share_full fun _ => rfl) (W1 m c) fun w => match w with | ⟨0, _⟩ => rfl | ⟨1, _⟩ => rfl
    unfold owesPart
    iintro ⟨⟨Hub, %W, %hW, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro
        intro p hp
        refine Or.inl ?_
        have h := hW p (Finset.mem_coe.mp hp)
        show p.2 = none
        cases hp2 : p.2 with
        | none => rfl
        | some q => rw [hp2] at h; exact absurd h (Nat.not_le.mpr ((K (F := F)).lev_some_pos _ q))
      iexact HO
    isplitr; · iempintro
    iexact Hr
  hin c := by iintro -; iempintro
  hout c := by
    rw [Pipeline.ownSems0_none, scopedRest0_eq]
    iintro -; isplitr; · iempintro
    isplitr <;> iempintro
  hexit c := by
    unfold afterRegion owesPart
    rw [arrays_eq, show (pdats (F := F) m 0 c).arrAt 0 (Pipeline.pin (pcfgs (F := F)) adm 0).N = V1 m c rV0 from arrAt_v0 c _ _ _,
      show (pdats (F := F) m 0 c).arrAt 1 (Pipeline.pin (pcfgs (F := F)) adm 0).N = Cert.Spec.headRows (V1 m c rV0) from arrAt_v1 c _ _ _]
    iintro ⟨⟨H0, H1⟩, HO, -, Hr⟩
    imodintro
    isplitl [H0]; · iexact H0
    isplitl [H1]; · iexact H1
    isplitl [Hr]; · iexact Hr
    unfold Pipeline.Dat.owesAt Pipeline.owesWithin
    icases HO with ⟨%W, %hW, HO⟩
    iexists W; isplitr; swap; · iexact HO
    ipureintro
    intro p hp
    have hp2 : p.2 = none := by
      rcases hW (Finset.mem_coe.mpr hp) with h | ⟨w, s, h⟩
      · exact h
      · rw [h]
    rw [hp2]; exact le_of_eq ((K (F := F)).lev_none _)

/-! ## The region's step, as @main meets it -/

/-- The arrays of @main held at `V` are the region's two windows' arrays and the rest. -/
theorem held_region (d : Dev nD) (V : Valuation τ sig (Elt F)) :
    (held (T d) Sall V : sProp 𝕄)
      = iprop((pl d main_v0 (V rV0) ∗ pl d main_v1 (V rV1))
          ∗ Pipeline.unscopedRest (Ix := HIx 1) (Name := ℕ) (U := UU) (Lvl := ℕ) spec0 d (fun b => V (Proc.devRef .tc b))) := by
  rw [held_all, Pipeline.unscopedBufs_split (Pipeline.pin (pcfgs (F := F)) adm) 0 launch0.win.arr_unscoped launch0.win.arr_inj d, bigSep_W0]

end Cert.Proof.KB

end
-- ==== Proof.FinB.lean ====
/-
  What the claim reads off a final state. At the end of @main the TensorCore holds every array of @main whole, at the
  last valuation; under the state interpretation a whole array held at the full share pins the array's physical
  contents, so the four results and the argument are, in the final memory, what the last valuation says.
-/
import proofs.«216314_g7602092114391_cont_9to1c4b_856_27_alg».proof.Proof.TcRegionB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.Tactic

variable {F : FTy → Type}

local notation "𝕄" => MT nD τ sig (HIx 1) (Elt F) ℕ UU ℕ

open Idealize.ShloMosaic.TcCoe

variable (m : (ℓ : Loc nD τ sig) → Buf (Elt F) ℓ)

variable [FloatOps F]

omit [FloatOps F] in
/-- An array of @main is among the buffers held at the end. -/
theorem mem_Sall (b : Ref sig .tc) (hb : b.isScoped = false) : Proc.devRef (τ := τ) .tc b ∈ Sall :=
  Finset.mem_map.mpr ⟨b, Finset.mem_filter.mpr ⟨Finset.mem_univ _, by simp [hb]⟩, rfl⟩

/-- What the claim reads off a final state: the four results and the argument at the last valuation. -/
def fq (d : Dev nD) (s' : Phys nD τ sig (Elt F)) : Prop :=
  s'.mem.mem (d, rV4) = V5 m d rV4 ∧ s'.mem.mem (d, rV5) = V5 m d rV5 ∧ s'.mem.mem (d, rV9) = V5 m d rV9
    ∧ s'.mem.mem (d, rV13) = V5 m d rV13 ∧ s'.mem.mem (d, rArg) = V5 m d rArg

/-- Holding every array whole at the last valuation, against the state interpretation: the final memory's arrays. -/
theorem hfin (d : Dev nD) (s' : Phys nD τ sig (Elt F)) :
    iprop(StableHlo.held (SparseCore.T d) Sall (V5 m d) ∗ SI s') ⊢ (⌜fq m d s'⌝ : sProp 𝕄) := by
  unfold StableHlo.held
  iintro ⟨H, HSI⟩
  ihave %h := (SI_pointsTo_bufs_agree (c := d) (qs := fun _ => fullShare) (F := V5 m d) Sall) $$ [HSI H]
  · isplitl [HSI]; · iexact HSI
    iexact H
  ipureintro
  exact ⟨h rV4 (mem_Sall main_v4 rfl), h rV5 (mem_Sall main_v5 rfl), h rV9 (mem_Sall main_v9 rfl),
    h rV13 (mem_Sall main_v13 rfl), h rArg (mem_Sall main_arg0 rfl)⟩

end Cert.Proof.KB

end
-- ==== Proof.DealB.lean ====
/-
  Dealing the SparseCore call's operands. The 32 workers are the pairs (SparseCore, vector subcore) through
  `w = 2 s + c`; the target array is the disjoint union of the workers' blocks of twelve chunks, and the read access to
  the source array is a remainder and 32 shares. So what the call hands over, summed over the SparseCores of its grid,
  is the source's 32 shares and the target whole; what it brings back, the same with the target at one function.
-/
import proofs.«216314_g7602092114391_cont_9to1c4b_856_27_alg».proof.Proof.CommonB
import proofs.«216314_g7602092114391_cont_9to1c4b_856_27_alg».proof.Proof.LayoutValue
import proofs.«216314_g7602092114391_cont_9to1c4b_856_27_alg».proof.Proof.PatternChain
import proofs.«216314_g7602092114391_cont_9to1c4b_856_27_alg».proof.Proof.PayB
import proofs.«216314_g7602092114391_cont_9to1c4b_856_27_alg».proof.Proof.Gen.Kernel.Launch
import proofs.«216314_g7602092114391_cont_9to1c4b_856_27_alg».proof.Proof.Gen.Kernel.Points
import Idealize.ShloMosaic.Lib.Pipeline.Regions

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-- Worker numbers are the pairs (SparseCore, vector subcore). -/
def widEquiv : Fin 2 × Fin 16 ≃ Fin 32 where
  toFun p := wid p.1 p.2
  invFun w := (⟨w.val % 2, Nat.mod_lt _ (by decide)⟩, ⟨w.val / 2, by have := w.isLt; omega⟩)
  left_inv := fun ⟨c, s⟩ => by
    have hc := c.isLt; have hs := s.isLt
    refine Prod.ext (Fin.ext ?_) (Fin.ext ?_)
    · show (2 * s.val + c.val) % 2 = c.val; omega
    · show (2 * s.val + c.val) / 2 = s.val; omega
  right_inv := fun w => by
    refine Fin.ext ?_
    show 2 * (w.val / 2) + w.val % 2 = w.val; omega

theorem bigSep_workers (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The target: its 32 blocks -/

theorem tileSet_eq (w : Fin 32) : tileSet w = (tileBlock w).set := by
  show ((View.whole (main_v3_scv : Ref sig .scVector)).slice (tileBlock w)).set = _
  rw [View.set_slice]; exact Finset.map_refl
theorem tiles_disjoint : ∀ i ∈ (Finset.univ : Finset (Fin 32)), ∀ j ∈ (Finset.univ : Finset (Fin 32)), i ≠ j → Disjoint (tileSet i) (tileSet j) :=
  fun i _ j _ h => by rw [tileSet_eq, tileSet_eq]; exact Rect.part_disjoint tdiv h
theorem tiles_cover : (Finset.univ : Finset (Fin 32)).biUnion tileSet = Finset.univ :=
  (Finset.biUnion_congr rfl fun i _ => tileSet_eq i).trans (Rect.biUnion_part tdiv)

/-- The target whole at `g` is every worker's block at `g`. -/
theorem tar_split (d : Dev nD) (g : Buf (Elt F) (v3Loc d)) :
    (v3Loc d ↦{fullShare} g : sProp 𝕄)
      = bigSep Finset.univ fun c : Fin 2 => bigSep Finset.univ fun s : Fin 16 => v3Loc d ↦[tileSet (wid c s)]{fullShare} g := by
  rw [← bigSep_workers (F := F) (fun w => (v3Loc d ↦[tileSet w]{fullShare} g : sProp 𝕄)),
    ← pointsTo_biUnion Finset.univ (ℓ := v3Loc d) tileSet tiles_disjoint, tiles_cover]; try rfl

/-! ## The source: a remainder and 32 shares -/

theorem src_split (d : Dev nD) (f : Buf (Elt F) (v2Loc d)) :
    (v2Loc d ↦{fullShare} f : sProp 𝕄)
      ⊣⊢ iprop((v2Loc d ↦{Transfers.shareDrop fullShare 32} f)
          ∗ bigSep Finset.univ fun c : Fin 2 => bigSep Finset.univ fun s : Fin 16 => v2Loc d ↦{tileShare c s} f) := by
  rw [← bigSep_workers (F := F) (fun w => (v2Loc d ↦{workerShare w} f : sProp 𝕄))]
  exact Transfers.pointsTo_toks fullShare 32

variable [FloatOps F]

/-! ## What the call hands over and brings back, over its grid -/

/-- Every worker's share of the source at `f`; every worker's block of the target at `g`. -/
abbrev srcAll (d : Dev nD) (f : Buf (Elt F) (v2Loc d)) : sProp 𝕄 :=
  bigSep Finset.univ fun c : Fin 2 => bigSep Finset.univ fun s : Fin 16 => v2Loc d ↦{tileShare c s} f
abbrev tarAll (d : Dev nD) (g : Buf (Elt F) (v3Loc d)) : sProp 𝕄 :=
  bigSep Finset.univ fun c : Fin 2 => bigSep Finset.univ fun s : Fin 16 => v3Loc d ↦[tileSet (wid c s)]{fullShare} g

theorem st0_eq (d : Dev nD) :
    (bigSep Finset.univ fun c : Fin ((K (F := F)).nCore 0) => (P m).st 0 d c) = iprop(srcAll d (f2 m d) ∗ tarAll d (f3 m d)) := by
  show (bigSep Finset.univ fun c : Fin ((K (F := F)).nCore 0) => bigSep Finset.univ fun s : Fin 16 => tileGo m d (Fin.cast nCore_zero c) s) = _
  rw [bigSep_cores (F := F) (fun c => bigSep Finset.univ fun s : Fin 16 => tileGo m d c s)]
  unfold tileGo
  simp only [bigSep_sep']
theorem dn0_eq (d : Dev nD) :
    (bigSep Finset.univ fun c : Fin ((K (F := F)).nCore 0) => (P m).dn 0 d c)
      = iprop(srcAll d (f2 m d) ∗ tarAll d (Cert.Spec.tarChunks (f2 m d))) := by
  show (bigSep Finset.univ fun c : Fin ((K (F := F)).nCore 0) => bigSep Finset.univ fun s : Fin 16 => tileTd m d (Fin.cast nCore_zero c) s) = _
  rw [bigSep_cores (F := F) (fun c => bigSep Finset.univ fun s : Fin 16 => tileTd m d c s)]
  unfold tileTd
  simp only [bigSep_sep']

end Cert.Proof.KB

end
-- ==== Proof.HostB.lean ====
/-
  The small facts @main's proof is assembled from: each line's buffers are arrays of @main and none allocates; how the
  valuations differ across the two calls; the two arrays of the SparseCore call among the rest.
-/
import proofs.«216314_g7602092114391_cont_9to1c4b_856_27_alg».proof.Proof.CommonB
import proofs.«216314_g7602092114391_cont_9to1c4b_856_27_alg».proof.Proof.LayoutValue
import proofs.«216314_g7602092114391_cont_9to1c4b_856_27_alg».proof.Proof.PatternChain
import proofs.«216314_g7602092114391_cont_9to1c4b_856_27_alg».proof.Proof.FinB
import proofs.«216314_g7602092114391_cont_9to1c4b_856_27_alg».proof.Proof.DealB
import proofs.«216314_g7602092114391_cont_9to1c4b_856_27_alg».proof.Proof.Gen.Kernel.Launch
import proofs.«216314_g7602092114391_cont_9to1c4b_856_27_alg».proof.Proof.Gen.Kernel.Points
import Idealize.ShloMosaic.Lib.Pipeline.Regions

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.Tactic

variable {F : FTy → Type}

local notation "𝕄" => MT nD τ sig (HIx 1) (Elt F) ℕ UU ℕ

open Idealize.ShloMosaic.TcCoe

variable (m : (ℓ : Loc nD τ sig) → Buf (Elt F) ℓ) (ρ : Dev nD → PrngReg)

variable [FloatOps F] [∀ e, Nonempty (Elt F e)]

omit [FloatOps F] [∀ e, Nonempty (Elt F e)] in
theorem sub1 (y : Ref sig .tc) (hy : y.isScoped = false) : ({Proc.devRef .tc y} : Finset (DevRef τ sig)) ⊆ Sall := fun b hb => by
  cases Finset.mem_singleton.mp hb; exact mem_Sall y hy
omit [FloatOps F] [∀ e, Nonempty (Elt F e)] in
theorem sub2 (x y : Ref sig .tc) (hx : x.isScoped = false) (hy : y.isScoped = false) :
    ({Proc.devRef .tc x, Proc.devRef .tc y} : Finset (DevRef τ sig)) ⊆ Sall := fun b hb => by
  rcases Finset.mem_insert.mp hb with rfl | hb
  · exact mem_Sall x hx
  · cases Finset.mem_singleton.mp hb; exact mem_Sall y hy

theorem line1_sub : ∀ op ∈ (line1 : List (HloOp τ sig (Elt F))), op.bufs ⊆ Sall := by
  intro op h
  simp only [List.mem_cons, List.not_mem_nil, or_false] at h
  rcases h with rfl | rfl | rfl
  · exact sub1 main_c rfl
  · exact sub1 main_c_0 rfl
  · exact sub2 main_arg0 main_v0 rfl rfl
theorem line1_fresh : ∀ op ∈ (line1 : List (HloOp τ sig (Elt F))), op.fresh = ∅ := by
  intro op h
  simp only [List.mem_cons, List.not_mem_nil, or_false] at h
  rcases h with rfl | rfl | rfl <;> rfl
theorem line2_sub : ∀ op ∈ (line2 : List (HloOp τ sig (Elt F))), op.bufs ⊆ Sall := by
  intro op h
  simp only [List.mem_cons, List.not_mem_nil, or_false] at h
  subst h; exact sub2 main_arg0 main_v2 rfl rfl
theorem line2_fresh : ∀ op ∈ (line2 : List (HloOp τ sig (Elt F))), op.fresh = ∅ := by
  intro op h
  simp only [List.mem_cons, List.not_mem_nil, or_false] at h
  subst h; rfl
theorem line3_sub : ∀ op ∈ (line3 : List (HloOp τ sig (Elt F))), op.bufs ⊆ Sall := by
  intro op h
  simp only [List.mem_cons, List.not_mem_nil, or_false] at h
  rcases h with rfl | rfl | rfl | rfl | rfl | rfl | rfl | rfl | rfl | rfl
  · exact sub2 main_v1 main_v4 rfl rfl
  · exact sub2 main_v3 main_v5 rfl rfl
  · exact sub2 main_c main_v6 rfl rfl
  · exact sub2 main_v6 main_v7 rfl rfl
  · exact sub2 main_v7 main_v8 rfl rfl
  · exact sub2 main_v8 main_v9 rfl rfl
  · exact sub2 main_c_0 main_v10 rfl rfl
  · exact sub2 main_v10 main_v11 rfl rfl
  · exact sub2 main_v11 main_v12 rfl rfl
  · exact sub2 main_v12 main_v13 rfl rfl
theorem line3_fresh : ∀ op ∈ (line3 : List (HloOp τ sig (Elt F))), op.fresh = ∅ := by
  intro op h
  simp only [List.mem_cons, List.not_mem_nil, or_false] at h
  rcases h with rfl | rfl | rfl | rfl | rfl | rfl | rfl | rfl | rfl | rfl <;> rfl

/-! ## The valuations across the two calls -/

omit [∀ e, Nonempty (Elt F e)] in
theorem V2_of_ne (d : Dev nD) {b : DevRef τ sig} (h : b ≠ rV1) : V2 m d b = V1 m d b := Function.update_of_ne h _ _
omit [∀ e, Nonempty (Elt F e)] in
theorem V2_self (d : Dev nD) : V2 m d rV1 = Cert.Spec.headRows (V1 m d rV0) := Function.update_self _ _ _
omit [∀ e, Nonempty (Elt F e)] in
theorem V4_of_ne (d : Dev nD) {b : DevRef τ sig} (h : b ≠ rV3) : V4 m d b = V3 m d b := Function.update_of_ne h _ _
omit [∀ e, Nonempty (Elt F e)] in
theorem V4_self (d : Dev nD) : V4 m d rV3 = Cert.Spec.tarChunks (V3 m d rV2) := Function.update_self _ _ _

omit [∀ e, Nonempty (Elt F e)] in
theorem V2_ref (d : Dev nD) (b : Ref sig .tc) (h : b ≠ main_v1) : V2 m d (Proc.devRef .tc b) = V1 m d (Proc.devRef .tc b) :=
  V2_of_ne m d fun e => h (Proc.devRef_injective _ e)

omit [∀ e, Nonempty (Elt F e)] in
/-- The arrays that are no window of the copy do not see its result. -/
theorem rest_V2 (d : Dev nD) :
    (Pipeline.unscopedRest (Ix := HIx 1) (Name := ℕ) (U := UU) (Lvl := ℕ) spec0 d (fun b => V2 m d (Proc.devRef .tc b)) : sProp 𝕄)
      = Pipeline.unscopedRest spec0 d (W1 m d) := by
  rw [unscopedRest0_eq, unscopedRest0_eq]
  rw [V2_ref m d main_arg0 (by decide), V2_ref m d main_c (by decide), V2_ref m d main_c_0 (by decide), V2_ref m d main_v2 (by decide),
    V2_ref m d main_v3 (by decide), V2_ref m d main_v4 (by decide), V2_ref m d main_v5 (by decide), V2_ref m d main_v6 (by decide),
    V2_ref m d main_v7 (by decide), V2_ref m d main_v8 (by decide), V2_ref m d main_v9 (by decide), V2_ref m d main_v10 (by decide),
    V2_ref m d main_v11 (by decide), V2_ref m d main_v12 (by decide), V2_ref m d main_v13 (by decide)]

omit [∀ e, Nonempty (Elt F e)] in
/-- What the copy leaves is every array of @main at the valuation after it. -/
theorem afterRegion_held (d : Dev nD) : afterRegion m d ⊢ iprop(held (T d) Sall (V2 m d) ∗ owesPart (F := F) d) := by
  unfold afterRegion
  rw [held_region d (V2 m d), rest_V2, V2_of_ne m d (show rV0 ≠ rV1 by decide), V2_self]
  iintro ⟨H0, H1, Hr, HO⟩
  isplitr [HO]
  · isplitl [H0 H1]
    · isplitl [H0] <;> iassumption
    · iexact Hr
  · iexact HO

/-! ## The SparseCore call's two arrays among the rest -/

omit [FloatOps F] [∀ e, Nonempty (Elt F e)] in
theorem pair_sub : ({rV2, rV3} : Finset (DevRef τ sig)) ⊆ Sall := sub2 main_v2 main_v3 rfl rfl
omit [FloatOps F] [∀ e, Nonempty (Elt F e)] in
theorem held_pair (d : Dev nD) (V : Valuation τ sig (Elt F)) :
    (held (T d) ({rV2, rV3} : Finset (DevRef τ sig)) V : sProp 𝕄) = iprop((v2Loc d ↦{fullShare} V rV2) ∗ (v3Loc d ↦{fullShare} V rV3)) := by
  unfold StableHlo.held
  rw [SparseCore.bigSep_insert' (by decide), bigSep_singleton]
omit [∀ e, Nonempty (Elt F e)] in
theorem held_rest_V4 (d : Dev nD) :
    (held (T d) (Sall \ {rV2, rV3}) (V4 m d) : sProp 𝕄) = held (T d) (Sall \ {rV2, rV3}) (V3 m d) :=
  StableHlo.held_congr (T d) fun b hb => V4_of_ne m d fun e => by
    subst e; exact (Finset.mem_sdiff.mp hb).2 (by simp)

end Cert.Proof.KB

end
-- ==== Proof.RegionStepB.lean ====
/-
  The TensorCore copy's step as @main meets it: the region rule of the pipeline library, lifted to the program's body
  table with the SparseCore launch threads.
-/
import proofs.«216314_g7602092114391_cont_9to1c4b_856_27_alg».proof.Proof.CommonB
import proofs.«216314_g7602092114391_cont_9to1c4b_856_27_alg».proof.Proof.LayoutValue
import proofs.«216314_g7602092114391_cont_9to1c4b_856_27_alg».proof.Proof.PatternChain
import proofs.«216314_g7602092114391_cont_9to1c4b_856_27_alg».proof.Proof.TcRegionB
import proofs.«216314_g7602092114391_cont_9to1c4b_856_27_alg».proof.Proof.Gen.Kernel.Launch
import proofs.«216314_g7602092114391_cont_9to1c4b_856_27_alg».proof.Proof.Gen.Kernel.Points
import Idealize.ShloMosaic.Lib.Pipeline.Regions

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.Tactic

variable {F : FTy → Type}

local notation "𝕄" => MT nD τ sig (HIx 1) (Elt F) ℕ UU ℕ

open Idealize.ShloMosaic.TcCoe

variable (m : (ℓ : Loc nD τ sig) → Buf (Elt F) ℓ) (ρ : Dev nD → PrngReg)

variable [FloatOps F] [∀ e, Nonempty (Elt F e)]

/-! ## The TensorCore copy's step -/

omit [∀ e, Nonempty (Elt F e)] in
theorem reg0_pre (d : Dev nD) : (reg0 m).pre d = iprop(unscopedBufs d (W1 m d) ∗ owesPart (F := F) d) := rfl
omit [∀ e, Nonempty (Elt F e)] in
theorem reg0_post (d : Dev nD) : (reg0 m).post d = afterRegion m d := rfl

omit [∀ e, Nonempty (Elt F e)] in
/-- What @main holds at the call is what the region rule asks. -/
theorem region_pre (d : Dev nD) (Φ : PUnit.{1} → sProp 𝕄) :
    (iprop((iprop(boundary (T d) ∗ afterRegion m d) -∗ Φ ⟨⟩) ∗ boundary (T d) ∗ (unscopedBufs d (W1 m d) ∗ owesPart (F := F) d)
        ∗ levAts (K (F := F)).L (K (F := F)).lev ∗ G (F := F) d) : sProp 𝕄)
      ⊢ iprop((iprop(boundary (d.tc : Thread nD τ) ∗ (reg0 m).post d) -∗ wp frame (wpE (D (F := F)) 𝒱 (d.tc : Thread nD τ) none) Set.univ (.ret ⟨⟩) Φ)
        ∗ boundary (d.tc : Thread nD τ) ∗ (reg0 m).pre d ∗ levAts (K (F := F)).L (K (F := F)).lev
        ∗ Pipeline.cellsGhost (Pipeline.pin (pcfgs (F := F)) adm) EP 0 d ∗ Pipeline.toksInit (Pipeline.pin (pcfgs (F := F)) adm) EP 0 d) := by
  rw [reg0_pre, reg0_post]
  unfold G
  iintro ⟨Hk, Hb, Hpre, Hlev, Hg, Ht⟩
  isplitl [Hk]
  · iintro H; rw [wp_ret]; imodintro; iapply Hk; iexact H
  isplitl [Hb]; · iexact Hb
  isplitl [Hpre]; · iexact Hpre
  isplitl [Hlev]; · iexact Hlev
  isplitl [Hg] <;> iassumption

set_option maxHeartbeats 1000000 in
theorem tc_region (d : Dev nD) (Φ : PUnit.{1} → sProp 𝕄) :
    (iprop((iprop(boundary (T d) ∗ afterRegion m d) -∗ Φ ⟨⟩) ∗ boundary (T d) ∗ (unscopedBufs d (W1 m d) ∗ owesPart (F := F) d)
        ∗ levAts (K (F := F)).L (K (F := F)).lev ∗ G (F := F) d) : sProp 𝕄)
      ⊢ wp frame (wpE ((K (F := F)).defs (D (F := F))) 𝒱 (T d) none) Set.univ
          (Prog.lift (.customCall (SparseCore.inner (Pipeline.entry 0)) ())) Φ := by
  have h : (iprop((iprop(boundary (d.tc : Thread nD τ) ∗ (reg0 m).post d) -∗ wp frame (wpE (D (F := F)) 𝒱 (d.tc : Thread nD τ) none) Set.univ (.ret ⟨⟩) Φ)
        ∗ boundary (d.tc : Thread nD τ) ∗ (reg0 m).pre d ∗ levAts (K (F := F)).L (K (F := F)).lev
        ∗ Pipeline.cellsGhost (Pipeline.pin (pcfgs (F := F)) adm) EP 0 d ∗ Pipeline.toksInit (Pipeline.pin (pcfgs (F := F)) adm) EP 0 d) : sProp 𝕄)
      ⊢ wp frame (wpE (D (F := F)) 𝒱 (T d) none) Set.univ (Prog.lift (.customCall (Pipeline.entry 0) ())) Φ :=
    Pipeline.RegionSeg.wp (pcfgs (F := F)) adm (pdats m) (none : HIx 1) cellOf_inj EP defs₀ 𝒱₀ (K (F := F)).L (K (F := F)).lev
      (reg0 m) d none (fun u hu => by cases hu) (fun x => .ret x) Φ
  have hl : wp frame (wpE (D (F := F)) 𝒱 (T d) none) Set.univ (Prog.lift (.customCall (Pipeline.entry 0) ())) Φ
      ⊢ wp frame (wpE ((K (F := F)).defs (D (F := F))) 𝒱 (T d) none) Set.univ
          (Prog.lift (.customCall (SparseCore.inner (Pipeline.entry 0)) ())) Φ :=
    (K (F := F)).wp_liftProg (D (F := F)) 𝒱 (T d) Set.univ none (Prog.lift (.customCall (Pipeline.entry 0) ())) Φ
  exact (region_pre m d Φ).trans (h.trans hl)

end Cert.Proof.KB

end
-- ==== Proof.HmainB.lean ====
/-
  @main on the TensorCore. The first line's three operations; the TensorCore copy, entered through the lifted region
  rule while the start signals are still owed; the reshape into chunks; the SparseCore call, for which the read access to
  the source and the target's 384 chunks are dealt to the 32 workers and gathered back, the target then holding the target
  chunks of the source; the last line. Every array of @main ends at the valuation `V5`.
-/
import proofs.«216314_g7602092114391_cont_9to1c4b_856_27_alg».proof.Proof.CommonB
import proofs.«216314_g7602092114391_cont_9to1c4b_856_27_alg».proof.Proof.LayoutValue
import proofs.«216314_g7602092114391_cont_9to1c4b_856_27_alg».proof.Proof.PatternChain
import proofs.«216314_g7602092114391_cont_9to1c4b_856_27_alg».proof.Proof.HostB
import proofs.«216314_g7602092114391_cont_9to1c4b_856_27_alg».proof.Proof.RegionStepB
import proofs.«216314_g7602092114391_cont_9to1c4b_856_27_alg».proof.Proof.Gen.Kernel.Launch
import proofs.«216314_g7602092114391_cont_9to1c4b_856_27_alg».proof.Proof.Gen.Kernel.Points
import Idealize.ShloMosaic.Lib.Pipeline.Regions

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F] [∀ e, Nonempty (Elt F e)]

/-! ## @main -/

/-- What @main leaves: every array at the last valuation. -/
abbrev FIN (d : Dev nD) : sProp 𝕄 := held (SparseCore.T d) Sall (V5 m d)

set_option maxRecDepth 16384 in
set_option maxHeartbeats 2000000 in
set_option backward.isDefEq.respectTransparency.types false in
/-- @main, with the TensorCore's handshake state spelt as what it owes (`hR`: the state's own definition) beside the rest `R`. -/
theorem hmain' (κ : GSem nD τ sig → ℕ) (d : Dev nD) (R : sProp 𝕄)
    (hR : ((K (F := F)).tcSt EH d 0 : sProp 𝕄)
      = iprop(owesPart (F := F) d ∗ R)) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [main_eq, show (unscopedBufs d (fun b => m ((SparseCore.T d).loc b)) : sProp 𝕄) = held (SparseCore.T d) Sall (V0 m d) from (held_all d (V0 m d)).symm]
  iintro ⟨#Hctx, Hst0, ⟨Hb, Hheld, -, -⟩, Hg⟩
  ihave Hst' := (Entails.of_eq hR) $$ Hst0
  icases Hst' with ⟨Howes, Hst⟩
  -- the first line
  iapply (wp_seq 𝒱 none Set.univ d Sall _ (line1 (F := F)) line1_sub line1_fresh (V0 m d)) $$ [Hb Hheld]
  · isplitl [Hb] <;> iassumption
  iintro ⟨Hb, Hheld⟩
  ihave Hheld1 := (Entails.of_eq (show (held (d.tc : Thread nD τ) Sall (StableHlo.after (line1 (F := F)) (V0 m d)) : sProp 𝕄)
      = held (SparseCore.T d) Sall (V1 m d) from rfl)) $$ Hheld
  -- the TensorCore copy
  rw [wp_bind]
  ihave Hub := (Entails.of_eq (held_all (F := F) d (V1 m d))) $$ Hheld1
  iapply (tc_region m d _) $$ [Hb Hub Howes Hg Hst]
  isplitr [Hb Hub Howes Hg]
  swap
  · isplitl [Hb]; · iexact Hb
    isplitl [Hub Howes]
    · isplitl [Hub]; · iexact Hub
      iexact Howes
    isplitr
    · iapply (SparseCore.Cfg.ctx_levAts (K := K (F := F)) (EH := EH) (P := P m) κ); iexact Hctx
    iexact Hg
  iintro ⟨Hb, Haft⟩
  ihave Haft' := (afterRegion_held m d) $$ Haft
  icases Haft' with ⟨Hheld, Howes⟩
  -- the second line
  iapply (wp_seq 𝒱 none Set.univ d Sall _ (line2 (F := F)) line2_sub line2_fresh (V2 m d)) $$ [Hb Hheld]
  · isplitl [Hb] <;> iassumption
  iintro ⟨Hb, Hheld⟩
  ihave Hheld3 := (Entails.of_eq (show (held (d.tc : Thread nD τ) Sall (StableHlo.after (line2 (F := F)) (V2 m d)) : sProp 𝕄)
      = held (SparseCore.T d) Sall (V3 m d) from rfl)) $$ Hheld
  -- the SparseCore call: the source's shares and the target's blocks out, and back
  rw [wp_bind]
  ihave Hh := (Entails.of_eq (StableHlo.held_sub_split (SparseCore.T d) pair_sub (V3 m d))) $$ Hheld3
  icases Hh with ⟨Hp, Hrest⟩
  ihave Hp' := (Entails.of_eq (held_pair (F := F) d (V3 m d))) $$ Hp
  icases Hp' with ⟨H2, H3⟩
  ihave H2' := (src_split (F := F) d (f2 m d)).1 $$ H2
  icases H2' with ⟨H2r, H2s⟩
  ihave H3' := (Entails.of_eq (tar_split (F := F) d (f3 m d))) $$ H3
  ihave Hst1 := (Entails.of_eq hR.symm) $$ [Howes Hst]
  · isplitl [Howes] <;> iassumption
  iapply ((K (F := F)).wp_run (D (F := F)) 𝒱 (EH := EH) (P := P m) κ d 0) $$ [Hst1 H2s H3' Hb Hrest H2r]
  isplitr; · iexact Hctx
  isplitl [Hst1]; · iexact Hst1
  isplitl [H2s H3']
  · rw [st0_eq]
    isplitl [H2s]; · iexact H2s
    iexact H3'
  iintro ⟨Hst, Hdn⟩
  ihave Hdn' := (Entails.of_eq (dn0_eq m d)) $$ Hdn
  icases Hdn' with ⟨H2s, H3'⟩
  ihave H2 := (src_split (F := F) d (f2 m d)).2 $$ [H2r H2s]
  · isplitl [H2r] <;> iassumption
  ihave H3 := (Entails.of_eq (tar_split (F := F) d (Cert.Spec.tarChunks (f2 m d))).symm) $$ H3'
  ihave Hheld := (Entails.of_eq (show (iprop((held (SparseCore.T d) ({rV2, rV3} : Finset (DevRef τ sig)) (V4 m d)) ∗ held (SparseCore.T d) (Sall \ {rV2, rV3}) (V4 m d)) : sProp 𝕄)
      = held (SparseCore.T d) Sall (V4 m d) from (StableHlo.held_sub_split (SparseCore.T d) pair_sub (V4 m d)).symm)) $$ [H2 H3 Hrest]
  · isplitl [H2 H3]
    · rw [held_pair, V4_of_ne m d (show rV2 ≠ rV3 by decide), V4_self]
      isplitl [H2] <;> iassumption
    · rw [held_rest_V4]; iexact Hrest
  -- the last line
  iapply (wp_seq 𝒱 none Set.univ d Sall _ (line3 (F := F)) line3_sub line3_fresh (V4 m d)) $$ [Hb Hheld]
  · isplitl [Hb] <;> iassumption
  iintro ⟨Hb, Hheld⟩
  ihave Hheld5 := (Entails.of_eq (show (held (d.tc : Thread nD τ) Sall (StableHlo.after (line3 (F := F)) (V4 m d)) : sProp 𝕄)
      = held (SparseCore.T d) Sall (V5 m d) from rfl)) $$ Hheld
  rw [wp_pure]; imodintro
  isplitl [Hst]; · iexact Hst
  iexact Hheld5

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) :=
  hmain' m ρ κ d _ rfl

end Cert.Proof.KB

end
-- ==== Proof.OffsetsB.lean ====
/-
  The two offset chains of the chunk copy, in closed form.

  Worker `(c, s)` (core `c < 2`, subcore `s < 16`) copies twelve chunks; its `r`-th is target chunk `k = 24 s + 12 c + r`.
  The target offset is `k` itself. The source offset is computed in 32-bit words as `18 * ⌊k / 6⌋ + 12 + (k mod 6)`, the
  floor and the non-negative remainder each spelt as a signed division or remainder followed by a sign correction;
  as `0 ≤ k < 384` no correction fires and no word overflows, so the source offset is `srcChunk k`.
-/
import proofs.«216314_g7602092114391_cont_9to1c4b_856_27_alg».proof.Proof.Layout
import proofs.«216314_g7602092114391_cont_9to1c4b_856_27_alg».proof.Proof.Gen.Kernel

namespace Cert.Proof.KB

open Cert.Kernel Cert.Kernel.Gen Idealize.ShloMosaic

/-- Worker `(c, s)`'s `r`-th chunk: `k = 24 s + 12 c + r`. -/
def chunkNo (i : grid1.Coords) (r : Fin 12) : Fin 384 :=
  ⟨24 * (i 1).val + 12 * (i 0).val + r.val, by
    have r_i1 : (i 1).val < 16 := (i 1).isLt
    have r_i0 : (i 0).val < 2 := (i 0).isLt
    have r_r : r.val < 12 := r.isLt
    omega⟩

/-- The source offset of worker `i`'s `r`-th copy is chunk `srcChunk k`, rows and columns from 0. The chain is followed
    word by word: each intermediate word is the integer written beside it. With `K = 24 s + 12 c + r`: the sign of
    `K` (0 or 1) decides whether the floor correction's first test holds, but the correction needs a negative
    `K` or divisor, so the quotient stays `K / 6`; the remainder `K % 6` is non-negative, so it is kept as it is. -/
theorem k1_off1_eq (i : grid1.Coords) (r : Fin 12) :
    k1_off1 i (BitVec.ofNat 32 r.val) = ![(Cert.Spec.srcChunk (chunkNo i r)).val, 0, 0] := by
  have r_r : r.val < 12 := r.isLt
  have h_c0_i32_0 : Affine.IsInt (BitVec.ofNat 32 r.val) ((r.val : Int)) := Affine.ofNat _ (by omega)
  have h_c18_i32 : Affine.IsInt 18#32 (18) := Affine.ofNat _ (by omega)
  have r_i1 : (i 1).val < 16 := (i 1).isLt
  have h_arg1 : Affine.IsInt (BitVec.ofNat 32 (i 1).val) (((i 1).val : Int)) := Affine.ofNat _ (by omega)
  have h_c2_i32 : Affine.IsInt 2#32 (2) := Affine.ofNat _ (by omega)
  have h_v0 : Affine.IsInt _ (2 * ((i 1).val : Int)) := Affine.muli h_arg1 h_c2_i32 (by omega)
  have r_i0 : (i 0).val < 2 := (i 0).isLt
  have h_arg0 : Affine.IsInt (BitVec.ofNat 32 (i 0).val) (((i 0).val : Int)) := Affine.ofNat _ (by omega)
  have h_v1 : Affine.IsInt _ (2 * ((i 1).val : Int) + ((i 0).val : Int)) := Affine.addi h_v0 h_arg0 (by omega)
  have h_c12_i32 : Affine.IsInt 12#32 (12) := Affine.ofNat _ (by omega)
  have h_v2 : Affine.IsInt _ (24 * ((i 1).val : Int) + 12 * ((i 0).val : Int)) := Affine.muli h_v1 h_c12_i32 (by omega)
  have h_v6 : Affine.IsInt _ (24 * ((i 1).val : Int) + 12 * ((i 0).val : Int) + (r.val : Int)) := Affine.addi h_v2 h_c0_i32_0 (by omega)
  have h_c0_i32_1 : Affine.IsInt 0#32 (0) := Affine.ofNat _ (by omega)
  rcases (show 24 * ((i 1).val : Int) + 12 * ((i 0).val : Int) + (r.val : Int) ≤ 0 ∨ 1 ≤ 24 * ((i 1).val : Int) + 12 * ((i 0).val : Int) + (r.val : Int) by omega) with hs | hs
  · -- K = 0
    have h_v8 : Affine.Fails _ := Affine.sgt_fails h_v6 h_c0_i32_1 (by omega)
    have h_v9 : Affine.IsInt _ (0) := Affine.extui_fails h_v8 (by omega)
    have h_c0_i32_2 : Affine.IsInt 0#32 (0) := Affine.ofNat _ (by omega)
    have h_v10 : Affine.Fails _ := Affine.slt_fails h_v6 h_c0_i32_2 (by omega)
    have h_v11 : Affine.IsInt _ (0) := Affine.extui_fails h_v10 (by omega)
    have h_v12 : Affine.IsInt _ (0) := Affine.subi h_v9 h_v11 (by omega)
    have h_c6_i32 : Affine.IsInt 6#32 (6) := Affine.ofNat _ (by omega)
    have h_c0_i32_3 : Affine.IsInt 0#32 (0) := Affine.ofNat _ (by omega)
    have h_v13 : Affine.Holds _ := Affine.sgt_holds h_c6_i32 h_c0_i32_3 (by omega)
    have h_v14 : Affine.IsInt _ (1) := Affine.extui_holds h_v13 (by omega)
    have h_c0_i32_4 : Affine.IsInt 0#32 (0) := Affine.ofNat _ (by omega)
    have h_v15 : Affine.Fails _ := Affine.slt_fails h_c6_i32 h_c0_i32_4 (by omega)
    have h_v16 : Affine.IsInt _ (0) := Affine.extui_fails h_v15 (by omega)
    have h_v17 : Affine.IsInt _ (1) := Affine.subi h_v14 h_v16 (by omega)
    have h_v18 : Affine.Holds _ := Affine.ne_holds h_v12 h_v17 (by omega)
    have h_v19 : Affine.IsInt _ (24 * ((i 1).val : Int) + 12 * ((i 0).val : Int) + (r.val : Int)) := Affine.remsi h_v6 h_c6_i32 (by omega)
    have h_c0_i32_5 : Affine.IsInt 0#32 (0) := Affine.ofNat _ (by omega)
    have h_v20 : Affine.Fails _ := Affine.ne_fails h_v19 h_c0_i32_5 (by omega)
    have h_v21 : Affine.Fails _ := Affine.andi_fails_right (Affine.tH h_v18) h_v20
    have h_v7 : Affine.IsInt _ (((24 * ((i 1).val : Int) + 12 * ((i 0).val : Int) + (r.val : Int)) / 6)) := Affine.divsi h_v6 h_c6_i32 (by omega)
    have h_c1_i32 : Affine.IsInt 1#32 (1) := Affine.ofNat _ (by omega)
    have h_v22 : Affine.IsInt _ (((24 * ((i 1).val : Int) + 12 * ((i 0).val : Int) + (r.val : Int)) / 6) - 1) := Affine.subi h_v7 h_c1_i32 (by omega)
    have h_v23 : Affine.IsInt _ (((24 * ((i 1).val : Int) + 12 * ((i 0).val : Int) + (r.val : Int)) / 6)) := Affine.select_fails h_v21 h_v22 h_v7 (by omega)
    have h_v24 : Affine.IsInt _ (18 * ((24 * ((i 1).val : Int) + 12 * ((i 0).val : Int) + (r.val : Int)) / 6)) := Affine.muli h_c18_i32 h_v23 (by omega)
    have h_c12_i32_6 : Affine.IsInt 12#32 (12) := Affine.ofNat _ (by omega)
    have h_v25 : Affine.IsInt _ (18 * ((24 * ((i 1).val : Int) + 12 * ((i 0).val : Int) + (r.val : Int)) / 6) + 12) := Affine.addi h_v24 h_c12_i32_6 (by omega)
    have h_c6_i32_7 : Affine.IsInt 6#32 (6) := Affine.ofNat _ (by omega)
    have h_c0_i32_8 : Affine.IsInt 0#32 (0) := Affine.ofNat _ (by omega)
    have h_v26 : Affine.Fails _ := Affine.eq_fails h_c6_i32_7 h_c0_i32_8 (by omega)
    have h_c1_i32_9 : Affine.IsInt 1#32 (1) := Affine.ofNat _ (by omega)
    have h_v27 : Affine.IsInt _ (6) := Affine.select_fails h_v26 h_c1_i32_9 h_c6_i32_7 (by omega)
    have h_v28 : Affine.IsInt _ (24 * ((i 1).val : Int) + 12 * ((i 0).val : Int) + (r.val : Int)) := Affine.remsi h_v6 h_v27 (by omega)
    have h_c0_i32_11 : Affine.IsInt 0#32 (0) := Affine.ofNat _ (by omega)
    have h_v30 : Affine.Fails _ := Affine.slt_fails h_v28 h_c0_i32_11 (by omega)
    have h_c0_i32_12 : Affine.IsInt 0#32 (0) := Affine.ofNat _ (by omega)
    have h_v31 : Affine.Fails _ := Affine.slt_fails h_v27 h_c0_i32_12 (by omega)
    have h_v32 : Affine.Fails _ := Affine.xori_ff h_v30 h_v31
    have h_c0_i32_10 : Affine.IsInt 0#32 (0) := Affine.ofNat _ (by omega)
    have h_v29 : Affine.Fails _ := Affine.ne_fails h_v28 h_c0_i32_10 (by omega)
    have h_v33 : Affine.Fails _ := Affine.andi_fails_left h_v32 (Affine.tF h_v29)
    have h_v34 : Affine.IsInt _ (24 * ((i 1).val : Int) + 12 * ((i 0).val : Int) + (r.val : Int) + 6) := Affine.addi h_v28 h_v27 (by omega)
    have h_v35 : Affine.IsInt _ (24 * ((i 1).val : Int) + 12 * ((i 0).val : Int) + (r.val : Int)) := Affine.select_fails h_v33 h_v34 h_v28 (by omega)
    have h_v36 : Affine.IsInt _ (18 * ((24 * ((i 1).val : Int) + 12 * ((i 0).val : Int) + (r.val : Int)) / 6) + 24 * ((i 1).val : Int) + 12 * ((i 0).val : Int) + (r.val : Int) + 12) := Affine.addi h_v25 h_v35 (by omega)
    exact Affine.vec_cons h_v36
      (by
        show _ = ((18 * ((24 * (i 1).val + 12 * (i 0).val + r.val) / 6) + 12 + (24 * (i 1).val + 12 * (i 0).val + r.val) % 6 : Nat) : Int)
        omega) <|
      Affine.vec_cons (Affine.ofNat 0 (by omega) : Affine.IsInt 0#32 0) (by omega) <|
      Affine.vec_cons (Affine.ofNat 0 (by omega) : Affine.IsInt 0#32 0) (by omega) <| Affine.vec_nil
  · -- K ≥ 1
    have h_v8 : Affine.Holds _ := Affine.sgt_holds h_v6 h_c0_i32_1 (by omega)
    have h_v9 : Affine.IsInt _ (1) := Affine.extui_holds h_v8 (by omega)
    have h_c0_i32_2 : Affine.IsInt 0#32 (0) := Affine.ofNat _ (by omega)
    have h_v10 : Affine.Fails _ := Affine.slt_fails h_v6 h_c0_i32_2 (by omega)
    have h_v11 : Affine.IsInt _ (0) := Affine.extui_fails h_v10 (by omega)
    have h_v12 : Affine.IsInt _ (1) := Affine.subi h_v9 h_v11 (by omega)
    have h_c6_i32 : Affine.IsInt 6#32 (6) := Affine.ofNat _ (by omega)
    have h_c0_i32_3 : Affine.IsInt 0#32 (0) := Affine.ofNat _ (by omega)
    have h_v13 : Affine.Holds _ := Affine.sgt_holds h_c6_i32 h_c0_i32_3 (by omega)
    have h_v14 : Affine.IsInt _ (1) := Affine.extui_holds h_v13 (by omega)
    have h_c0_i32_4 : Affine.IsInt 0#32 (0) := Affine.ofNat _ (by omega)
    have h_v15 : Affine.Fails _ := Affine.slt_fails h_c6_i32 h_c0_i32_4 (by omega)
    have h_v16 : Affine.IsInt _ (0) := Affine.extui_fails h_v15 (by omega)
    have h_v17 : Affine.IsInt _ (1) := Affine.subi h_v14 h_v16 (by omega)
    have h_v18 : Affine.Fails _ := Affine.ne_fails h_v12 h_v17 (by omega)
    have h_v19 : Affine.IsInt _ (((24 * ((i 1).val : Int) + 12 * ((i 0).val : Int) + (r.val : Int)) % 6)) := Affine.remsi h_v6 h_c6_i32 (by omega)
    have h_c0_i32_5 : Affine.IsInt 0#32 (0) := Affine.ofNat _ (by omega)
    have h_v20 : Affine.Term _ := Affine.cmpi_term .ne h_v19 h_c0_i32_5
    have h_v21 : Affine.Fails _ := Affine.andi_fails_left h_v18 h_v20
    have h_v7 : Affine.IsInt _ (((24 * ((i 1).val : Int) + 12 * ((i 0).val : Int) + (r.val : Int)) / 6)) := Affine.divsi h_v6 h_c6_i32 (by omega)
    have h_c1_i32 : Affine.IsInt 1#32 (1) := Affine.ofNat _ (by omega)
    have h_v22 : Affine.IsInt _ (((24 * ((i 1).val : Int) + 12 * ((i 0).val : Int) + (r.val : Int)) / 6) - 1) := Affine.subi h_v7 h_c1_i32 (by omega)
    have h_v23 : Affine.IsInt _ (((24 * ((i 1).val : Int) + 12 * ((i 0).val : Int) + (r.val : Int)) / 6)) := Affine.select_fails h_v21 h_v22 h_v7 (by omega)
    have h_v24 : Affine.IsInt _ (18 * ((24 * ((i 1).val : Int) + 12 * ((i 0).val : Int) + (r.val : Int)) / 6)) := Affine.muli h_c18_i32 h_v23 (by omega)
    have h_c12_i32_6 : Affine.IsInt 12#32 (12) := Affine.ofNat _ (by omega)
    have h_v25 : Affine.IsInt _ (18 * ((24 * ((i 1).val : Int) + 12 * ((i 0).val : Int) + (r.val : Int)) / 6) + 12) := Affine.addi h_v24 h_c12_i32_6 (by omega)
    have h_c6_i32_7 : Affine.IsInt 6#32 (6) := Affine.ofNat _ (by omega)
    have h_c0_i32_8 : Affine.IsInt 0#32 (0) := Affine.ofNat _ (by omega)
    have h_v26 : Affine.Fails _ := Affine.eq_fails h_c6_i32_7 h_c0_i32_8 (by omega)
    have h_c1_i32_9 : Affine.IsInt 1#32 (1) := Affine.ofNat _ (by omega)
    have h_v27 : Affine.IsInt _ (6) := Affine.select_fails h_v26 h_c1_i32_9 h_c6_i32_7 (by omega)
    have h_v28 : Affine.IsInt _ (((24 * ((i 1).val : Int) + 12 * ((i 0).val : Int) + (r.val : Int)) % 6)) := Affine.remsi h_v6 h_v27 (by omega)
    have h_c0_i32_11 : Affine.IsInt 0#32 (0) := Affine.ofNat _ (by omega)
    have h_v30 : Affine.Fails _ := Affine.slt_fails h_v28 h_c0_i32_11 (by omega)
    have h_c0_i32_12 : Affine.IsInt 0#32 (0) := Affine.ofNat _ (by omega)
    have h_v31 : Affine.Fails _ := Affine.slt_fails h_v27 h_c0_i32_12 (by omega)
    have h_v32 : Affine.Fails _ := Affine.xori_ff h_v30 h_v31
    have h_c0_i32_10 : Affine.IsInt 0#32 (0) := Affine.ofNat _ (by omega)
    have h_v29 : Affine.Term _ := Affine.cmpi_term .ne h_v28 h_c0_i32_10
    have h_v33 : Affine.Fails _ := Affine.andi_fails_left h_v32 h_v29
    have h_v34 : Affine.IsInt _ (((24 * ((i 1).val : Int) + 12 * ((i 0).val : Int) + (r.val : Int)) % 6) + 6) := Affine.addi h_v28 h_v27 (by omega)
    have h_v35 : Affine.IsInt _ (((24 * ((i 1).val : Int) + 12 * ((i 0).val : Int) + (r.val : Int)) % 6)) := Affine.select_fails h_v33 h_v34 h_v28 (by omega)
    have h_v36 : Affine.IsInt _ (18 * ((24 * ((i 1).val : Int) + 12 * ((i 0).val : Int) + (r.val : Int)) / 6) + ((24 * ((i 1).val : Int) + 12 * ((i 0).val : Int) + (r.val : Int)) % 6) + 12) := Affine.addi h_v25 h_v35 (by omega)
    exact Affine.vec_cons h_v36
      (by
        show _ = ((18 * ((24 * (i 1).val + 12 * (i 0).val + r.val) / 6) + 12 + (24 * (i 1).val + 12 * (i 0).val + r.val) % 6 : Nat) : Int)
        omega) <|
      Affine.vec_cons (Affine.ofNat 0 (by omega) : Affine.IsInt 0#32 0) (by omega) <|
      Affine.vec_cons (Affine.ofNat 0 (by omega) : Affine.IsInt 0#32 0) (by omega) <| Affine.vec_nil

/-- The target offset of worker `i`'s `r`-th copy is chunk `k` itself, rows and columns from 0. -/
theorem k1_off2_eq' (i : grid1.Coords) (r : Fin 12) :
    k1_off2 i (BitVec.ofNat 32 r.val) = ![(chunkNo i r).val, 0, 0] := k1_off2_eq i r

end Cert.Proof.KB
-- ==== Proof.TileB.lean ====
/-
  The task of one vector subcore, proved once at a symbolic place.

  Vector subcore `s` of SparseCore `c` is worker `w = 2 s + c`. It copies twelve chunks: its `r`-th is target chunk
  `k = 12 w + r`, read from source chunk `srcChunk k`. Each chunk goes from the source array into one of two scratch
  buffers (buffer `r % 2`) and from there to the target array; a buffer's copy-out is waited before the next
  copy-in to it, and each of the four semaphores has at most one copy outstanding. So every issue and every wait is a
  single step: after the wait of the `r`-th copy-in the buffer holds the source chunk, after the wait of the `r`-th
  copy-out the target row `k` holds that buffer's contents, hence the source chunk `srcChunk k`.
-/
import proofs.«216314_g7602092114391_cont_9to1c4b_856_27_alg».proof.Defs
import proofs.«216314_g7602092114391_cont_9to1c4b_856_27_alg».proof.Proof.Layout
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«216314_g7602092114391_cont_9to1c4b_856_27_alg».proof.Proof.Gen.Kernel
import proofs.«216314_g7602092114391_cont_9to1c4b_856_27_alg».proof.Proof.Gen.Kernel.Skeleton
import proofs.«216314_g7602092114391_cont_9to1c4b_856_27_alg».proof.Proof.CommonB
import proofs.«216314_g7602092114391_cont_9to1c4b_856_27_alg».proof.Proof.OffsetsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "v2V" => (Memref.whole Cert.Kernel.main_v2_scv : Memref Cert.Kernel.sig Kind.scVector Space.hbm Cert.Kernel.S1152x128x256 EltTy.f32)
local notation "v3V" => (Memref.whole Cert.Kernel.main_v3_scv : Memref Cert.Kernel.sig Kind.scVector Space.hbm Cert.Kernel.S384x128x256 EltTy.f32)
local notation "b0V" => (Memref.whole Cert.Kernel.cc1_scratch0 : Memref Cert.Kernel.sig Kind.scVector Space.vmem Cert.Kernel.S1x128x256 EltTy.f32)
local notation "b1V" => (Memref.whole Cert.Kernel.cc1_scratch1 : Memref Cert.Kernel.sig Kind.scVector Space.vmem Cert.Kernel.S1x128x256 EltTy.f32)

/-- Every worker is active: `2 s + c < 32` at every grid point. -/
theorem cond_true : ∀ i : grid1.Coords, k1_cond1 i = 1#1 := by decide +kernel

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev sL (L : grid1.Coords) : Fin 16 := Fin.cast bound_one (L 1)

/-- Row `r` of the worker's block of the target, as the task addresses it. -/
abbrev tRowK (L : grid1.Coords) (h : k1_cond1 L = 1#1) (r : Fin 12) : Memref sig .scVector .hbm S1x128x256 .f32 :=
  (v3V).slice (Rect.unit (s := S384x128x256) (k1_off2 L (BitVec.ofNat 32 r.val)) S1x128x256.size (k1_off2_inb L h r)) (fun _ => rfl)
/-- The `r`-th source chunk, as the task addresses it. -/
abbrev sRowK (L : grid1.Coords) (h : k1_cond1 L = 1#1) (r : Fin 12) : Memref sig .scVector .hbm S1x128x256 .f32 :=
  (v2V).slice (Rect.unit (s := S1152x128x256) (k1_off1 L (BitVec.ofNat 32 r.val)) S1x128x256.size (k1_off1_inb L h r)) (fun _ => rfl)

theorem pts_v2V (q : PosShare TreeShare) (f : Buf (Elt F) (v2Loc d)) :
    ((v2V).view.loc (V d (cV L) (jV L)) ↦{q} f : sProp 𝕄) = v2Loc d ↦{q} f := rfl
theorem pts_b0V (f : Buf (Elt F) ((V d (cV L) (jV L)).loc cc1_scratch0)) :
    ((b0V).view.loc (V d (cV L) (jV L)) ↦{fullShare} f : sProp 𝕄) = (V d (cV L) (jV L)).loc cc1_scratch0 ↦{fullShare} f := rfl
theorem pts_b1V (f : Buf (Elt F) ((V d (cV L) (jV L)).loc cc1_scratch1)) :
    ((b1V).view.loc (V d (cV L) (jV L)) ↦{fullShare} f : sProp 𝕄) = (V d (cV L) (jV L)).loc cc1_scratch1 ↦{fullShare} f := rfl

abbrev cAcell (d : Dev nD) (c : Fin τ.nSC) (i : Fin τ.nSub) : GSem nD τ sig := (V d c i, .dma cc1_scratch2.sem)
abbrev cBcell (d : Dev nD) (c : Fin τ.nSC) (i : Fin τ.nSub) : GSem nD τ sig := (V d c i, .dma cc1_scratch3.sem)
abbrev cCcell (d : Dev nD) (c : Fin τ.nSC) (i : Fin τ.nSub) : GSem nD τ sig := (V d c i, .dma cc1_scratch4.sem)
abbrev cDcell (d : Dev nD) (c : Fin τ.nSC) (i : Fin τ.nSub) : GSem nD τ sig := (V d c i, .dma cc1_scratch5.sem)

/-- The four semaphores are among the subcore's own cells: they are them, at zero, and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ semVal (cDcell d (cV L) (jV L)) 0
          ∗ bigSep (((((ownCells (V d (cV L) (jV L))).erase (cAcell d (cV L) (jV L))).erase (cBcell d (cV L) (jV L))).erase (cCcell d (cV L) (jV L))).erase
              (cDcell d (cV L) (jV L))) fun g => semVal g 0) := by
  unfold SparseCore.Cfg.ownSems0
  rw [SparseCore.bigSep_erase' ((mem_ownCells (g := cAcell d (cV L) (jV L))).mpr ⟨rfl, by
      show (SemLoc.dma cc1_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch3.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scratch4.sem : SemLoc sig).isScoped .scVector = true; decide⟩⟩⟩),
    SparseCore.bigSep_erase' (Finset.mem_erase.mpr ⟨by simp [cCcell, cDcell]; decide, Finset.mem_erase.mpr ⟨by simp [cBcell, cDcell]; decide,
      Finset.mem_erase.mpr ⟨by simp [cAcell, cDcell]; decide,
      (mem_ownCells (g := cDcell d (cV L) (jV L))).mpr ⟨rfl, by show (SemLoc.dma cc1_scratch5.sem : SemLoc sig).isScoped .scVector = true; decide⟩⟩⟩⟩)]

/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- Row `r` of the worker's block, held by the task. -/
abbrev tRowPts (h : k1_cond1 L = 1#1) (f : Buf (Elt F) (v3Loc d)) (r : Fin 12) : sProp 𝕄 :=
  (tRowK L h r).view.loc (V d (cV L) (jV L)) ↦[(tRowK L h r).view.set]{fullShare} f

/-- An index lies in worker `w`'s block when its chunk number is one of `12 w, …, 12 w + 11`. -/
theorem mem_tileSet (w : Fin 32) (i : S384x128x256.Idx) : i ∈ tileSet w ↔ 12 * w.val ≤ (i 0).val ∧ (i 0).val < 12 * w.val + 12 := by
  have e : tileSet w = (tileBlock w).set := View.set_slice_whole main_v3_scv (tileBlock w)
  have h1 : (i 1).val < 128 := (i 1).isLt
  have h2 : (i 2).val < 256 := (i 2).isLt
  rw [e, Rect.mem_set_unit]
  constructor
  · intro H
    have H0 := H 0
    simp [Shape.partIx, Shape.partSize] at H0
    omega
  · intro H a
    match a with
    | 0 => simp [Shape.partIx, Shape.partSize] <;> omega
    | 1 => simp [Shape.partIx, Shape.partSize] <;> omega
    | 2 => simp [Shape.partIx, Shape.partSize] <;> omega

/-- An index lies in the worker's `r`-th row when its chunk number is the worker's `r`-th. -/
theorem mem_tRowK (h : k1_cond1 L = 1#1) (r : Fin 12) (i : S384x128x256.Idx) :
    i ∈ (tRowK L h r).view.set ↔ (i 0).val = (chunkNo L r).val := by
  have e : ((tRowK L h r).view.set : Finset S384x128x256.Idx)
      = (Rect.unit (s := S384x128x256) (k1_off2 L (BitVec.ofNat 32 r.val)) S1x128x256.size (k1_off2_inb L h r)).set :=
    View.set_slice_whole main_v3_scv _
  have h1 : (i 1).val < 128 := (i 1).isLt
  have h2 : (i 2).val < 256 := (i 2).isLt
  rw [e, Rect.mem_set_unit, k1_off2_eq']
  constructor
  · intro H
    have H0 := H 0
    simp at H0
    omega
  · intro H a
    match a with
    | 0 => simp <;> omega
    | 1 => simp <;> omega
    | 2 => simp <;> omega

/-- The worker's block of the target is its twelve rows. -/
theorem rows_eq (h : k1_cond1 L = 1#1) (f : Buf (Elt F) (v3Loc d)) :
    (v3Loc d ↦[tileSet (wid (cL L) (sL L))]{fullShare} f : sProp 𝕄)
      = iprop(tRowPts d L h f 0 ∗ tRowPts d L h f 1 ∗ tRowPts d L h f 2 ∗ tRowPts d L h f 3 ∗ tRowPts d L h f 4 ∗ tRowPts d L h f 5
          ∗ tRowPts d L h f 6 ∗ tRowPts d L h f 7 ∗ tRowPts d L h f 8 ∗ tRowPts d L h f 9 ∗ tRowPts d L h f 10 ∗ tRowPts d L h f 11) := by
  have hcov : tileSet (wid (cL L) (sL L)) = Finset.univ.biUnion fun r : Fin 12 => ((tRowK L h r).view.set : Finset S384x128x256.Idx) := by
    ext i
    rw [mem_tileSet, Finset.mem_biUnion]
    have hw : (wid (cL L) (sL L)).val = 2 * (L 1).val + (L 0).val := rfl
    constructor
    · intro H
      refine ⟨⟨(i 0).val - 12 * (wid (cL L) (sL L)).val, by omega⟩, Finset.mem_univ _, (mem_tRowK L h _ i).mpr ?_⟩
      show (i 0).val = 24 * (L 1).val + 12 * (L 0).val + ((i 0).val - 12 * (wid (cL L) (sL L)).val)
      omega
    · rintro ⟨r, -, hr⟩
      have := r.isLt
      have hr' : (i 0).val = 24 * (L 1).val + 12 * (L 0).val + r.val := (mem_tRowK L h r i).mp hr
      omega
  have hdis : ∀ r ∈ (Finset.univ : Finset (Fin 12)), ∀ r' ∈ (Finset.univ : Finset (Fin 12)), r ≠ r' →
      Disjoint ((tRowK L h r).view.set : Finset S384x128x256.Idx) ((tRowK L h r').view.set) := by
    intro r _ r' _ hne
    rw [Finset.disjoint_left]
    intro i hi hi'
    rw [mem_tRowK] at hi hi'
    have e1 : (i 0).val = 24 * (L 1).val + 12 * (L 0).val + r.val := hi
    have e2 : (i 0).val = 24 * (L 1).val + 12 * (L 0).val + r'.val := hi'
    exact hne (Fin.ext (by omega))
  rw [hcov]
  exact (pointsTo_biUnion (ℓ := v3Loc d) (q := fullShare) (f := f) Finset.univ _ hdis).trans
    (bigSep_univ_eq_bigSepL [0, 1, 2, 3, 4, 5, 6, 7, 8, 9, 10, 11] (by decide) (by decide) _)

/-- What the `r`-th row holds after its copy-out: the source chunk `srcChunk k`, that is, the target's contents there. -/
theorem row_val (h : k1_cond1 L = 1#1) (r : Fin 12) (f2 : Buf (Elt F) (v2Loc d)) (f3 : Buf (Elt F) (v3Loc d))
    (pay : S1x128x256.Idx → Elt F .f32) (hpay : pay = (sRowK L h r).view.read (Elt F) f2) :
    ((tRowK L h r).view.loc (V d (cV L) (jV L)) ↦[(tRowK L h r).view.set]{fullShare}
        (tRowK L h r).view.writes (Elt F) f3 [⟨Rect.whole S1x128x256, pay⟩] : sProp 𝕄)
      = tRowPts d L h (Cert.Spec.tarChunks f2) r := by
  subst hpay
  refine pointsTo_congr fun i hi => ?_
  obtain ⟨x, -, rfl⟩ := Finset.mem_map.mp hi
  rw [View.writes_singleton]
  have ex : (tRowK L h r).view.emb x = ((tRowK L h r).view.slice (Rect.whole S1x128x256)).emb x := by
    show _ = (tRowK L h r).view.emb ((Rect.whole S1x128x256).emb x)
    rw [Rect.emb_whole_apply]
  rw [ex, View.write_emb_of_mem _ _ (Finset.mem_univ x), View.read_apply, ← ex, cast_cast, cast_eq]
  have hs : ∀ a, (((sRowK L h r).view.emb x) a).val = k1_off1 L (BitVec.ofNat 32 r.val) a + 1 * (x a).val := fun _ => rfl
  have ht : ∀ a, (((tRowK L h r).view.emb x) a).val = k1_off2 L (BitVec.ofNat 32 r.val) a + 1 * (x a).val := fun _ => rfl
  rw [k1_off1_eq] at hs
  rw [k1_off2_eq'] at ht
  have x0 : (x 0).val = 0 := by have hx : (x 0).val < 1 := (x 0).isLt; omega
  have t0 : (tRowK L h r).view.emb x 0 = chunkNo L r := Fin.ext (by rw [ht 0]; simp [x0])
  show f2 _ = f2 _
  congr 1
  funext a
  apply Fin.ext
  match a with
  | 0 =>
    show _ = (Cert.Spec.srcChunk ((tRowK L h r).view.emb x 0)).val
    rw [t0, hs 0]; simp [x0]
  | 1 =>
    show _ = ((tRowK L h r).view.emb x 1).val
    rw [hs 1, ht 1]; simp
  | 2 =>
    show _ = ((tRowK L h r).view.emb x 2).val
    rw [hs 2, ht 2]; simp

/-- What a scratch buffer hands to its copy-out: a copy-in overwrites the buffer whole, so the buffer reads as what the
    copy-in carried, whatever it held before. -/
theorem pay_b0 (fprev : Buf (Elt F) ((V d (cV L) (jV L)).loc cc1_scratch0)) (w : S1x128x256.Idx → Elt F .f32) :
    (b0V).view.read (Elt F) (View.write (Elt F) (b0V).view fprev w Finset.univ) = w :=
  (View.read_whole (Val := Elt F) cc1_scratch0 _).trans (View.write_whole_univ (Val := Elt F) cc1_scratch0 fprev w)
theorem pay_b1 (fprev : Buf (Elt F) ((V d (cV L) (jV L)).loc cc1_scratch1)) (w : S1x128x256.Idx → Elt F .f32) :
    (b1V).view.read (Elt F) (View.write (Elt F) (b1V).view fprev w Finset.univ) = w :=
  (View.read_whole (Val := Elt F) cc1_scratch1 _).trans (View.write_whole_univ (Val := Elt F) cc1_scratch1 fprev w)

/-- A recorded wait at the kernels' index keeps the waits' invariant. -/
theorem ins_ok {W W' : Waits sig (HIx 1)} (g : SemLoc sig) (h : ∀ p ∈ W', p ∈ W ∨ p.2 = none) :
    ∀ p ∈ insert (g, (default : HIx 1)) W', p ∈ W ∨ p.2 = none := by
  intro p hp
  rcases Finset.mem_insert.mp hp with hp | hp
  · exact .inr (hp ▸ rfl)
  · exact h p hp

variable [FloatOps F]

set_option maxHeartbeats 4000000 in
/-- The task on vector subcore `(L 0, L 1)` of device `d`: twelve chunks through the two scratch buffers, every issue and
    wait a single step; at the end each row of the block holds its source chunk. -/
theorem tile_body (hF : (K (F := F)).Facts) (f2 : Buf (Elt F) (v2Loc d)) (f3 : Buf (Elt F) (v3Loc d))
    (O : CellTallies nD τ sig (HIx 1)) (W : Waits sig (HIx 1)) (hO : ∀ g, O g none = 0) :
    (iprop(levAts (K (F := F)).L (K (F := F)).lev ∗ emp
        ∗ ((v2Loc d ↦{tileShare (cL L) (sL L)} f2) ∗ (v3Loc d ↦[tileSet (wid (cL L) (sL L))]{fullShare} f3))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1__lambda_ L (Memref.whole main_v2_scv) (Memref.isWhole_whole _) (Memref.whole main_v3_scv) (Memref.isWhole_whole _)
            (Memref.whole cc1_scratch0) (Memref.isWhole_whole _) (Memref.whole cc1_scratch1) (Memref.isWhole_whole _)
            cc1_scratch2 cc1_scratch3 cc1_scratch4 cc1_scratch5)
          fun _ => iprop(((v2Loc d ↦{tileShare (cL L) (sL L)} f2) ∗ (v3Loc d ↦[tileSet (wid (cL L) (sL L))]{fullShare} Cert.Spec.tarChunks f2))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hc : k1_cond1 L = 1#1 := cond_true L
  simp only [cc1__lambda__eq_skeleton]; unfold cc1__lambda__skel
  rw [(K (F := F)).scopedBufs_V hF d (cV L) (jV L), SparseCore.Cfg.scopedSems0_V (Val := Elt F) d (cV L) (jV L), ownSems0_V, ownBufs_V,
    rows_eq (F := F) d L hc f3]
  iintro ⟨#Hlv, -, ⟨H2, T0, T1, T2, T3, T4, T5, T6, T7, T8, T9, T10, T11⟩, ⟨⟨%fa, Ha⟩, ⟨%fb, Hb⟩, Hbufs⟩, ⟨HsemA, HsemB, HsemC, HsemD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave H2' := (Entails.of_eq (pts_v2V (F := F) d L _ _).symm) $$ H2
  ihave Ha' := (Entails.of_eq (pts_b0V (F := F) d L _).symm) $$ Ha
  ihave Hb' := (Entails.of_eq (pts_b1V (F := F) d L _).symm) $$ Hb
  sl_exec
  sl_step
  isplitl [H2' T0 T1 T2 T3 T4 T5 T6 T7 T8 T9 T10 T11]
  · isplitl [H2']
    · iapply (Entails.of_eq (pts_v2V (F := F) d L _ _)); iexact H2'
    iapply (Entails.of_eq (rows_eq (F := F) d L hc (Cert.Spec.tarChunks f2)).symm)
    isplitl [T0]; · iapply (Entails.of_eq (row_val (F := F) d L hc 0 f2 f3 _ (pay_b0 (F := F) d L _ _))); iexact T0
    isplitl [T1]; · iapply (Entails.of_eq (row_val (F := F) d L hc 1 f2 f3 _ (pay_b1 (F := F) d L _ _))); iexact T1
    isplitl [T2]; · iapply (Entails.of_eq (row_val (F := F) d L hc 2 f2 f3 _ (pay_b0 (F := F) d L _ _))); iexact T2
    isplitl [T3]; · iapply (Entails.of_eq (row_val (F := F) d L hc 3 f2 f3 _ (pay_b1 (F := F) d L _ _))); iexact T3
    isplitl [T4]; · iapply (Entails.of_eq (row_val (F := F) d L hc 4 f2 f3 _ (pay_b0 (F := F) d L _ _))); iexact T4
    isplitl [T5]; · iapply (Entails.of_eq (row_val (F := F) d L hc 5 f2 f3 _ (pay_b1 (F := F) d L _ _))); iexact T5
    isplitl [T6]; · iapply (Entails.of_eq (row_val (F := F) d L hc 6 f2 f3 _ (pay_b0 (F := F) d L _ _))); iexact T6
    isplitl [T7]; · iapply (Entails.of_eq (row_val (F := F) d L hc 7 f2 f3 _ (pay_b1 (F := F) d L _ _))); iexact T7
    isplitl [T8]; · iapply (Entails.of_eq (row_val (F := F) d L hc 8 f2 f3 _ (pay_b0 (F := F) d L _ _))); iexact T8
    isplitl [T9]; · iapply (Entails.of_eq (row_val (F := F) d L hc 9 f2 f3 _ (pay_b1 (F := F) d L _ _))); iexact T9
    isplitl [T10]; · iapply (Entails.of_eq (row_val (F := F) d L hc 10 f2 f3 _ (pay_b0 (F := F) d L _ _))); iexact T10
    iapply (Entails.of_eq (row_val (F := F) d L hc 11 f2 f3 _ (pay_b1 (F := F) d L _ _))); iexact T11
  isplitl [Ha' Hb' Hbufs]
  · isplitl [Ha']; · iexists _; iapply (Entails.of_eq (pts_b0V (F := F) d L _)); iexact Ha'
    isplitl [Hb']; · iexists _; iapply (Entails.of_eq (pts_b1V (F := F) d L _)); iexact Hb'
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists _; isplitr
  swap; · iexact HO
  ipureintro
  iterate 24 (apply ins_ok)
  exact fun p hp => .inl hp

end Tile

end Cert.Proof.KB

end
-- ==== Proof.TileOblB.lean ====
/-
  A worker's task, as the launch theorem asks for it: the body table's row for a vector subcore is the kernel at that
  subcore's coordinates, so the obligation is the task's proof at the coordinates `(c, s)` with what the handshake
  handed it, the recorded waits widened to the call's.
-/
import proofs.«216314_g7602092114391_cont_9to1c4b_856_27_alg».proof.Proof.CommonB
import proofs.«216314_g7602092114391_cont_9to1c4b_856_27_alg».proof.Proof.LayoutValue
import proofs.«216314_g7602092114391_cont_9to1c4b_856_27_alg».proof.Proof.PatternChain
import proofs.«216314_g7602092114391_cont_9to1c4b_856_27_alg».proof.Proof.PayB
import proofs.«216314_g7602092114391_cont_9to1c4b_856_27_alg».proof.Proof.TileB
import proofs.«216314_g7602092114391_cont_9to1c4b_856_27_alg».proof.Proof.Gen.Kernel.Launch
import proofs.«216314_g7602092114391_cont_9to1c4b_856_27_alg».proof.Proof.Gen.Kernel.Points
import Idealize.ShloMosaic.Lib.Pipeline.Regions

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__lambda_ (coordsV c s)
          (Memref.whole main_v2_scv) (Memref.isWhole_whole _) (Memref.whole main_v3_scv) (Memref.isWhole_whole _)
          (Memref.whole cc1_scratch0) (Memref.isWhole_whole _) (Memref.whole cc1_scratch1) (Memref.isWhole_whole _)
          cc1_scratch2 cc1_scratch3 cc1_scratch4 cc1_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (F := F) d (coordsV ⟨_, hci.1⟩ ⟨_, hci.2⟩) hF (f2 m d) (f3 m d) O W hO).trans (wp_mono frame _ _ fun _ => obl_post)

end Cert.Proof.KB

end
-- ==== Proof.ValuesB.lean ====
/-
  What @main's buffers hold at the end, read stage by stage through the valuations `V0 … V5`: a host line rewrites the
  buffers its operations write and leaves the rest, and each of the two copies rewrites its one result buffer. The
  argument is never written. The first line reshapes it into groups and writes the two tables; the TensorCore copy
  leaves every group's first 1536 rows in `%1`; the second line reshapes the argument into chunks; the SparseCore copy
  leaves the target chunks in `%3`; the last line reshapes `%1` and `%3` back to image shape — a reshape keeps row-major
  position, so these are the specification's input and target images — and carries each table through its chain of two
  broadcasts and two reshapes to the array every row of which is the table: the specification's two patterns.
-/
import proofs.«216314_g7602092114391_cont_9to1c4b_856_27_alg».proof.Proof.PayB
import proofs.«216314_g7602092114391_cont_9to1c4b_856_27_alg».proof.Proof.LayoutValue
import proofs.«216314_g7602092114391_cont_9to1c4b_856_27_alg».proof.Proof.PatternChain
import Idealize.ShloMosaic.Lib.StableHlo.Run

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.StableHlo
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-! ## After the first line: the two tables and the reshape into groups -/

theorem V1_arg (d : Dev nD) : V1 m d rArg = m (argLoc d) := by
  unfold V1
  after_results
  rfl

theorem V1_v0 (d : Dev nD) : V1 m d rV0 = shapeCast S64x2304x256 (m (argLoc d)) shapeCasts_S8x24x3x256x256_S64x2304x256 := by
  unfold V1
  after_results
  rfl

theorem V1_c (d : Dev nD) : V1 m d (Proc.devRef .tc main_c) = fun i => lit0 (S16.rowMajor i) := by
  unfold V1
  after_results
  rfl

theorem V1_c0 (d : Dev nD) : V1 m d (Proc.devRef .tc main_c_0) = fun i => lit1 (S8.rowMajor i) := by
  unfold V1
  after_results
  rfl

/-! ## After the TensorCore copy: the result array holds every group's first 1536 rows -/

theorem V2_arg (d : Dev nD) : V2 m d rArg = m (argLoc d) := by
  unfold V2
  rw [Function.update_of_ne (by decide)]
  exact V1_arg m d

theorem V2_v1 (d : Dev nD) :
    V2 m d rV1 = Cert.Spec.headRows (shapeCast S64x2304x256 (m (argLoc d)) shapeCasts_S8x24x3x256x256_S64x2304x256) := by
  unfold V2
  rw [Function.update_self, V1_v0]

theorem V2_c (d : Dev nD) : V2 m d (Proc.devRef .tc main_c) = fun i => lit0 (S16.rowMajor i) := by
  unfold V2
  rw [Function.update_of_ne (by decide)]
  exact V1_c m d

theorem V2_c0 (d : Dev nD) : V2 m d (Proc.devRef .tc main_c_0) = fun i => lit1 (S8.rowMajor i) := by
  unfold V2
  rw [Function.update_of_ne (by decide)]
  exact V1_c0 m d

/-! ## After the second line: the reshape into chunks -/

theorem V3_v2 (d : Dev nD) : V3 m d rV2 = shapeCast S1152x128x256 (m (argLoc d)) shapeCasts_S8x24x3x256x256_S1152x128x256 := by
  unfold V3
  after_results
  rw [V2_arg]
  rfl

theorem V3_arg (d : Dev nD) : V3 m d rArg = m (argLoc d) := by
  unfold V3
  after_results
  exact V2_arg m d

theorem V3_v1 (d : Dev nD) :
    V3 m d rV1 = Cert.Spec.headRows (shapeCast S64x2304x256 (m (argLoc d)) shapeCasts_S8x24x3x256x256_S64x2304x256) := by
  unfold V3
  after_results
  exact V2_v1 m d

theorem V3_c (d : Dev nD) : V3 m d (Proc.devRef .tc main_c) = fun i => lit0 (S16.rowMajor i) := by
  unfold V3
  after_results
  exact V2_c m d

theorem V3_c0 (d : Dev nD) : V3 m d (Proc.devRef .tc main_c_0) = fun i => lit1 (S8.rowMajor i) := by
  unfold V3
  after_results
  exact V2_c0 m d

/-! ## After the SparseCore copy: the target array holds the target chunks -/

theorem V4_arg (d : Dev nD) : V4 m d rArg = m (argLoc d) := by
  unfold V4
  rw [Function.update_of_ne (by decide)]
  exact V3_arg m d

theorem V4_v1 (d : Dev nD) :
    V4 m d rV1 = Cert.Spec.headRows (shapeCast S64x2304x256 (m (argLoc d)) shapeCasts_S8x24x3x256x256_S64x2304x256) := by
  unfold V4
  rw [Function.update_of_ne (by decide)]
  exact V3_v1 m d

theorem V4_v3 (d : Dev nD) :
    V4 m d rV3 = Cert.Spec.tarChunks (shapeCast S1152x128x256 (m (argLoc d)) shapeCasts_S8x24x3x256x256_S1152x128x256) := by
  unfold V4
  rw [Function.update_self, V3_v2]

theorem V4_c (d : Dev nD) : V4 m d (Proc.devRef .tc main_c) = fun i => lit0 (S16.rowMajor i) := by
  unfold V4
  rw [Function.update_of_ne (by decide)]
  exact V3_c m d

theorem V4_c0 (d : Dev nD) : V4 m d (Proc.devRef .tc main_c_0) = fun i => lit1 (S8.rowMajor i) := by
  unfold V4
  rw [Function.update_of_ne (by decide)]
  exact V3_c0 m d

/-! ## At the end -/

/-- The two tables are the specification's. -/
theorem lit0_eq : lit0 = Cert.Spec.litIn := funext (by decide)
theorem lit1_eq : lit1 = Cert.Spec.litTar := funext (by decide)

/-- The argument is never written. -/
theorem V5_arg (d : Dev nD) : V5 m d rArg = m (argLoc d) := by
  unfold V5
  after_results
  exact V4_arg m d

/-- The input images: the argument through the group layout, reshaped back. -/
theorem V5_v4 (d : Dev nD) : V5 m d rV4 = Cert.Spec.inputImg (m (argLoc d)) := by
  unfold V5
  after_results
  rw [V4_v1]
  exact Cert.Spec.inputImg_of_reshapes (m (argLoc d)) _ _

/-- The target images: the argument through the chunk layout, reshaped back. -/
theorem V5_v5 (d : Dev nD) : V5 m d rV5 = Cert.Spec.targetImg (m (argLoc d)) := by
  unfold V5
  after_results
  rw [V4_v3]
  exact Cert.Spec.targetImg_of_reshapes (m (argLoc d)) _ _

/-- The input pattern: the table of 16 view numbers, every row. -/
theorem V5_v9 (d : Dev nD) : V5 m d rV9 = Cert.Spec.inPat := by
  unfold V5
  after_results
  rw [V4_c]
  refine (Cert.PatternChain.chain16 lit0 _ _ _ _).trans ?_
  rw [lit0_eq]
  rfl

/-- The target pattern: the table of 8 view numbers, every row. -/
theorem V5_v13 (d : Dev nD) : V5 m d rV13 = Cert.Spec.tarPat := by
  unfold V5
  after_results
  rw [V4_c0]
  refine (Cert.PatternChain.chain8 lit1 _ _ _ _).trans ?_
  rw [lit1_eq]
  rfl

end Cert.Proof.KB

end
-- ==== Proof.RunB.lean ====
/-
  The program's run: every weakly fair execution of the device's 35 threads terminates, nothing faulting, and in every
  final state the four results are the specification's functions of the argument, which is unchanged.
-/
import proofs.«216314_g7602092114391_cont_9to1c4b_856_27_alg».proof.Proof.CommonB
import proofs.«216314_g7602092114391_cont_9to1c4b_856_27_alg».proof.Proof.LayoutValue
import proofs.«216314_g7602092114391_cont_9to1c4b_856_27_alg».proof.Proof.PatternChain
import proofs.«216314_g7602092114391_cont_9to1c4b_856_27_alg».proof.Proof.HmainB
import proofs.«216314_g7602092114391_cont_9to1c4b_856_27_alg».proof.Proof.TileOblB
import proofs.«216314_g7602092114391_cont_9to1c4b_856_27_alg».proof.Proof.FinB
import proofs.«216314_g7602092114391_cont_9to1c4b_856_27_alg».proof.Proof.ValuesB
import proofs.«216314_g7602092114391_cont_9to1c4b_856_27_alg».proof.Proof.Gen.Kernel.Launch
import proofs.«216314_g7602092114391_cont_9to1c4b_856_27_alg».proof.Proof.Gen.Kernel.Points
import Idealize.ShloMosaic.Lib.Pipeline.Regions

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within wp_seq)
open Idealize.ShloMosaic.Tactic

variable {F : FTy → Type}

local notation "𝕄" => MT nD τ sig (HIx 1) (Elt F) ℕ UU ℕ

open Idealize.ShloMosaic.TcCoe

variable (m : (ℓ : Loc nD τ sig) → Buf (Elt F) ℓ) (ρ : Dev nD → PrngReg)

variable [FloatOps F] [∀ e, Nonempty (Elt F e)]

/-- What the run ends in: the results named, the argument kept. -/
def QC : PUnit × MemSt nD τ sig (Elt F) → Prop := fun r => ∀ c : Dev nD,
    r.2.mem ((c.tc : Thread nD τ).loc main_v4) = Cert.Spec.inputImg (m ((c.tc : Thread nD τ).loc main_arg0))
  ∧ r.2.mem ((c.tc : Thread nD τ).loc main_v5) = Cert.Spec.targetImg (m ((c.tc : Thread nD τ).loc main_arg0))
  ∧ r.2.mem ((c.tc : Thread nD τ).loc main_v9) = Cert.Spec.inPat
  ∧ r.2.mem ((c.tc : Thread nD τ).loc main_v13) = Cert.Spec.tarPat
  ∧ r.2.mem ((c.tc : Thread nD τ).loc main_arg0) = m ((c.tc : Thread nD τ).loc main_arg0)

theorem run_main : θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (G (F := F)) (FIN m) (u₀ (F := F)) (sep_elim_left.trans (hu₀ m)) (hmain m ρ) (fq m) (hfin m) (QC m)
    (fun s' h c => by
      obtain ⟨h4, h5, h9, h13, ha⟩ := h c
      exact ⟨h4.trans (V5_v4 m c), h5.trans (V5_v5 m c), h9.trans (V5_v9 m c), h13.trans (V5_v13 m c), ha.trans (V5_arg m c)⟩)

end Cert.Proof.KB

end
-- ==== Proof.RefRun.lean ====
/-
  The reference program's @main as the LIST of its 50 host operations, and what its result buffers hold once the list has
  run from any contents: the two patterns are the literal tables pushed through their four layout operations; each image
  result is the gather of the argument at the start indices built from the batch counter and the pattern, each with the
  wrap-around of a negative index applied. Stated over an arbitrary valuation, then for every execution of the program.
-/
import proofs.«216314_g7602092114391_cont_9to1c4b_856_27_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 50 operations, in order. -/
abbrev ops : List (HloOp τ sig (Elt F)) :=
  [
    StableHlo.nullary main_c (fun i => lit0 (S16.rowMajor i)),
    StableHlo.nullary main_c_0 (fun i => lit1 (S8.rowMajor i)),
    StableHlo.unary main_c main_v0 (broadcastInDim S1x16 ![1] bcast_S16_S1x16_1 : (⟨S16, .i32⟩ : BufTy).Contents (Elt F) → (⟨S1x16, .i32⟩ : BufTy).Contents (Elt F)),
    StableHlo.reshape main_v0 main_v1 rfl shapeCasts_S1x16_S1x1x1x16,
    StableHlo.unary main_v1 main_v2 (broadcastInDim S8x1x1x16 ![0, 1, 2, 3] bcast_S1x1x1x16_S8x1x1x16_0_1_2_3 : (⟨S1x1x1x16, .i32⟩ : BufTy).Contents (Elt F) → (⟨S8x1x1x16, .i32⟩ : BufTy).Contents (Elt F)),
    StableHlo.reshape main_v2 main_v3 rfl shapeCasts_S8x1x1x16_S8x16,
    StableHlo.unary main_c_0 main_v4 (broadcastInDim S1x8 ![1] bcast_S8_S1x8_1 : (⟨S8, .i32⟩ : BufTy).Contents (Elt F) → (⟨S1x8, .i32⟩ : BufTy).Contents (Elt F)),
    StableHlo.reshape main_v4 main_v5 rfl shapeCasts_S1x8_S1x1x1x8,
    StableHlo.unary main_v5 main_v6 (broadcastInDim S8x1x1x8 ![0, 1, 2, 3] bcast_S1x1x1x8_S8x1x1x8_0_1_2_3 : (⟨S1x1x1x8, .i32⟩ : BufTy).Contents (Elt F) → (⟨S8x1x1x8, .i32⟩ : BufTy).Contents (Elt F)),
    StableHlo.reshape main_v6 main_v7 rfl shapeCasts_S8x1x1x8_S8x8,
    StableHlo.nullary main_v8 (iotaInDim S8 32 0),
    StableHlo.unary main_v8 main_v9 (broadcastInDim S8x1 ![0] bcast_S8_S8x1_0 : (⟨S8, .i32⟩ : BufTy).Contents (Elt F) → (⟨S8x1, .i32⟩ : BufTy).Contents (Elt F)),
    StableHlo.nullary main_c_1 (constantI S_ 32 0#32),
    StableHlo.unary main_c_1 main_v10 (broadcastInDim S8x1 ![] bcast_S_S8x1 : (⟨S_, .i32⟩ : BufTy).Contents (Elt F) → (⟨S8x1, .i32⟩ : BufTy).Contents (Elt F)),
    StableHlo.binary main_v9 main_v10 main_v11 (cmpi .slt : (⟨S8x1, .i32⟩ : BufTy).Contents (Elt F) → (⟨S8x1, .i32⟩ : BufTy).Contents (Elt F) → (⟨S8x1, .i1⟩ : BufTy).Contents (Elt F)),
    StableHlo.nullary main_c_2 (constantI S_ 32 8#32),
    StableHlo.unary main_c_2 main_v12 (broadcastInDim S8x1 ![] bcast_S_S8x1 : (⟨S_, .i32⟩ : BufTy).Contents (Elt F) → (⟨S8x1, .i32⟩ : BufTy).Contents (Elt F)),
    StableHlo.binary main_v9 main_v12 main_v13 (addi : (⟨S8x1, .i32⟩ : BufTy).Contents (Elt F) → (⟨S8x1, .i32⟩ : BufTy).Contents (Elt F) → (⟨S8x1, .i32⟩ : BufTy).Contents (Elt F)),
    StableHlo.ternary main_v11 main_v13 main_v9 main_v14 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.nullary main_c_3 (constantI S_ 32 0#32),
    StableHlo.unary main_c_3 main_v15 (broadcastInDim S8x16 ![] bcast_S_S8x16 : (⟨S_, .i32⟩ : BufTy).Contents (Elt F) → (⟨S8x16, .i32⟩ : BufTy).Contents (Elt F)),
    StableHlo.binary main_v3 main_v15 main_v16 (cmpi .slt : (⟨S8x16, .i32⟩ : BufTy).Contents (Elt F) → (⟨S8x16, .i32⟩ : BufTy).Contents (Elt F) → (⟨S8x16, .i1⟩ : BufTy).Contents (Elt F)),
    StableHlo.nullary main_c_4 (constantI S_ 32 24#32),
    StableHlo.unary main_c_4 main_v17 (broadcastInDim S8x16 ![] bcast_S_S8x16 : (⟨S_, .i32⟩ : BufTy).Contents (Elt F) → (⟨S8x16, .i32⟩ : BufTy).Contents (Elt F)),
    StableHlo.binary main_v3 main_v17 main_v18 (addi : (⟨S8x16, .i32⟩ : BufTy).Contents (Elt F) → (⟨S8x16, .i32⟩ : BufTy).Contents (Elt F) → (⟨S8x16, .i32⟩ : BufTy).Contents (Elt F)),
    StableHlo.ternary main_v16 main_v18 main_v3 main_v19 (select : (⟨S8x16, .i1⟩ : BufTy).Contents (Elt F) → (⟨S8x16, .i32⟩ : BufTy).Contents (Elt F) → (⟨S8x16, .i32⟩ : BufTy).Contents (Elt F) → (⟨S8x16, .i32⟩ : BufTy).Contents (Elt F)),
    StableHlo.unary main_v14 main_v20 (broadcastInDim S8x16 ![0, 1] bcast_S8x1_S8x16_0_1 : (⟨S8x1, .i32⟩ : BufTy).Contents (Elt F) → (⟨S8x16, .i32⟩ : BufTy).Contents (Elt F)),
    StableHlo.unary main_v20 main_v21 (broadcastInDim S8x16x1 ![0, 1] bcast_S8x16_S8x16x1_0_1 : (⟨S8x16, .i32⟩ : BufTy).Contents (Elt F) → (⟨S8x16x1, .i32⟩ : BufTy).Contents (Elt F)),
    StableHlo.unary main_v19 main_v22 (broadcastInDim S8x16x1 ![0, 1] bcast_S8x16_S8x16x1_0_1 : (⟨S8x16, .i32⟩ : BufTy).Contents (Elt F) → (⟨S8x16x1, .i32⟩ : BufTy).Contents (Elt F)),
    StableHlo.binary main_v21 main_v22 main_v23 ((fun a b => concatenate S8x16x2 2 [⟨S8x16x1, a⟩, ⟨S8x16x1, b⟩] concatenates_S8x16x1_S8x16x1_S8x16x2_d2) : (⟨S8x16x1, .i32⟩ : BufTy).Contents (Elt F) → (⟨S8x16x1, .i32⟩ : BufTy).Contents (Elt F) → (⟨S8x16x2, .i32⟩ : BufTy).Contents (Elt F)),
    StableHlo.binary main_arg0 main_v23 main_v24 ((fun x i => Host.gather gather_S8x24x3x256x256_S8x16x2_S8x16x3x256x256_234_01_n_n_01_2_113256256 x i) : (⟨S8x24x3x256x256, .f32⟩ : BufTy).Contents (Elt F) → (⟨S8x16x2, .i32⟩ : BufTy).Contents (Elt F) → (⟨S8x16x3x256x256, .f32⟩ : BufTy).Contents (Elt F)),
    StableHlo.nullary main_c_5 (constantI S_ 32 0#32),
    StableHlo.unary main_c_5 main_v25 (broadcastInDim S8x1 ![] bcast_S_S8x1 : (⟨S_, .i32⟩ : BufTy).Contents (Elt F) → (⟨S8x1, .i32⟩ : BufTy).Contents (Elt F)),
    StableHlo.binary main_v9 main_v25 main_v26 (cmpi .slt : (⟨S8x1, .i32⟩ : BufTy).Contents (Elt F) → (⟨S8x1, .i32⟩ : BufTy).Contents (Elt F) → (⟨S8x1, .i1⟩ : BufTy).Contents (Elt F)),
    StableHlo.nullary main_c_6 (constantI S_ 32 8#32),
    StableHlo.unary main_c_6 main_v27 (broadcastInDim S8x1 ![] bcast_S_S8x1 : (⟨S_, .i32⟩ : BufTy).Contents (Elt F) → (⟨S8x1, .i32⟩ : BufTy).Contents (Elt F)),
    StableHlo.binary main_v9 main_v27 main_v28 (addi : (⟨S8x1, .i32⟩ : BufTy).Contents (Elt F) → (⟨S8x1, .i32⟩ : BufTy).Contents (Elt F) → (⟨S8x1, .i32⟩ : BufTy).Contents (Elt F)),
    StableHlo.ternary main_v26 main_v28 main_v9 main_v29 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.nullary main_c_7 (constantI S_ 32 0#32),
    StableHlo.unary main_c_7 main_v30 (broadcastInDim S8x8 ![] bcast_S_S8x8 : (⟨S_, .i32⟩ : BufTy).Contents (Elt F) → (⟨S8x8, .i32⟩ : BufTy).Contents (Elt F)),
    StableHlo.binary main_v7 main_v30 main_v31 (cmpi .slt : (⟨S8x8, .i32⟩ : BufTy).Contents (Elt F) → (⟨S8x8, .i32⟩ : BufTy).Contents (Elt F) → (⟨S8x8, .i1⟩ : BufTy).Contents (Elt F)),
    StableHlo.nullary main_c_8 (constantI S_ 32 24#32),
    StableHlo.unary main_c_8 main_v32 (broadcastInDim S8x8 ![] bcast_S_S8x8 : (⟨S_, .i32⟩ : BufTy).Contents (Elt F) → (⟨S8x8, .i32⟩ : BufTy).Contents (Elt F)),
    StableHlo.binary main_v7 main_v32 main_v33 (addi : (⟨S8x8, .i32⟩ : BufTy).Contents (Elt F) → (⟨S8x8, .i32⟩ : BufTy).Contents (Elt F) → (⟨S8x8, .i32⟩ : BufTy).Contents (Elt F)),
    StableHlo.ternary main_v31 main_v33 main_v7 main_v34 (select : (⟨S8x8, .i1⟩ : BufTy).Contents (Elt F) → (⟨S8x8, .i32⟩ : BufTy).Contents (Elt F) → (⟨S8x8, .i32⟩ : BufTy).Contents (Elt F) → (⟨S8x8, .i32⟩ : BufTy).Contents (Elt F)),
    StableHlo.unary main_v29 main_v35 (broadcastInDim S8x8 ![0, 1] bcast_S8x1_S8x8_0_1 : (⟨S8x1, .i32⟩ : BufTy).Contents (Elt F) → (⟨S8x8, .i32⟩ : BufTy).Contents (Elt F)),
    StableHlo.unary main_v35 main_v36 (broadcastInDim S8x8x1 ![0, 1] bcast_S8x8_S8x8x1_0_1 : (⟨S8x8, .i32⟩ : BufTy).Contents (Elt F) → (⟨S8x8x1, .i32⟩ : BufTy).Contents (Elt F)),
    StableHlo.unary main_v34 main_v37 (broadcastInDim S8x8x1 ![0, 1] bcast_S8x8_S8x8x1_0_1 : (⟨S8x8, .i32⟩ : BufTy).Contents (Elt F) → (⟨S8x8x1, .i32⟩ : BufTy).Contents (Elt F)),
    StableHlo.binary main_v36 main_v37 main_v38 ((fun a b => concatenate S8x8x2 2 [⟨S8x8x1, a⟩, ⟨S8x8x1, b⟩] concatenates_S8x8x1_S8x8x1_S8x8x2_d2) : (⟨S8x8x1, .i32⟩ : BufTy).Contents (Elt F) → (⟨S8x8x1, .i32⟩ : BufTy).Contents (Elt F) → (⟨S8x8x2, .i32⟩ : BufTy).Contents (Elt F)),
    StableHlo.binary main_arg0 main_v38 main_v39 ((fun x i => Host.gather gather_S8x24x3x256x256_S8x8x2_S8x8x3x256x256_234_01_n_n_01_2_113256256 x i) : (⟨S8x24x3x256x256, .f32⟩ : BufTy).Contents (Elt F) → (⟨S8x8x2, .i32⟩ : BufTy).Contents (Elt F) → (⟨S8x8x3x256x256, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub ..⟩

/-! ## The contents of the buffers the results are read from -/

/-- The input pattern: the table of 16 words through its four layout operations. -/
abbrev patIn : S8x16.Idx → BitVec 32 :=
  shapeCast S8x16 (broadcastInDim S8x1x1x16 ![0, 1, 2, 3] bcast_S1x1x1x16_S8x1x1x16_0_1_2_3
    (shapeCast S1x1x1x16 (broadcastInDim S1x16 ![1] bcast_S16_S1x16_1 (fun i => lit0 (S16.rowMajor i))) shapeCasts_S1x16_S1x1x1x16))
    shapeCasts_S8x1x1x16_S8x16

/-- The target pattern: the table of 8 words through its four layout operations. -/
abbrev patTar : S8x8.Idx → BitVec 32 :=
  shapeCast S8x8 (broadcastInDim S8x1x1x8 ![0, 1, 2, 3] bcast_S1x1x1x8_S8x1x1x8_0_1_2_3
    (shapeCast S1x1x1x8 (broadcastInDim S1x8 ![1] bcast_S8_S1x8_1 (fun i => lit1 (S8.rowMajor i))) shapeCasts_S1x8_S1x1x1x8))
    shapeCasts_S8x1x1x8_S8x8

/-- The batch counter as a column. -/
abbrev batchCol : S8x1.Idx → BitVec 32 := broadcastInDim S8x1 ![0] bcast_S8_S8x1_0 (iotaInDim S8 32 0)

/-- The batch counter with a negative entry wrapped around by the batch size. -/
abbrev batchWrap : S8x1.Idx → BitVec 32 :=
  select (cmpi .slt batchCol (broadcastInDim S8x1 ![] bcast_S_S8x1 (constantI S_ 32 0#32)))
    (addi batchCol (broadcastInDim S8x1 ![] bcast_S_S8x1 (constantI S_ 32 8#32))) batchCol

/-- The input pattern with a negative entry wrapped around by the number of views. -/
abbrev inWrap : S8x16.Idx → BitVec 32 :=
  select (cmpi .slt patIn (broadcastInDim S8x16 ![] bcast_S_S8x16 (constantI S_ 32 0#32)))
    (addi patIn (broadcastInDim S8x16 ![] bcast_S_S8x16 (constantI S_ 32 24#32))) patIn

/-- The target pattern with a negative entry wrapped around by the number of views. -/
abbrev tarWrap : S8x8.Idx → BitVec 32 :=
  select (cmpi .slt patTar (broadcastInDim S8x8 ![] bcast_S_S8x8 (constantI S_ 32 0#32)))
    (addi patTar (broadcastInDim S8x8 ![] bcast_S_S8x8 (constantI S_ 32 24#32))) patTar

/-- The input gather's start indices: (batch, view) per batch entry and input slot. -/
abbrev idxIn : S8x16x2.Idx → BitVec 32 :=
  concatenate S8x16x2 2
    [⟨S8x16x1, broadcastInDim S8x16x1 ![0, 1] bcast_S8x16_S8x16x1_0_1 (broadcastInDim S8x16 ![0, 1] bcast_S8x1_S8x16_0_1 batchWrap)⟩,
     ⟨S8x16x1, broadcastInDim S8x16x1 ![0, 1] bcast_S8x16_S8x16x1_0_1 inWrap⟩] concatenates_S8x16x1_S8x16x1_S8x16x2_d2

/-- The target gather's start indices: (batch, view) per batch entry and target slot. -/
abbrev idxTar : S8x8x2.Idx → BitVec 32 :=
  concatenate S8x8x2 2
    [⟨S8x8x1, broadcastInDim S8x8x1 ![0, 1] bcast_S8x8_S8x8x1_0_1 (broadcastInDim S8x8 ![0, 1] bcast_S8x1_S8x8_0_1 batchWrap)⟩,
     ⟨S8x8x1, broadcastInDim S8x8x1 ![0, 1] bcast_S8x8_S8x8x1_0_1 tarWrap⟩] concatenates_S8x8x1_S8x8x1_S8x8x2_d2

/-! ## What the list leaves in each result buffer, from any contents -/

theorem after_v3 (V : Valuation τ sig (Elt F)) : after ops V main_v3 = patIn := by
  after_results_simp
  rfl

theorem after_v7 (V : Valuation τ sig (Elt F)) : after ops V main_v7 = patTar := by
  after_results_simp
  rfl

theorem after_arg0 (V : Valuation τ sig (Elt F)) : after ops V main_arg0 = V main_arg0 := by
  after_results_simp

set_option maxRecDepth 100000 in
theorem after_v24 (V : Valuation τ sig (Elt F)) :
    after ops V main_v24 = Host.gather gather_S8x24x3x256x256_S8x16x2_S8x16x3x256x256_234_01_n_n_01_2_113256256 (V main_arg0) idxIn := by
  after_results_simp
  rfl

set_option maxRecDepth 100000 in
theorem after_v39 (V : Valuation τ sig (Elt F)) :
    after ops V main_v39 = Host.gather gather_S8x24x3x256x256_S8x8x2_S8x8x3x256x256_234_01_n_n_01_2_113256256 (V main_arg0) idxTar := by
  after_results_simp
  rfl

/-- On every device, for any float values, from any memory with zero counters: every weakly fair execution of @main
    terminates with each result at these terms of the argument, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
          = Host.gather gather_S8x24x3x256x256_S8x16x2_S8x16x3x256x256_234_01_n_n_01_2_113256256 (m ((c.tc : Thread nD τ).loc main_arg0)) idxIn
      ∧ r.2.mem ((c.tc : Thread nD τ).loc main_v39)
          = Host.gather gather_S8x24x3x256x256_S8x8x2_S8x8x3x256x256_234_01_n_n_01_2_113256256 (m ((c.tc : Thread nD τ).loc main_arg0)) idxTar
      ∧ r.2.mem ((c.tc : Thread nD τ).loc main_v3) = patIn
      ∧ r.2.mem ((c.tc : Thread nD τ).loc main_v7) = patTar
      ∧ r.2.mem ((c.tc : Thread nD τ).loc main_arg0) = m ((c.tc : Thread nD τ).loc main_arg0) :=
  (θ_run defs _ _).mono (fun _ h c => ⟨(h c main_v24).trans (after_v24 _), (h c main_v39).trans (after_v39 _),
      (h c main_v3).trans (after_v3 _), (h c main_v7).trans (after_v7 _), (h c main_arg0).trans (after_arg0 _)⟩)
    (run_seq scopedRefs_eq scopedSems_eq defs main (fun _ => ops) main_eq (fun _ => ops_sub) m ρ)

end Cert.ReferenceIdeal.RefRun

end
-- ==== Proof.RefGather.lean ====
/-
  A gather of whole `C × H × W` blocks out of a `B × V × C × H × W` array, one block per entry of an `R × N` table of
  start indices `(b, v)`: result element `(r, n, c, h, w)` is the operand's element `(b, v, c, h, w)` where `b` and `v`
  are the two words of the table's entry `(r, n)`, each read as a signed integer and clamped into its axis.
-/
import Idealize.ShloMosaic.Lib.ValueIdx

noncomputable section

namespace Cert.RefGather

open Idealize.ShloMosaic Idealize.ShloMosaic.ValueIdx

variable {α : Type}

/-- The dimension numbers: the result's last three axes are the block's, the operand's first two axes are collapsed
    and are the ones the start index names, the start indices' last axis holds the index vector. -/
abbrev viewDims (B V C H W R N : Nat)
    (wf : GatherDims.WF ⟨5, ![B, V, C, H, W]⟩ ⟨3, ![R, N, 2]⟩ ⟨5, ![R, N, C, H, W]⟩ [2, 3, 4] [0, 1] [] [0, 1] [] 2 ![1, 1, C, H, W]) :
    GatherDims ⟨5, ![B, V, C, H, W]⟩ ⟨3, ![R, N, 2]⟩ ⟨5, ![R, N, C, H, W]⟩ where
  offsetDims := [2, 3, 4]
  collapsedSliceDims := [0, 1]
  operandBatchingDims := []
  startIndicesBatchingDims := []
  startIndexMap := [0, 1]
  indexVectorDim := 2
  sliceSizes := ![1, 1, C, H, W]
  wf := wf

section
variable {B V C H W R N wd : Nat}
  (wf : GatherDims.WF ⟨5, ![B, V, C, H, W]⟩ ⟨3, ![R, N, 2]⟩ ⟨5, ![R, N, C, H, W]⟩ [2, 3, 4] [0, 1] [] [0, 1] [] 2 ![1, 1, C, H, W])
  (idx : IVec ⟨3, ![R, N, 2]⟩ wd) (r : Fin R) (n : Fin N) (c : Fin C) (h : Fin H) (w : Fin W)

/-- On a collapsed axis the start index names, the operand coordinate is the start index's word, clamped. -/
theorem coord_start (a : Fin 5) (k : Fin 2) (hm : a ∈ ([0, 1] : List (Fin 5))) (hc : a ∈ ([0, 1] : List (Fin 5)))
    (hk : ∀ hlt, (viewDims B V C H W R N wf).siIdx (ix5 r n c h w) ⟨List.idxOf a ([0, 1] : List (Fin 5)), hlt⟩ = ix3 r n k) :
    (viewDims B V C H W R N wf).start (ix5 r n c h w) idx a + (viewDims B V C H W R N wf).batchCoord (ix5 r n c h w) a
      + (viewDims B V C H W R N wf).offCoord (ix5 r n c h w) a
      = min (idx (ix3 r n k)).toInt.toNat ((![B, V, C, H, W] : Fin 5 → Nat) a - (![1, 1, C, H, W] : Fin 5 → Nat) a) := by
  rw [GatherDims.batchCoord_eq_zero _ _ _ List.not_mem_nil, Nat.add_zero,
    GatherDims.offCoord_eq_zero _ _ _ (fun h => ((GatherDims.mem_sKept _ _).mp h).1 hc), Nat.add_zero]
  unfold GatherDims.start
  rw [dif_pos (show a ∈ (viewDims B V C H W R N wf).startIndexMap from hm)]
  rw [hk]

/-- On a block axis the operand coordinate is the result's coordinate on the offset axis at the same position. -/
theorem coord_off (a : Fin 5) (hm : a ∉ ([0, 1] : List (Fin 5))) :
    (viewDims B V C H W R N wf).start (ix5 r n c h w) idx a + (viewDims B V C H W R N wf).batchCoord (ix5 r n c h w) a
      + (viewDims B V C H W R N wf).offCoord (ix5 r n c h w) a
      = (viewDims B V C H W R N wf).offCoord (ix5 r n c h w) a := by
  rw [GatherDims.batchCoord_eq_zero _ _ _ List.not_mem_nil, Nat.add_zero]
  unfold GatherDims.start
  rw [dif_neg (show a ∉ (viewDims B V C H W R N wf).startIndexMap from hm), Nat.zero_add]

end

/-- The gather read at `(r, n, c, h, w)`: the operand at `(b, v, c, h, w)`, `b` and `v` the two words of the start
    index `(r, n)`, read signed and clamped. -/
theorem gather_view_apply {B V C H W R N wd : Nat} (hB : 0 < B) (hV : 0 < V)
    (wf : GatherDims.WF ⟨5, ![B, V, C, H, W]⟩ ⟨3, ![R, N, 2]⟩ ⟨5, ![R, N, C, H, W]⟩ [2, 3, 4] [0, 1] [] [0, 1] [] 2 ![1, 1, C, H, W])
    (x : (⟨5, ![B, V, C, H, W]⟩ : Shape).Idx → α) (idx : IVec ⟨3, ![R, N, 2]⟩ wd)
    (r : Fin R) (n : Fin N) (c : Fin C) (h : Fin H) (w : Fin W) :
    Host.gather (viewDims B V C H W R N wf) x idx (ix5 r n c h w)
      = x (ix5 (⟨min (idx (ix3 r n (0 : Fin 2))).toInt.toNat (B - 1), by omega⟩ : Fin B)
            (⟨min (idx (ix3 r n (1 : Fin 2))).toInt.toNat (V - 1), by omega⟩ : Fin V) c h w) := by
  have e0 := coord_start wf idx r n c h w (0 : Fin 5) (0 : Fin 2) (by decide) (by decide) (fun hlt => by
    funext b; refine Fin.ext ?_
    match b with
    | ⟨0, _⟩ => rfl
    | ⟨1, _⟩ => rfl
    | ⟨2, _⟩ => rfl)
  have e1 := coord_start wf idx r n c h w (1 : Fin 5) (1 : Fin 2) (by decide) (by decide) (fun hlt => by
    funext b; refine Fin.ext ?_
    match b with
    | ⟨0, _⟩ => rfl
    | ⟨1, _⟩ => rfl
    | ⟨2, _⟩ => rfl)
  have e2 := coord_off wf idx r n c h w (2 : Fin 5) (by decide)
  have e3 := coord_off wf idx r n c h w (3 : Fin 5) (by decide)
  have e4 := coord_off wf idx r n c h w (4 : Fin 5) (by decide)
  have o2 : (viewDims B V C H W R N wf).offCoord (ix5 r n c h w) (2 : Fin 5) = c.val := by
    unfold GatherDims.offCoord
    rw [dif_pos ((GatherDims.mem_sKept _ _).2 ⟨(by decide : (2 : Fin 5) ∉ ([0, 1] : List (Fin 5))), List.not_mem_nil⟩)]
    rfl
  have o3 : (viewDims B V C H W R N wf).offCoord (ix5 r n c h w) (3 : Fin 5) = h.val := by
    unfold GatherDims.offCoord
    rw [dif_pos ((GatherDims.mem_sKept _ _).2 ⟨(by decide : (3 : Fin 5) ∉ ([0, 1] : List (Fin 5))), List.not_mem_nil⟩)]
    rfl
  have o4 : (viewDims B V C H W R N wf).offCoord (ix5 r n c h w) (4 : Fin 5) = w.val := by
    unfold GatherDims.offCoord
    rw [dif_pos ((GatherDims.mem_sKept _ _).2 ⟨(by decide : (4 : Fin 5) ∉ ([0, 1] : List (Fin 5))), List.not_mem_nil⟩)]
    rfl
  unfold Host.gather
  congr 1
  funext a
  refine Fin.ext ?_
  match a with
  | ⟨0, _⟩ => exact e0
  | ⟨1, _⟩ => exact e1
  | ⟨2, _⟩ => exact e2.trans o2
  | ⟨3, _⟩ => exact e3.trans o3
  | ⟨4, _⟩ => exact e4.trans o4

end Cert.RefGather

end
-- ==== Proof.RefValue.lean ====
/-
  The reference's results as functions of its argument, index by index. The patterns are the literal tables, the same row
  for every batch entry. A start index of the gathers is (batch counter, view number): the counter lies in 0..7 and the
  view numbers in 0..23, so the wrap-around of a negative index never applies and the clamp into the axis is the identity;
  each image result is therefore the argument restricted to the pattern's views.
-/
import proofs.«216314_g7602092114391_cont_9to1c4b_856_27_alg».proof.Proof.RefRun
import proofs.«216314_g7602092114391_cont_9to1c4b_856_27_alg».proof.Proof.RefGather
import proofs.«216314_g7602092114391_cont_9to1c4b_856_27_alg».proof.Proof.PatternChain
import proofs.«216314_g7602092114391_cont_9to1c4b_856_27_alg».proof.Proof.Spec
import Idealize.ShloMosaic.Lib.Pipeline.Value

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

/-! ## The patterns -/

theorem lit0_eq : lit0 = Cert.Spec.litIn := funext (by decide)
theorem lit1_eq : lit1 = Cert.Spec.litTar := funext (by decide)

theorem patIn_eq : patIn = Cert.Spec.inPat := by
  refine (Cert.PatternChain.chain16 lit0 _ _ _ _).trans ?_
  rw [lit0_eq]
  rfl

theorem patTar_eq : patTar = Cert.Spec.tarPat := by
  refine (Cert.PatternChain.chain8 lit1 _ _ _ _).trans ?_
  rw [lit1_eq]
  rfl

theorem patIn_apply (r : Fin 8) (n : Fin 16) : patIn (ix2 r n) = Cert.Spec.litIn n := by
  rw [patIn_eq]; rfl

theorem patTar_apply (r : Fin 8) (g : Fin 8) : patTar (ix2 r g) = Cert.Spec.litTar g := by
  rw [patTar_eq]; rfl

/-! ## The start indices, word by word -/

/-- The batch column at row `r` is the word `r`. -/
theorem batchCol_apply (r : Fin 8) (z : Fin 1) : batchCol (ix2 r z) = BitVec.ofNat 32 r.val := by
  refine (broadcastInDim_apply _ _ _ (ix2 r z) (ix1 r) ?_).trans rfl
  intro a
  match a with
  | ⟨0, _⟩ => rfl

/-- The wrapped batch column at row `r`, as a word. -/
theorem batchWrap_apply (r : Fin 8) (z : Fin 1) :
    batchWrap (ix2 r z) = Scalar.select (IntOp.cmpi .slt (BitVec.ofNat 32 r.val) 0#32)
      (IntOp.addi (BitVec.ofNat 32 r.val) 8#32) (BitVec.ofNat 32 r.val) := by
  rw [← batchCol_apply r z]
  rfl

/-- The wrapped input pattern at `(r, n)`, as a word. -/
theorem inWrap_apply (r : Fin 8) (n : Fin 16) :
    inWrap (ix2 r n) = Scalar.select (IntOp.cmpi .slt (Cert.Spec.litIn n) 0#32)
      (IntOp.addi (Cert.Spec.litIn n) 24#32) (Cert.Spec.litIn n) := by
  rw [← patIn_apply r n]
  rfl

/-- The wrapped target pattern at `(r, g)`, as a word. -/
theorem tarWrap_apply (r : Fin 8) (g : Fin 8) :
    tarWrap (ix2 r g) = Scalar.select (IntOp.cmpi .slt (Cert.Spec.litTar g) 0#32)
      (IntOp.addi (Cert.Spec.litTar g) 24#32) (Cert.Spec.litTar g) := by
  rw [← patTar_apply r g]
  rfl

/-- The first word of the input start index `(r, n)`: the wrapped batch counter. -/
theorem idxIn_zero (r : Fin 8) (n : Fin 16) : idxIn (ix3 r n (0 : Fin 2)) = batchWrap (ix2 r (0 : Fin 1)) := by
  refine (concatenate_pair_apply_left (t := S8x16x2) (s₁ := S8x16x1) (s₂ := S8x16x1) (2 : Fin 3) _ _ _ (ix3 r n (0 : Fin 2)) rfl (ix3 r n (0 : Fin 1)) ?_).trans ?_
  · intro b
    match b with
    | ⟨0, _⟩ => rfl
    | ⟨1, _⟩ => rfl
    | ⟨2, _⟩ => rfl
  refine (broadcastInDim_apply _ _ _ (ix3 r n (0 : Fin 1)) (ix2 r n) ?_).trans ?_
  · intro a
    match a with
    | ⟨0, _⟩ => rfl
    | ⟨1, _⟩ => rfl
  refine (broadcastInDim_apply _ _ _ (ix2 r n) (ix2 r (0 : Fin 1)) ?_)
  intro a
  match a with
  | ⟨0, _⟩ => rfl
  | ⟨1, _⟩ => rfl

/-- The second word of the input start index `(r, n)`: the wrapped view number. -/
theorem idxIn_one (r : Fin 8) (n : Fin 16) : idxIn (ix3 r n (1 : Fin 2)) = inWrap (ix2 r n) := by
  refine (concatenate_pair_apply_right (t := S8x16x2) (s₁ := S8x16x1) (s₂ := S8x16x1) (2 : Fin 3) _ _ _ (ix3 r n (1 : Fin 2)) rfl rfl (ix3 r n (0 : Fin 1)) ?_ rfl).trans ?_
  · intro b hb
    match b with
    | ⟨0, _⟩ => rfl
    | ⟨1, _⟩ => rfl
    | ⟨2, _⟩ => exact absurd rfl hb
  refine (broadcastInDim_apply _ _ _ (ix3 r n (0 : Fin 1)) (ix2 r n) ?_)
  intro a
  match a with
  | ⟨0, _⟩ => rfl
  | ⟨1, _⟩ => rfl

/-- The first word of the target start index `(r, g)`: the wrapped batch counter. -/
theorem idxTar_zero (r : Fin 8) (g : Fin 8) : idxTar (ix3 r g (0 : Fin 2)) = batchWrap (ix2 r (0 : Fin 1)) := by
  refine (concatenate_pair_apply_left (t := S8x8x2) (s₁ := S8x8x1) (s₂ := S8x8x1) (2 : Fin 3) _ _ _ (ix3 r g (0 : Fin 2)) rfl (ix3 r g (0 : Fin 1)) ?_).trans ?_
  · intro b
    match b with
    | ⟨0, _⟩ => rfl
    | ⟨1, _⟩ => rfl
    | ⟨2, _⟩ => rfl
  refine (broadcastInDim_apply _ _ _ (ix3 r g (0 : Fin 1)) (ix2 r g) ?_).trans ?_
  · intro a
    match a with
    | ⟨0, _⟩ => rfl
    | ⟨1, _⟩ => rfl
  refine (broadcastInDim_apply _ _ _ (ix2 r g) (ix2 r (0 : Fin 1)) ?_)
  intro a
  match a with
  | ⟨0, _⟩ => rfl
  | ⟨1, _⟩ => rfl

/-- The second word of the target start index `(r, g)`: the wrapped view number. -/
theorem idxTar_one (r : Fin 8) (g : Fin 8) : idxTar (ix3 r g (1 : Fin 2)) = tarWrap (ix2 r g) := by
  refine (concatenate_pair_apply_right (t := S8x8x2) (s₁ := S8x8x1) (s₂ := S8x8x1) (2 : Fin 3) _ _ _ (ix3 r g (1 : Fin 2)) rfl rfl (ix3 r g (0 : Fin 1)) ?_ rfl).trans ?_
  · intro b hb
    match b with
    | ⟨0, _⟩ => rfl
    | ⟨1, _⟩ => rfl
    | ⟨2, _⟩ => exact absurd rfl hb
  refine (broadcastInDim_apply _ _ _ (ix3 r g (0 : Fin 1)) (ix2 r g) ?_)
  intro a
  match a with
  | ⟨0, _⟩ => rfl
  | ⟨1, _⟩ => rfl

/-! ## The words, read signed and clamped -/

/-- A batch counter in 0..7 is not wrapped, and reads back as itself. -/
theorem batch_word : ∀ r : Fin 8,
    min (Scalar.select (IntOp.cmpi .slt (BitVec.ofNat 32 r.val) 0#32)
      (IntOp.addi (BitVec.ofNat 32 r.val) 8#32) (BitVec.ofNat 32 r.val)).toInt.toNat (8 - 1) = r.val := by decide

/-- An input view number is not wrapped, and reads back as the slot's view. -/
theorem in_word : ∀ n : Fin 16,
    min (Scalar.select (IntOp.cmpi .slt (Cert.Spec.litIn n) 0#32)
      (IntOp.addi (Cert.Spec.litIn n) 24#32) (Cert.Spec.litIn n)).toInt.toNat (24 - 1) = (Cert.Spec.inView n).val := by decide

/-- A target view number is not wrapped, and reads back as the slot's view. -/
theorem tar_word : ∀ g : Fin 8,
    min (Scalar.select (IntOp.cmpi .slt (Cert.Spec.litTar g) 0#32)
      (IntOp.addi (Cert.Spec.litTar g) 24#32) (Cert.Spec.litTar g)).toInt.toNat (24 - 1) = (Cert.Spec.tarView g).val := by decide

/-! ## The image results -/

/-- The input images: the gather at the input start indices is the argument restricted to the input views. -/
theorem gatherIn_eq {α : Type} (x : S8x24x3x256x256.Idx → α) :
    Host.gather gather_S8x24x3x256x256_S8x16x2_S8x16x3x256x256_234_01_n_n_01_2_113256256 x idxIn = Cert.Spec.inputImg x := by
  funext j
  obtain ⟨r, n, c, h, w, rfl⟩ : ∃ (r : Fin 8) (n : Fin 16) (c : Fin 3) (h : Fin 256) (w : Fin 256), j = ix5 r n c h w :=
    ⟨j 0, j 1, j 2, j 3, j 4, eq_ix5 j⟩
  refine (Cert.RefGather.gather_view_apply (B := 8) (V := 24) (C := 3) (H := 256) (W := 256) (R := 8) (N := 16)
    (by decide) (by decide) gather_S8x24x3x256x256_S8x16x2_S8x16x3x256x256_234_01_n_n_01_2_113256256_wf x idxIn
    r n c h w).trans ?_
  refine congrArg x ?_
  funext a
  refine Fin.ext ?_
  match a with
  | ⟨0, _⟩ =>
    show min (idxIn (ix3 r n (0 : Fin 2))).toInt.toNat (8 - 1) = r.val
    rw [idxIn_zero, batchWrap_apply]
    exact batch_word r
  | ⟨1, _⟩ =>
    show min (idxIn (ix3 r n (1 : Fin 2))).toInt.toNat (24 - 1) = (Cert.Spec.inView n).val
    rw [idxIn_one, inWrap_apply]
    exact in_word n
  | ⟨2, _⟩ => rfl
  | ⟨3, _⟩ => rfl
  | ⟨4, _⟩ => rfl

/-- The target images: the gather at the target start indices is the argument restricted to the target views. -/
theorem gatherTar_eq {α : Type} (x : S8x24x3x256x256.Idx → α) :
    Host.gather gather_S8x24x3x256x256_S8x8x2_S8x8x3x256x256_234_01_n_n_01_2_113256256 x idxTar = Cert.Spec.targetImg x := by
  funext j
  obtain ⟨r, n, c, h, w, rfl⟩ : ∃ (r : Fin 8) (n : Fin 8) (c : Fin 3) (h : Fin 256) (w : Fin 256), j = ix5 r n c h w :=
    ⟨j 0, j 1, j 2, j 3, j 4, eq_ix5 j⟩
  refine (Cert.RefGather.gather_view_apply (B := 8) (V := 24) (C := 3) (H := 256) (W := 256) (R := 8) (N := 8)
    (by decide) (by decide) gather_S8x24x3x256x256_S8x8x2_S8x8x3x256x256_234_01_n_n_01_2_113256256_wf x idxTar
    r n c h w).trans ?_
  refine congrArg x ?_
  funext a
  refine Fin.ext ?_
  match a with
  | ⟨0, _⟩ =>
    show min (idxTar (ix3 r n (0 : Fin 2))).toInt.toNat (8 - 1) = r.val
    rw [idxTar_zero, batchWrap_apply]
    exact batch_word r
  | ⟨1, _⟩ =>
    show min (idxTar (ix3 r n (1 : Fin 2))).toInt.toNat (24 - 1) = (Cert.Spec.tarView n).val
    rw [idxTar_one, tarWrap_apply]
    exact tar_word n
  | ⟨2, _⟩ => rfl
  | ⟨3, _⟩ => rfl
  | ⟨4, _⟩ => rfl

/-! ## The run, against the specification -/

/-- On every device, from any memory with zero counters: every weakly fair execution of the reference terminates with
    its four results the specification's functions of the argument, and the argument unchanged. -/
theorem run_spec (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
        r.2.mem ((c.tc : Thread nD τ).loc main_v24) = Cert.Spec.inputImg (m ((c.tc : Thread nD τ).loc main_arg0))
      ∧ r.2.mem ((c.tc : Thread nD τ).loc main_v39) = Cert.Spec.targetImg (m ((c.tc : Thread nD τ).loc main_arg0))
      ∧ r.2.mem ((c.tc : Thread nD τ).loc main_v3) = Cert.Spec.inPat
      ∧ r.2.mem ((c.tc : Thread nD τ).loc main_v7) = Cert.Spec.tarPat
      ∧ r.2.mem ((c.tc : Thread nD τ).loc main_arg0) = m ((c.tc : Thread nD τ).loc main_arg0)) :=
  (θ_run (defs (F := Ideal)) _ _).mono (fun _ h c => ⟨((h c).1).trans (gatherIn_eq _), ((h c).2.1).trans (gatherTar_eq _),
      ((h c).2.2.1).trans patIn_eq, ((h c).2.2.2.1).trans patTar_eq, (h c).2.2.2.2⟩)
    (run (F := Ideal) m g)

end Cert.ReferenceIdeal.RefRun

end
-- ==== Proof.lean ====
/-
  The proof of `Cert.Claim`.

  The argument `image : f32[8, 24, 3, 256, 256]` holds 24 views per batch entry in 8 groups of three: two input views, then
  one target view. Both programs return the input views `[8, 16, …]`, the target views `[8, 8, …]` and the two tables of
  view numbers, tiled over the batch. The reference gathers along the view axis at those numbers. The kernel moves data only:
  a TensorCore copy takes the first 1536 of the 2304 rows of every group (its two input views), and 32 SparseCore workers
  each copy twelve half-channel chunks of the target views, chunk `k` from chunk `18 (k / 6) + 12 + k % 6`. A reshape keeps
  row-major position, so index by index both programs read the same entry of the argument (`Cert.Spec`): no arithmetic on
  floats occurs, and the equality holds at every extended real; the precondition is not used.

  Each kernel program's run (`run_main`, once per instance) ends with the four results at the specification's functions of
  the unchanged argument: the three frames are the runs with the values dropped, and the value claim pairs the idealized
  kernel's run with the reference's. The idealization rewrote nothing, so `preserves` is trivial.
-/
import proofs.«216314_g7602092114391_cont_9to1c4b_856_27_alg».proof.Defs
import proofs.«216314_g7602092114391_cont_9to1c4b_856_27_alg».proof.Proof.Gen.Kernel
import proofs.«216314_g7602092114391_cont_9to1c4b_856_27_alg».proof.Proof.Gen.KernelIdeal
import proofs.«216314_g7602092114391_cont_9to1c4b_856_27_alg».proof.Proof.Gen.ReferenceIdeal
import proofs.«216314_g7602092114391_cont_9to1c4b_856_27_alg».proof.Proof.Gen.Pre_finite_inputs
import proofs.«216314_g7602092114391_cont_9to1c4b_856_27_alg».proof.Proof.RunI
import proofs.«216314_g7602092114391_cont_9to1c4b_856_27_alg».proof.Proof.RunB
import proofs.«216314_g7602092114391_cont_9to1c4b_856_27_alg».proof.Proof.RefValue
import Idealize.ShloMosaic.Adequacy
import Idealize.ShloMosaic.Init

noncomputable section

namespace Cert.Proof

open Idealize.ShloMosaic Idealize.SL.Sem

/-- The kernel as printed runs and keeps its argument. -/
theorem frame_k : Cert.frame_Kernel := fun m ρ _ =>
  (θ_run Cert.Kernel.defs _ _).mono (fun _ h c => (h c).2.2.2.2) (Cert.Proof.KB.run_main (F := Bits) m ρ)

/-- The idealized kernel runs and keeps its argument. -/
theorem frame_ki : Cert.frame_KernelIdeal := fun m ρ _ =>
  (θ_run Cert.KernelIdeal.defs _ _).mono (fun _ h c => (h c).2.2.2.2) (Cert.Proof.KI.run_main (F := Ideal) m ρ)

/-- The reference runs and keeps its argument. -/
theorem frame_ri : Cert.frame_ReferenceIdeal := fun m ρ _ =>
  (θ_run Cert.ReferenceIdeal.defs _ _).mono (fun _ h c => (h c).2.2.2.2) (Cert.ReferenceIdeal.RefRun.run_spec m ρ)

/-- From memories agreeing on the argument both idealized programs end with the specification's four functions of it. -/
theorem algebraic : Cert.algebraic_KernelIdeal_ReferenceIdeal := by
  intro m ρ m' ρ' _ hagree
  refine ⟨fun c => Cert.Spec.inputImg (m ((c.tc : Thread Cert.KernelIdeal.nD Cert.KernelIdeal.τ).loc Cert.KernelIdeal.main_arg0)),
    fun c => Cert.Spec.targetImg (m ((c.tc : Thread Cert.KernelIdeal.nD Cert.KernelIdeal.τ).loc Cert.KernelIdeal.main_arg0)),
    fun _ => Cert.Spec.inPat, fun _ => Cert.Spec.tarPat, Cert.Proof.KI.run_main (F := Ideal) m ρ, ?_⟩
  refine (θ_run Cert.ReferenceIdeal.defs _ _).mono (fun _ h c => ?_) (Cert.ReferenceIdeal.RefRun.run_spec m' ρ')
  obtain ⟨h1, h2, h3, h4, h5⟩ := h c
  exact ⟨by rw [h1, hagree c], by rw [h2, hagree c], h3, h4, h5⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
